-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S128x40 .f32) (main_arg9 : FVec F S40 .f32) (main_v33 : IVec S_ 1) : IVec S_ 1 :=
  let main_v34 : FVec F S128x40 .f32 := Host.absf main_arg8
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S128 .f32) (main_arg6 : FVec F S128 .f32) (main_arg7 : FVec F S128x40 .f32) (main_arg8 : FVec F S128x40 .f32) (main_arg9 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x40 .f32 := Host.absf main_arg7
  let main_cst_10 : FVec F S_ .f32 := constant S_ .f32 0x7F800000#32
  let main_v30 : FVec F S128x40 .f32 := broadcastInDim S128x40 ![] bcast_S_S128x40 main_cst_10
  let main_v31 : IVec S128x40 1 := cmpf .olt main_v29 main_v30
  let main_c_11 : IVec S_ 1 := constantI S_ 1 1#1
  let main_v32 : IVec S_ 1 := (fun x v => Host.reduce IntOp.andi x v reducesTo_S128x40_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128 .f32) (main_arg6 : FVec F S128 .f32) (main_arg7 : FVec F S128x40 .f32) (main_arg8 : FVec F S128x40 .f32) (main_arg9 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1600000x129 : Shape := ⟨2, ![1600000, 129]⟩
abbrev S100000x129 : Shape := ⟨2, ![100000, 129]⟩
abbrev S100000x1 : Shape := ⟨2, ![100000, 1]⟩
abbrev S100000 : Shape := ⟨1, ![100000]⟩
abbrev S1x128 : Shape := ⟨2, ![1, 128]⟩
abbrev S16x128 : Shape := ⟨2, ![16, 128]⟩
abbrev S5000x128 : Shape := ⟨2, ![5000, 128]⟩
abbrev S8x128 : Shape := ⟨2, ![8, 128]⟩
abbrev S10000x128 : Shape := ⟨2, ![10000, 128]⟩
abbrev S1x40 : Shape := ⟨2, ![1, 40]⟩
abbrev S100000x40 : Shape := ⟨2, ![100000, 40]⟩

abbrev nBuf : Space → Nat
  | .hbm => 95
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x40, .f32⟩
  | .hbm, ⟨8, _⟩ => ⟨S128x40, .f32⟩
  | .hbm, ⟨9, _⟩ => ⟨S40, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S1600000x1, .f32⟩
  | .hbm, ⟨26, _⟩ => ⟨S1600000x129, .f32⟩
  | .hbm, ⟨27, _⟩ => ⟨S_, .f32⟩
  | .hbm, ⟨28, _⟩ => ⟨S100000x129, .f32⟩
  | .hbm, ⟨29, _⟩ => ⟨S1600000x1, .i32⟩
  | .hbm, ⟨30, _⟩ => ⟨S100000x129, .f32⟩
  | .hbm, ⟨31, _⟩ => ⟨S100000x1, .f32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S16x128, .f32⟩
  | .hbm, ⟨46, _⟩ => ⟨S16x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S_, .f32⟩
  | .hbm, ⟨54, _⟩ => ⟨S1x128, .f32⟩
  | .hbm, ⟨55, _⟩ => ⟨S1x128, .f32⟩
  | .hbm, ⟨56, _⟩ => ⟨S_, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S_, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S100000x128, .bf16⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .bf16⟩
  | .hbm, ⟨76, _⟩ => ⟨S1600000x128, .f32⟩
  | .hbm, ⟨77, _⟩ => ⟨S_, .f32⟩
  | .hbm, ⟨78, _⟩ => ⟨S100000x128, .f32⟩
  | .hbm, ⟨79, _⟩ => ⟨S1600000x1, .i32⟩
  | .hbm, ⟨80, _⟩ => ⟨S100000x128, .f32⟩
  | .hbm, ⟨81, _⟩ => ⟨S100000x128, .f32⟩
  | .hbm, ⟨82, _⟩ => ⟨S100000x128, .f32⟩
  | .hbm, ⟨83, _⟩ => ⟨S_, .i32⟩
  | .hbm, ⟨84, _⟩ => ⟨S_, .f32⟩
  | .hbm, ⟨85, _⟩ => ⟨S128x128, .f32⟩
  | .hbm, ⟨86, _⟩ => ⟨S_, .i32⟩
  | .hbm, ⟨87, _⟩ => ⟨S_, .f32⟩
  | .hbm, ⟨88, _⟩ => ⟨S128x128, .f32⟩
  | .hbm, ⟨89, _⟩ => ⟨S1x40, .f32⟩
  | .hbm, ⟨90, _⟩ => ⟨S_, .i32⟩
  | .hbm, ⟨91, _⟩ => ⟨S_, .f32⟩
  | .hbm, ⟨92, _⟩ => ⟨S1x128, .f32⟩
  | .hbm, ⟨93, _⟩ => ⟨S100000x128, .f32⟩
  | .hbm, ⟨94, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S10000x128, .f32⟩
  | .local _ .vmem, ⟨14, _⟩ => ⟨S10000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S10000x128, .bf16⟩
  | .local _ .vmem, ⟨20, _⟩ => ⟨S10000x128, .bf16⟩
  | .local _ .vmem, ⟨21, _⟩ => ⟨S10000x128, .f32⟩
  | .local _ .vmem, ⟨22, _⟩ => ⟨S10000x128, .f32⟩
  | .local _ .vmem, ⟨23, _⟩ => ⟨S10000x128, .bf16⟩
  | .local _ .vmem, ⟨24, _⟩ => ⟨S10000x128, .bf16⟩
  | .local _ .vmem, ⟨25, _⟩ => ⟨S128x128, .f32⟩
  | .local _ .vmem, ⟨26, _⟩ => ⟨S128x128, .f32⟩
  | .local _ .vmem, ⟨27, _⟩ => ⟨S1x128, .f32⟩
  | .local _ .vmem, ⟨28, _⟩ => ⟨S10000x128, .f32⟩
  | .local _ .vmem, ⟨29, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28_0 : Ref sig .tc := ⟨.hbm, 44, rfl⟩
abbrev main_v28_1 : Ref sig .tc := ⟨.hbm, 45, rfl⟩
abbrev main_v28_2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_cst_5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_7 : Ref sig .tc := ⟨.hbm, 67, rfl⟩
abbrev main_v46 : Ref sig .tc := ⟨.hbm, 68, rfl⟩
abbrev main_v47 : Ref sig .tc := ⟨.hbm, 69, rfl⟩
abbrev main_c_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_9 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_10 : Ref sig .tc := ⟨.hbm, 83, rfl⟩
abbrev main_call0_v0 : Ref sig .tc := ⟨.hbm, 84, rfl⟩
abbrev main_v59 : Ref sig .tc := ⟨.hbm, 85, rfl⟩
abbrev main_c_11 : Ref sig .tc := ⟨.hbm, 86, rfl⟩
abbrev main_call1_v0 : Ref sig .tc := ⟨.hbm, 87, rfl⟩
abbrev main_v60 : Ref sig .tc := ⟨.hbm, 88, rfl⟩
abbrev main_v61 : Ref sig .tc := ⟨.hbm, 89, rfl⟩
abbrev main_c_12 : Ref sig .tc := ⟨.hbm, 90, rfl⟩
abbrev main_call2_v0 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29

abbrev nD : Nat := 1
abbrev τ : Topo := Topo.v7x

variable {F : FTy → Type} [FloatOps F]

abbrev grid0 : Pipeline.Grid := ⟨2, ![2, 10], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x128_S1600000x1_S1600000x129_d1 : Shape.Concatenates [S1600000x128, S1600000x1] S1600000x129 1
  bcast_S_S100000x129 : S_.BroadcastsInDim S100000x129 (![] : Fin 0 → Fin S100000x129.rank)
  slices_S100000x129_S100000x1_0_128 : S100000x129.Slices ![0, 128] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S100000x129_S100000x128_0_0 : S100000x129.Slices ![0, 0] S100000x128
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S8x128_S8x128_0_0 : ∀ a, (![0, 0] : Fin 2 → Nat) a + S8x128.size a ≤ S8x128.size a
  h_S8x128 : 0 < S8x128.numel
  inb_S8x128_S1x128_0_0 : ∀ a, (![0, 0] : Fin 2 → Nat) a + S1x128.size a ≤ S8x128.size a
  reduces_S5000x128_S128 : S5000x128.Reduces [0] S128
  slices_S16x128_S1x128_0_0 : S16x128.Slices ![0, 0] S1x128
  slices_S16x128_S1x128_8_0 : S16x128.Slices ![8, 0] S1x128
  bcast_S_S1x128 : S_.BroadcastsInDim S1x128 (![] : Fin 0 → Fin S1x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S10000x128 : S1x128.Broadcasts S10000x128
  packedbf16_S10000x128_S10000x128_0_0 : (Rect.unit (s := S10000x128) ![0, 0] S10000x128.size inb_S10000x128_S10000x128_0_0).PackedRows (EltTy.packing .bf16)
  bcast_S_S100000x128 : S_.BroadcastsInDim S100000x128 (![] : Fin 0 → Fin S100000x128.rank)
  pads_S128x40_S128x128_000_0880 : S128x40.Pads (![0, 0] : Fin 2 → Nat) ![0, 88] ![0, 0] S128x128
  h_S_ : 0 < S_.numel
  shapeCasts_S40_S1x40 : S40.ShapeCasts S1x40
  pads_S1x40_S1x128_000_0880 : S1x40.Pads (![0, 0] : Fin 2 → Nat) ![0, 88] ![0, 0] S1x128
  shapeCasts_S128x128_S128x128 : S128x128.ShapeCasts S128x128
  slices_S100000x128_S100000x40_0_0 : S100000x128.Slices ![0, 0] S100000x40
  gather_S100000x128_S1600000x1_S1600000x128_1_0_n_n_0_1_1128_wf : GatherDims.WF S100000x128 S1600000x1 S1600000x128 [1] [0] [] [0] [] 1 ![1, 128]
  scatter_S100000x129_S1600000x1_S1600000x129_1_0_0_1_wf : ScatterDims.WF S100000x129 S1600000x1 S1600000x129 [1] [0] [0] 1
  dot_S5000x128_S128x128_S5000x128_1_0_0_1_n_n_wf : DotDims.WF S5000x128 S128x128 S5000x128 [1] [0] [0] [1] [] []
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S16x128.size a
  hwx0_6 : ∀ i : grid0.Coords, EltTy.bits .f32 = 32 ∨ (Rect.block (s := S16x128) S8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S16x128.size a
  hwx0_7 : ∀ i : grid0.Coords, EltTy.bits .f32 = 32 ∨ (Rect.block (s := S16x128) S8x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .bf16 = 32 ∨ (Rect.block (s := S100000x128) S10000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S100000x128.size a
  hwx2_1 : ∀ i : grid2.Coords, EltTy.bits .bf16 = 32 ∨ (Rect.block (s := S100000x128) S10000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S100000x128.size a
  hwx2_5 : ∀ i : grid2.Coords, EltTy.bits .f32 = 32 ∨ (Rect.block (s := S100000x128) S10000x128.size (cc2_transform_5 i) (hinb2_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x129_S1600000x1_S1600000x129_1_0_0_1 : ScatterDims S100000x129 S1600000x1 S1600000x129 where
  updateWindowDims := [1]
  insertedWindowDims := [0]
  scatterDimsToOperandDims := [0]
  indexVectorDim := 1
  wf := scatter_S100000x129_S1600000x1_S1600000x129_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v26) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v28_1) S8x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v28_2) S8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v28_0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S10000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x40 : Shape := ⟨2, ![100000, 40]⟩
abbrev S1x40 : Shape := ⟨2, ![1, 40]⟩

abbrev nBuf : Space → Nat
  | .hbm => 123
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x40, .f32⟩
  | .hbm, ⟨8, _⟩ => ⟨S128x40, .f32⟩
  | .hbm, ⟨9, _⟩ => ⟨S40, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S_, .i32⟩
  | .hbm, ⟨51, _⟩ => ⟨S_, .f32⟩
  | .hbm, ⟨52, _⟩ => ⟨S128, .f32⟩
  | .hbm, ⟨53, _⟩ => ⟨S1x128, .f32⟩
  | .hbm, ⟨54, _⟩ => ⟨S_, .f32⟩
  | .hbm, ⟨55, _⟩ => ⟨S1x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S128, .f32⟩
  | .hbm, ⟨67, _⟩ => ⟨S_, .f32⟩
  | .hbm, ⟨68, _⟩ => ⟨S_, .i1⟩
  | .hbm, ⟨69, _⟩ => ⟨S_, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S128, .f32⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .f32⟩
  | .hbm, ⟨92, _⟩ => ⟨S_, .i32⟩
  | .hbm, ⟨93, _⟩ => ⟨S1600000, .i32⟩
  | .hbm, ⟨94, _⟩ => ⟨S1600000, .i1⟩
  | .hbm, ⟨95, _⟩ => ⟨S_, .i32⟩
  | .hbm, ⟨96, _⟩ => ⟨S1600000, .i32⟩
  | .hbm, ⟨97, _⟩ => ⟨S1600000, .i32⟩
  | .hbm, ⟨98, _⟩ => ⟨S1600000, .i32⟩
  | .hbm, ⟨99, _⟩ => ⟨S1600000x1, .i32⟩
  | .hbm, ⟨100, _⟩ => ⟨S1600000x128, .f32⟩
  | .hbm, ⟨101, _⟩ => ⟨S_, .f32⟩
  | .hbm, ⟨102, _⟩ => ⟨S100000x128, .f32⟩
  | .hbm, ⟨103, _⟩ => ⟨S1600000x1, .i32⟩
  | .hbm, ⟨104, _⟩ => ⟨S100000x128, .f32⟩
  | .hbm, ⟨105, _⟩ => ⟨S_, .f32⟩
  | .hbm, ⟨106, _⟩ => ⟨S1600000, .f32⟩
  | .hbm, ⟨107, _⟩ => ⟨S_, .f32⟩
  | .hbm, ⟨108, _⟩ => ⟨S100000, .f32⟩
  | .hbm, ⟨109, _⟩ => ⟨S1600000x1, .i32⟩
  | .hbm, ⟨110, _⟩ => ⟨S100000, .f32⟩
  | .hbm, ⟨111, _⟩ => ⟨S_, .f32⟩
  | .hbm, ⟨112, _⟩ => ⟨S100000, .f32⟩
  | .hbm, ⟨113, _⟩ => ⟨S100000, .f32⟩
  | .hbm, ⟨114, _⟩ => ⟨S100000x1, .f32⟩
  | .hbm, ⟨115, _⟩ => ⟨S100000x128, .f32⟩
  | .hbm, ⟨116, _⟩ => ⟨S100000x128, .f32⟩
  | .hbm, ⟨117, _⟩ => ⟨S100000x40, .f32⟩
  | .hbm, ⟨118, _⟩ => ⟨S100000x40, .f32⟩
  | .hbm, ⟨119, _⟩ => ⟨S100000x40, .f32⟩
  | .hbm, ⟨120, _⟩ => ⟨S1x40, .f32⟩
  | .hbm, ⟨121, _⟩ => ⟨S100000x40, .f32⟩
  | .hbm, ⟨122, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_cst_0 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_cst_1 : Ref sig .tc := ⟨.hbm, 61, rfl⟩
abbrev main_call0_v8 : Ref sig .tc := ⟨.hbm, 62, rfl⟩
abbrev main_call0_cst_2 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_cst_3 : Ref sig .tc := ⟨.hbm, 67, rfl⟩
abbrev main_call0_v12 : Ref sig .tc := ⟨.hbm, 68, rfl⟩
abbrev main_call0_cst_4 : Ref sig .tc := ⟨.hbm, 69, rfl⟩
abbrev main_call0_call0_v0 : Ref sig .tc := ⟨.hbm, 70, rfl⟩
abbrev main_call0_call0_v1 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_cst_7 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_call1_cst : Ref sig .tc := ⟨.hbm, 89, rfl⟩
abbrev main_call1_v0 : Ref sig .tc := ⟨.hbm, 90, rfl⟩
abbrev main_v48 : Ref sig .tc := ⟨.hbm, 91, rfl⟩
abbrev main_c_8 : Ref sig .tc := ⟨.hbm, 92, rfl⟩
abbrev main_v49 : Ref sig .tc := ⟨.hbm, 93, rfl⟩
abbrev main_v50 : Ref sig .tc := ⟨.hbm, 94, rfl⟩
abbrev main_c_9 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_10 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_11 : Ref sig .tc := ⟨.hbm, 105, rfl⟩
abbrev main_v59 : Ref sig .tc := ⟨.hbm, 106, rfl⟩
abbrev main_cst_12 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_cst_13 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KerRun.lean ====
/-
  The idealized kernel's run with its result named.  The program is twelve segments: stretches of host operations and
  three kernel regions.  Launched over those segments, every weakly fair execution terminates without a fault in a state
  whose every unscoped buffer holds the last boundary's contents; read at the result buffer that is the value below, and
  at the ten argument buffers it is what they were launched with.
-/
import proofs.«136065_j25357486915627_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting; the result buffer ends at the last
    boundary's contents and the arguments end as launched. -/
theorem run : θ_run defs (onTc (τ := τ) (main (F := F))) ⟨m, fun _ => 0, ρ⟩ (fun r => ∀ c : Dev nD,
      r.2.mem ((c.tc : Thread nD τ).loc main_v64) = W12 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v64 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c)⟩)

end Cert.KernelIdeal.RunValue

end
-- ==== Proof.Host0Ops.lean ====
import proofs.«136065_j25357486915627_2_alg».proof.Proof.Gen.KernelIdeal.Launch
import Idealize.ShloMosaic.Lib.StableHlo.Run

set_option maxRecDepth 100000

noncomputable section

namespace Cert.KernelIdeal.Stretch0

open Idealize.ShloMosaic Idealize.ShloMosaic.TcCoe Idealize.SL.Sem
open Cert.KernelIdeal Cert.KernelIdeal.Gen

variable {F : FTy → Type} [FloatOps F]

/-- Operations 1–4: the source words and the target words of the edges. -/
abbrev wordOps : List (HloOp τ sig (Elt F)) :=
  ( StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F))
  :: StableHlo.reshape main_v0 main_v1 rfl shapeCasts_S1x1600000_S1600000
  :: StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F))
  :: StableHlo.reshape main_v2 main_v3 rfl shapeCasts_S1x1600000_S1600000
  :: [] )

/-- Operations 5–17: the wrapped source words, the gathered features and the column of ones, side by side. -/
abbrev gatherOps : List (HloOp τ sig (Elt F)) :=
  ( StableHlo.nullary main_cst (constant S_ .f32 0x3F800000#32)
  :: StableHlo.unary main_cst main_v4 (broadcastInDim S1600000 ![] bcast_S_S1600000 : (⟨S_, .f32⟩ : BufTy).Contents (Elt F) → (⟨S1600000, .f32⟩ : BufTy).Contents (Elt F))
  :: StableHlo.nullary main_c (constantI S_ 32 0#32)
  :: StableHlo.unary main_c main_v5 (broadcastInDim S1600000 ![] bcast_S_S1600000 : (⟨S_, .i32⟩ : BufTy).Contents (Elt F) → (⟨S1600000, .i32⟩ : BufTy).Contents (Elt F))
  :: StableHlo.binary main_v1 main_v5 main_v6 (cmpi .slt : (⟨S1600000, .i32⟩ : BufTy).Contents (Elt F) → (⟨S1600000, .i32⟩ : BufTy).Contents (Elt F) → (⟨S1600000, .i1⟩ : BufTy).Contents (Elt F))
  :: StableHlo.nullary main_c_0 (constantI S_ 32 100000#32)
  :: StableHlo.unary main_c_0 main_v7 (broadcastInDim S1600000 ![] bcast_S_S1600000 : (⟨S_, .i32⟩ : BufTy).Contents (Elt F) → (⟨S1600000, .i32⟩ : BufTy).Contents (Elt F))
  :: StableHlo.binary main_v1 main_v7 main_v8 (addi : (⟨S1600000, .i32⟩ : BufTy).Contents (Elt F) → (⟨S1600000, .i32⟩ : BufTy).Contents (Elt F) → (⟨S1600000, .i32⟩ : BufTy).Contents (Elt F))
  :: StableHlo.ternary main_v6 main_v8 main_v1 main_v9 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: StableHlo.unary main_v9 main_v10 (broadcastInDim S1600000x1 ![0] bcast_S1600000_S1600000x1_0 : (⟨S1600000, .i32⟩ : BufTy).Contents (Elt F) → (⟨S1600000x1, .i32⟩ : BufTy).Contents (Elt F))
  :: StableHlo.binary main_arg0 main_v10 main_v11 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F))
  :: StableHlo.unary main_v4 main_v12 (broadcastInDim S1600000x1 ![0] bcast_S1600000_S1600000x1_0 : (⟨S1600000, .f32⟩ : BufTy).Contents (Elt F) → (⟨S1600000x1, .f32⟩ : BufTy).Contents (Elt F))
  :: StableHlo.binary main_v11 main_v12 main_v13 ((fun a b => concatenate S1600000x129 1 [⟨S1600000x128, a⟩, ⟨S1600000x1, b⟩] concatenates_S1600000x128_S1600000x1_S1600000x129_d1) : (⟨S1600000x128, .f32⟩ : BufTy).Contents (Elt F) → (⟨S1600000x1, .f32⟩ : BufTy).Contents (Elt F) → (⟨S1600000x129, .f32⟩ : BufTy).Contents (Elt F))
  :: [] )

/-- Operations 18–21: the 129-column rows scatter-added by the target words into zeros. -/
abbrev scatterOps : List (HloOp τ sig (Elt F)) :=
  ( StableHlo.nullary main_cst_1 (constant S_ .f32 0x00000000#32)
  :: StableHlo.unary main_cst_1 main_v14 (broadcastInDim S100000x129 ![] bcast_S_S100000x129 : (⟨S_, .f32⟩ : BufTy).Contents (Elt F) → (⟨S100000x129, .f32⟩ : BufTy).Contents (Elt F))
  :: StableHlo.unary main_v3 main_v15 (broadcastInDim S1600000x1 ![0] bcast_S1600000_S1600000x1_0 : (⟨S1600000, .i32⟩ : BufTy).Contents (Elt F) → (⟨S1600000x1, .i32⟩ : BufTy).Contents (Elt F))
  :: StableHlo.ternary main_v14 main_v15 main_v13 main_v16 ((fun x i u => Host.scatterAdd scatter_S100000x129_S1600000x1_S1600000x129_1_0_0_1 x i u) : (⟨S100000x129, .f32⟩ : BufTy).Contents (Elt F) → (⟨S1600000x1, .i32⟩ : BufTy).Contents (Elt F) → (⟨S1600000x129, .f32⟩ : BufTy).Contents (Elt F) → (⟨S100000x129, .f32⟩ : BufTy).Contents (Elt F))
  :: [] )

/-- Operations 22–34: the floored count's reciprocal, the scaled first 128 columns, and the bias as a row. -/
abbrev tailOps : List (HloOp τ sig (Elt F)) :=
  ( StableHlo.unary main_v16 main_v17 ((extractStridedSlice S100000x1 ![0, 128] · slices_S100000x129_S100000x1_0_128) : (⟨S100000x129, .f32⟩ : BufTy).Contents (Elt F) → (⟨S100000x1, .f32⟩ : BufTy).Contents (Elt F))
  :: StableHlo.reshape main_v17 main_v18 rfl shapeCasts_S100000x1_S100000
  :: StableHlo.nullary main_cst_2 (constant S_ .f32 0x3F800000#32)
  :: StableHlo.unary main_cst_2 main_v19 (broadcastInDim S100000 ![] bcast_S_S100000 : (⟨S_, .f32⟩ : BufTy).Contents (Elt F) → (⟨S100000, .f32⟩ : BufTy).Contents (Elt F))
  :: StableHlo.binary main_v18 main_v19 main_v20 (maximumf : (⟨S100000, .f32⟩ : BufTy).Contents (Elt F) → (⟨S100000, .f32⟩ : BufTy).Contents (Elt F) → (⟨S100000, .f32⟩ : BufTy).Contents (Elt F))
  :: StableHlo.nullary main_cst_3 (constant S_ .f32 0x3F800000#32)
  :: StableHlo.unary main_cst_3 main_v21 (broadcastInDim S100000 ![] bcast_S_S100000 : (⟨S_, .f32⟩ : BufTy).Contents (Elt F) → (⟨S100000, .f32⟩ : BufTy).Contents (Elt F))
  :: StableHlo.binary main_v21 main_v20 main_v22 (Host.divf : (⟨S100000, .f32⟩ : BufTy).Contents (Elt F) → (⟨S100000, .f32⟩ : BufTy).Contents (Elt F) → (⟨S100000, .f32⟩ : BufTy).Contents (Elt F))
  :: StableHlo.unary main_v22 main_v23 (broadcastInDim S100000x1 ![0] bcast_S100000_S100000x1_0 : (⟨S100000, .f32⟩ : BufTy).Contents (Elt F) → (⟨S100000x1, .f32⟩ : BufTy).Contents (Elt F))
  :: StableHlo.unary main_v16 main_v24 ((extractStridedSlice S100000x128 ![0, 0] · slices_S100000x129_S100000x128_0_0) : (⟨S100000x129, .f32⟩ : BufTy).Contents (Elt F) → (⟨S100000x128, .f32⟩ : BufTy).Contents (Elt F))
  :: StableHlo.unary main_v23 main_v25 (broadcastInDim S100000x128 ![0, 1] bcast_S100000x1_S100000x128_0_1 : (⟨S100000x1, .f32⟩ : BufTy).Contents (Elt F) → (⟨S100000x128, .f32⟩ : BufTy).Contents (Elt F))
  :: StableHlo.binary main_v24 main_v25 main_v26 (mulf : (⟨S100000x128, .f32⟩ : BufTy).Contents (Elt F) → (⟨S100000x128, .f32⟩ : BufTy).Contents (Elt F) → (⟨S100000x128, .f32⟩ : BufTy).Contents (Elt F))
  :: StableHlo.reshape main_arg4 main_v27 rfl shapeCasts_S128_S1x128
  :: [] )

/-- The four pieces, in order, are the whole list. -/
theorem hostOps0_split : (hostOps0 : List (HloOp τ sig (Elt F))) = wordOps ++ (gatherOps ++ (scatterOps ++ tailOps)) := rfl

/-- The contents after a list of operations followed by another are the second list's after the first's. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- The contents after the whole list, piece by piece. -/
theorem after_hostOps0 (V : Valuation τ sig (Elt F)) :
    StableHlo.after (hostOps0 (F := F)) V
      = StableHlo.after tailOps (StableHlo.after scatterOps (StableHlo.after gatherOps (StableHlo.after wordOps V))) := by
  rw [hostOps0_split, after_append, after_append, after_append]

end Cert.KernelIdeal.Stretch0

end
-- ==== Proof.Spec.lean ====
/-
  Two mean-aggregating graph convolutions with a batch normalisation and a rectifier between them, written as plain
  functions on the extended reals, one entry at a time.

  A graph on 100000 nodes is given by 1600000 edges, each a pair of 32-bit words (source, target).  A source word that
  is negative when read signed has 100000 added to it, and is then clamped into the table (below 0 reads node 0, past
  the end reads the last node).  A target word names the node whose signed value it is; an edge whose target word names
  no node contributes nothing.

  * `agg f`    : at node `n`, the sum of `f`'s rows at the sources of the edges into `n`, divided by the number of such
                 edges, that number floored at one;
  * `lin`      : `A · Wl + X · Wr + b`, row by row;
  * `mean`, `var` : the column mean over all nodes and the mean squared deviation from it;
  * `act`      : `max (γ · (h − mean) · rsqrt (var + ε) + β) 0`;
  * `out`      : the second convolution of the normalised, rectified first one.

  The four float literals are kept as the words the programs spell; only their values' few consequences that the
  algebra needs are proved, elsewhere.
-/
import Idealize.ShloMosaic.PureOps.Ideal
import Idealize.ShloMosaic.Lib.ValueIdx

noncomputable section

open scoped BigOperators

namespace GraphConv

open Idealize.ShloMosaic Idealize.ShloMosaic.ValueIdx

/-- An `a × b` array of extended reals. -/
abbrev Arr (a b : Nat) : Type := (⟨2, ![a, b]⟩ : Shape).Idx → EReal

/-- The edge list: row 0 the source words, row 1 the target words. -/
abbrev Edges : Type := (⟨2, ![2, 1600000]⟩ : Shape).Idx → BitVec 32

/-- The four literals, as spelt. -/
def zero : EReal := Ideal.ofBits .f32 0x00000000#32
def one : EReal := Ideal.ofBits .f32 0x3F800000#32
def nodes : EReal := Ideal.ofBits .f32 0x47C35000#32
def eps : EReal := Ideal.ofBits .f32 0x3727C5AC#32

/-- A negative node word counts from the end of the table. -/
def wrap (w : BitVec 32) : BitVec 32 :=
  Scalar.select (IntOp.cmpi .slt w 0#32) (IntOp.addi w 100000#32) w

/-- A node word clamped into the table. -/
def clampNode (w : BitVec 32) : Fin 100000 := ⟨min w.toInt.toNat 99999, by omega⟩

/-- The node edge `k` reads from. -/
def src (ei : Edges) (k : Fin 1600000) : Fin 100000 := clampNode (wrap (ei (ix2 (0 : Fin 2) k)))

/-- The edges that write into node `n`. -/
def into (ei : Edges) (n : Fin 100000) : Finset (Fin 1600000) :=
  Finset.univ.filter fun k => (ei (ix2 (1 : Fin 2) k)).toInt = (n.val : ℤ)

/-- The number of edges into `n`, floored at one. -/
def deg (ei : Edges) (n : Fin 100000) : EReal := max (zero + ∑ _k ∈ into ei n, one) one

/-- The mean of `f`'s rows over the edges into `n`, at column `c`. -/
def agg (f : Arr 100000 128) (ei : Edges) (n : Fin 100000) (c : Fin 128) : EReal :=
  Ideal.div (zero + ∑ k ∈ into ei n, f (ix2 (src ei k) c)) (deg ei n)

/-- `agg` as an array. -/
def aggArr (f : Arr 100000 128) (ei : Edges) : Arr 100000 128 :=
  fun i => agg f ei ⟨(i 0).val, idx2_lt0 i⟩ ⟨(i 1).val, idx2_lt1 i⟩

/-- One row of `A · Wl + X · Wr + b`. -/
def lin {C : Nat} (A X : Arr 100000 128) (Wl Wr : Arr 128 C) (b : Fin C → EReal) (n : Fin 100000) (j : Fin C) : EReal :=
  ((∑ k : Fin 128, A (ix2 n k) * Wl (ix2 k j)) + (∑ k : Fin 128, X (ix2 n k) * Wr (ix2 k j))) + b j

/-- `lin` as an array. -/
def linArr {C : Nat} (A X : Arr 100000 128) (Wl Wr : Arr 128 C) (b : Fin C → EReal) : Arr 100000 C :=
  fun i => lin A X Wl Wr b ⟨(i 0).val, idx2_lt0 i⟩ ⟨(i 1).val, idx2_lt1 i⟩

/-- The column mean over the nodes. -/
def mean (h : Arr 100000 128) (j : Fin 128) : EReal := Ideal.div (zero + ∑ n : Fin 100000, h (ix2 n j)) nodes

/-- The column's mean squared deviation from its mean. -/
def var (h : Arr 100000 128) (j : Fin 128) : EReal :=
  Ideal.div (zero + ∑ n : Fin 100000, (h (ix2 n j) - mean h j) * (h (ix2 n j) - mean h j)) nodes

/-- Normalise by given column statistics, scale, shift, rectify. -/
def actWith (mu va : Fin 128 → EReal) (h : Arr 100000 128) (γ β : Fin 128 → EReal) (n : Fin 100000) (j : Fin 128) : EReal :=
  max (((γ j * (h (ix2 n j) - mu j)) * Ideal.rsqrt (va j + eps)) + β j) zero

/-- Normalise by the column's own statistics. -/
def act (h : Arr 100000 128) (γ β : Fin 128 → EReal) (n : Fin 100000) (j : Fin 128) : EReal :=
  actWith (mean h) (var h) h γ β n j

/-- `act` as an array. -/
def actArr (h : Arr 100000 128) (γ β : Fin 128 → EReal) : Arr 100000 128 :=
  fun i => act h γ β ⟨(i 0).val, idx2_lt0 i⟩ ⟨(i 1).val, idx2_lt1 i⟩

/-- The first convolution. -/
def hidden (x : Arr 100000 128) (ei : Edges) (W1l W1r : Arr 128 128) (b1 : Fin 128 → EReal) : Arr 100000 128 :=
  linArr (aggArr x ei) x W1l W1r b1

/-- The whole network at node `n`, class `j`. -/
def out (x : Arr 100000 128) (ei : Edges) (W1l W1r : Arr 128 128) (b1 γ β : Fin 128 → EReal)
    (W2l W2r : Arr 128 40) (b2 : Fin 40 → EReal) (n : Fin 100000) (j : Fin 40) : EReal :=
  lin (aggArr (actArr (hidden x ei W1l W1r b1) γ β) ei) (actArr (hidden x ei W1l W1r b1) γ β) W2l W2r b2 n j

end GraphConv

end
-- ==== Proof.Lits.lean ====
/-
  What the algebra needs of the three literals: the zero word denotes 0, the one word denotes 1, and the node-count
  word denotes the real number 100000, the number of rows the column statistics run over.
-/
import proofs.«136065_j25357486915627_2_alg».proof.Proof.Spec

noncomputable section

namespace GraphConv

open Idealize.ShloMosaic

theorem zero_eq : zero = 0 := by
  unfold zero; simp [Ideal.ofBits, Ideal.ieee]

theorem one_eq : one = 1 := by
  unfold one; simp [Ideal.ofBits, Ideal.ieee, -EReal.coe_mul]; norm_num

theorem nodes_eq : nodes = ((100000 : ℝ) : EReal) := by
  unfold nodes; simp [Ideal.ofBits, Ideal.ieee, -EReal.coe_mul]; norm_num

end GraphConv

end
-- ==== Proof.LibERealCoe.lean ====
import Mathlib.Data.EReal.Operations
import Mathlib.Data.Finset.Lattice.Fold
import Mathlib.Algebra.BigOperators.Group.Finset.Basic

/-!
# The coercion `ℝ → EReal` commutes with `max`, `min`, finite sums and finite suprema

The coercion is known to commute with `+`, `-`, `*` and negation (`EReal.coe_add`, `EReal.coe_sub`,
`EReal.coe_mul`, `EReal.coe_neg`).  This file adds the companions for `max`, `min`, `∑ i ∈ S`, `Finset.sup'` and `Finset.inf'` (namespace
`ERealCoe`), each stated with the real operation inside the coercion on the left.
-/

namespace ERealCoe

open Finset

theorem coe_max (a b : ℝ) : ((max a b : ℝ) : EReal) = max (a : EReal) (b : EReal) :=
  EReal.coe_strictMono.monotone.map_max

theorem coe_min (a b : ℝ) : ((min a b : ℝ) : EReal) = min (a : EReal) (b : EReal) :=
  EReal.coe_strictMono.monotone.map_min

theorem coe_finset_sum {ι : Type*} (S : Finset ι) (f : ι → ℝ) :
    ((∑ i ∈ S, f i : ℝ) : EReal) = ∑ i ∈ S, ((f i : ℝ) : EReal) := by
  classical
  induction S using Finset.induction_on with
  | empty => simp
  | insert a S ha ih => rw [sum_insert ha, sum_insert ha, EReal.coe_add, ih]

theorem coe_sum {ι : Type*} [Fintype ι] (f : ι → ℝ) :
    ((∑ i, f i : ℝ) : EReal) = ∑ i, ((f i : ℝ) : EReal) :=
  coe_finset_sum univ f

theorem coe_sup' {ι : Type*} (S : Finset ι) (hS : S.Nonempty) (f : ι → ℝ) :
    ((S.sup' hS f : ℝ) : EReal) = S.sup' hS fun i => ((f i : ℝ) : EReal) :=
  apply_sup'_eq_sup'_comp hS (fun x : ℝ => (x : EReal)) coe_max

theorem coe_inf' {ι : Type*} (S : Finset ι) (hS : S.Nonempty) (f : ι → ℝ) :
    ((S.inf' hS f : ℝ) : EReal) = S.inf' hS fun i => ((f i : ℝ) : EReal) :=
  apply_inf'_eq_inf'_comp hS (fun x : ℝ => (x : EReal)) coe_min

end ERealCoe
-- ==== Proof.Algebra.lean ====
/-
  The two algebraic laws that join the tiled program to the plain one.

  * Multiplying by the reciprocal of a nonzero divisor is dividing by it: `a · (1 / c) = a / c`.  The in-degree floored
    at one is at least one, hence nonzero.
  * For a column of REAL numbers `f 0, …, f 99999` with sum `s` and sum of squares `q`, the mean of squares minus the
    square of the mean, `q / N − (s / N)²`, is the mean squared deviation `(∑ (f n − s / N)²) / N`: expand the square,
    `∑ (f n − μ)² = q − 2 μ s + N μ²` with `μ = s / N`.  Being a mean of squares it is nonnegative, so flooring it at
    zero changes nothing.  Here `N` is both the number of terms and the value of the node-count literal, 100000.
-/
import proofs.«136065_j25357486915627_2_alg».proof.Proof.Spec
import proofs.«136065_j25357486915627_2_alg».proof.Proof.Lits
import proofs.«136065_j25357486915627_2_alg».proof.Proof.LibERealCoe

noncomputable section

open scoped BigOperators

namespace GraphConv

open Idealize.ShloMosaic Idealize.ShloMosaic.ValueIdx

/-- Multiplying by the reciprocal of a nonzero divisor is dividing by it. -/
theorem mul_recip (a c : EReal) (hc : c ≠ 0) : a * Ideal.div one c = Ideal.div a c := by
  rw [one_eq, Ideal.div, Ideal.div, if_neg hc, if_neg hc, one_mul]

/-- The floored in-degree is at least one. -/
theorem one_le_deg (ei : Edges) (n : Fin 100000) : (1 : EReal) ≤ deg ei n := by
  unfold deg; rw [one_eq]; exact le_max_right _ _

theorem deg_ne_zero (ei : Edges) (n : Fin 100000) : deg ei n ≠ 0 := by
  intro h
  have h1 := one_le_deg ei n
  rw [h] at h1
  exact absurd h1 (not_le.mpr zero_lt_one)

/-- The column mean without its leading zero. -/
theorem mean_eq (h : Arr 100000 128) (j : Fin 128) : Ideal.div (∑ n : Fin 100000, h (ix2 n j)) nodes = mean h j := by
  unfold mean; rw [zero_eq, zero_add]

/-- The real computation: mean of squares minus squared mean is the mean squared deviation, and is nonnegative. -/
theorem real_var (f : Fin 100000 → ℝ) :
    max ((∑ n, f n * f n) * (1 / 100000) - ((∑ n, f n) * (1 / 100000)) * ((∑ n, f n) * (1 / 100000))) 0
      = (∑ n, (f n - (∑ n, f n) * (1 / 100000)) * (f n - (∑ n, f n) * (1 / 100000))) * (1 / 100000) := by
  set s : ℝ := ∑ n, f n with hs
  set q : ℝ := ∑ n, f n * f n with hq
  set μ : ℝ := s * (1 / 100000) with hμ
  have hexp : ∑ n, (f n - μ) * (f n - μ) = q - 2 * μ * s + 100000 * (μ * μ) := by
    have : ∀ n, (f n - μ) * (f n - μ) = f n * f n - 2 * μ * f n + μ * μ := fun n => by ring
    simp only [this]
    rw [Finset.sum_add_distrib, Finset.sum_sub_distrib, ← Finset.mul_sum, Finset.sum_const, Finset.card_univ,
      Fintype.card_fin]
    simp only [nsmul_eq_mul]
    push_cast
    ring
  have hnn : 0 ≤ (∑ n, (f n - μ) * (f n - μ)) * (1 / 100000 : ℝ) :=
    mul_nonneg (Finset.sum_nonneg fun n _ => mul_self_nonneg _) (by norm_num)
  have heq : q * (1 / 100000) - μ * μ = (∑ n, (f n - μ) * (f n - μ)) * (1 / 100000) := by
    rw [hexp, hμ]; ring
  rw [heq]
  exact max_eq_left hnn

/-- The same on the extended reals, for a column of reals. -/
theorem var_of_real (f : Fin 100000 → ℝ) :
    max (Ideal.div (∑ n, ((f n : ℝ) : EReal) * ((f n : ℝ) : EReal)) nodes
        - Ideal.div (∑ n, ((f n : ℝ) : EReal)) nodes * Ideal.div (∑ n, ((f n : ℝ) : EReal)) nodes) zero
      = Ideal.div (zero + ∑ n, (((f n : ℝ) : EReal) - Ideal.div (zero + ∑ n, ((f n : ℝ) : EReal)) nodes)
          * (((f n : ℝ) : EReal) - Ideal.div (zero + ∑ n, ((f n : ℝ) : EReal)) nodes)) nodes := by
  have hN : (100000 : ℝ) ≠ 0 := by norm_num
  simp only [zero_eq, zero_add, nodes_eq, Ideal.div_coe hN]
  simp only [← EReal.coe_mul, ← ERealCoe.coe_sum, ← EReal.coe_sub]
  rw [← EReal.coe_zero, ← ERealCoe.coe_max]
  exact congrArg _ (real_var f)

/-- THE VARIANCE LAW for a column of the array whose entries are real. -/
theorem var_eq (h : Arr 100000 128) (j : Fin 128) (hfin : ∀ n : Fin 100000, ∃ r : ℝ, h (ix2 n j) = (r : EReal)) :
    max (Ideal.div (∑ n : Fin 100000, h (ix2 n j) * h (ix2 n j)) nodes
        - Ideal.div (∑ n : Fin 100000, h (ix2 n j)) nodes * Ideal.div (∑ n : Fin 100000, h (ix2 n j)) nodes) zero
      = var h j := by
  choose f hf using hfin
  unfold var mean
  simp only [hf]
  exact var_of_real f

end GraphConv

end
-- ==== Proof.LayoutIdx.lean ====
/-
  Layout operations read at an index, for any extents: a row of a two-row array taken by a unit-height slice and a cast
  to a vector; a vector turned into a column and a column spread along the rows (the two `broadcast_in_dim` forms);
  a scalar spread over a shape; a slice of columns; a one-column array read back as a vector.  In each the entry read
  is the one with the same coordinates (shifted by the slice's offset), or the same row-major position.
-/
import Idealize.ShloMosaic.Lib.Pipeline.Value
import Idealize.ShloMosaic.Lib.ValueIdx

noncomputable section

namespace GraphConv.Layout

open Idealize.ShloMosaic Idealize.ShloMosaic.ValueIdx

variable {α : Type}

/-- Row `r` of a two-row array, sliced out at unit height and cast to a vector, at position `e`. -/
theorem pairRow_apply {E : Nat} (x : (⟨2, ![2, E]⟩ : Shape).Idx → α) (r : Fin 2)
    (h1 : (⟨2, ![2, E]⟩ : Shape).Slices ![r.val, 0] ⟨2, ![1, E]⟩) (h2 : (⟨2, ![1, E]⟩ : Shape).ShapeCasts ⟨1, ![E]⟩)
    (e : Fin E) :
    shapeCast ⟨1, ![E]⟩ (extractStridedSlice ⟨2, ![1, E]⟩ ![r.val, 0] x h1) h2 (ix1 e) = x (ix2 r e) := by
  refine (shapeCast_apply _ h2 (ix1 e) (ix2 (0 : Fin 1) e) ?_).trans ?_
  · rw [Shape.rowMajor_val_one, Shape.rowMajor_val_two]
    show 0 * E + e.val = e.val
    omega
  · refine extractStridedSlice_apply _ x h1 _ (ix2 r e) fun a => ?_
    match a with
    | ⟨0, _⟩ => show r.val = r.val + 0; omega
    | ⟨1, _⟩ => show e.val = 0 + e.val; omega

/-- A vector made a column: entry `(n, 0)` is the vector's entry `n`. -/
theorem column_apply {a : Nat} (x : (⟨1, ![a]⟩ : Shape).Idx → α)
    (h : (⟨1, ![a]⟩ : Shape).BroadcastsInDim ⟨2, ![a, 1]⟩ ![0]) (n : Fin a) :
    broadcastInDim ⟨2, ![a, 1]⟩ ![0] h x (ix2 n (0 : Fin 1)) = x (ix1 n) :=
  broadcastInDim_apply _ h x _ (ix1 n) fun k => by
    match k with
    | ⟨0, _⟩ =>
      show n.val = if a = 1 then 0 else n.val
      have := n.isLt
      split <;> omega

/-- A column spread along the rows: entry `(n, d)` is the column's entry `(n, 0)`. -/
theorem spreadColumn_apply {a b : Nat} (x : (⟨2, ![a, 1]⟩ : Shape).Idx → α)
    (h : (⟨2, ![a, 1]⟩ : Shape).BroadcastsInDim ⟨2, ![a, b]⟩ ![0, 1]) (n : Fin a) (d : Fin b) :
    broadcastInDim ⟨2, ![a, b]⟩ ![0, 1] h x (ix2 n d) = x (ix2 n (0 : Fin 1)) :=
  broadcastInDim_apply _ h x _ (ix2 n (0 : Fin 1)) fun k => by
    match k with
    | ⟨0, _⟩ =>
      show n.val = if a = 1 then 0 else n.val
      have := n.isLt
      split <;> omega
    | ⟨1, _⟩ => rfl

/-- A scalar spread over a shape: every entry is the scalar. -/
theorem scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun k => k.elim0

/-- Columns `o, o+1, …` of an array: entry `(n, c)` of the slice is entry `(n, o + c)`. -/
theorem columns_apply {a b b' o : Nat} (x : (⟨2, ![a, b']⟩ : Shape).Idx → α)
    (h : (⟨2, ![a, b']⟩ : Shape).Slices ![0, o] ⟨2, ![a, b]⟩) (n : Fin a) (c : Fin b) (hc : o + c.val < b') :
    extractStridedSlice ⟨2, ![a, b]⟩ ![0, o] x h (ix2 n c) = x (ix2 n (⟨o + c.val, hc⟩ : Fin b')) :=
  extractStridedSlice_apply _ x h _ _ fun k => by
    match k with
    | ⟨0, _⟩ => show n.val = 0 + n.val; omega
    | ⟨1, _⟩ => rfl

/-- A one-column array read back as a vector. -/
theorem ofColumn_apply {a : Nat} (x : (⟨2, ![a, 1]⟩ : Shape).Idx → α)
    (h : (⟨2, ![a, 1]⟩ : Shape).ShapeCasts ⟨1, ![a]⟩) (n : Fin a) :
    shapeCast ⟨1, ![a]⟩ x h (ix1 n) = x (ix2 n (0 : Fin 1)) :=
  shapeCast_apply x h (ix1 n) (ix2 n (0 : Fin 1)) (by
    rw [Shape.rowMajor_val_one, Shape.rowMajor_val_two]
    show n.val * 1 + 0 = n.val
    omega)

end GraphConv.Layout

end
-- ==== Proof.LibScatterRows.lean ====
/-
  A ROW SCATTER-ADD READ AT AN INDEX.  What `x.at[idx].add(u)` of a table `x : [N, C]`, one row index per update row
  `idx : [E, 1]` and update rows `u : [E, C]` means on the extended reals: element `(n, c)` of the result is
  `x[n, c]` plus the sum of `u[e, c]` over the update rows `e` whose row index, read as a signed integer, is `n`.
  An update row whose index is negative or at least `N` lands nowhere and is dropped.  The extents are arbitrary
  naturals; nothing here depends on a program.
-/
import Idealize.ShloMosaic.PureOps.Ideal
import Idealize.ShloMosaic.Lib.ValueIdx

noncomputable section

open scoped BigOperators

namespace Idealize.ShloMosaic.ScatterRows

open Idealize.ShloMosaic Idealize.ShloMosaic.ValueIdx

/-- The dimension numbers of a row scatter: the index vector (of length one, on the indices' axis 1) names operand
    axis 0, which is inserted; the updates' axis 1 is the window axis and runs along operand axis 1. -/
abbrev rowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where update element `(e, c)` reads its row index: `(e, 0)`. -/
abbrev rowIdx {E C : Nat} (j : (⟨2, ![E, C]⟩ : Shape).Idx) : (⟨2, ![E, 1]⟩ : Shape).Idx :=
  ix2 (⟨(j 0).val, idx2_lt0 j⟩ : Fin E) (0 : Fin 1)

section
variable {N C E w : Nat} (wf : ScatterDims.WF ⟨2, ![N, C]⟩ ⟨2, ![E, 1]⟩ ⟨2, ![E, C]⟩ [1] [0] [0] 1)

/-- On the row axis the window starts at the row index, read signed. -/
theorem start_row (j : (⟨2, ![E, C]⟩ : Shape).Idx) (idx : IVec ⟨2, ![E, 1]⟩ w) :
    (rowDims N C E wf).start j idx 0 = (idx (rowIdx j)).toInt := by
  unfold ScatterDims.start
  rw [dif_pos (show (0 : Fin 2) ∈ (rowDims N C E wf).scatterDimsToOperandDims from List.mem_singleton.mpr rfl)]
  have hsi : (rowDims N C E wf).siIdx j ⟨List.idxOf (0 : Fin 2) (rowDims N C E wf).scatterDimsToOperandDims,
      List.idxOf_lt_length_iff.2 (List.mem_singleton.mpr rfl)⟩ = rowIdx j := by
    funext b; refine Fin.ext ?_
    match b with
    | ⟨0, _⟩ => rfl
    | ⟨1, _⟩ => rfl
  rw [hsi]

/-- On the column axis it starts at zero. -/
theorem start_col (j : (⟨2, ![E, C]⟩ : Shape).Idx) (idx : IVec ⟨2, ![E, 1]⟩ w) :
    (rowDims N C E wf).start j idx 1 = 0 := by
  unfold ScatterDims.start
  rw [dif_neg (show (1 : Fin 2) ∉ ([0] : List (Fin 2)) by decide)]

/-- The window has no extent along the rows … -/
theorem window_row (j : (⟨2, ![E, C]⟩ : Shape).Idx) : (rowDims N C E wf).window j 0 = 0 := by
  unfold ScatterDims.window
  rw [dif_neg]
  exact (show (0 : Fin 2) ∉ (List.finRange 2).filter (fun a => a ∉ ([0] : List (Fin 2))) by decide)

/-- … and along the columns it is the update's column. -/
theorem window_col (j : (⟨2, ![E, C]⟩ : Shape).Idx) : (rowDims N C E wf).window j 1 = (j 1).val := by
  unfold ScatterDims.window
  rw [dif_pos]
  · rfl
  · exact (show (1 : Fin 2) ∈ (List.finRange 2).filter (fun a => a ∉ ([0] : List (Fin 2))) by decide)

/-- An update element lands on operand element `i` exactly when its row index, read signed, is `i`'s row and its
    column is `i`'s column. -/
theorem resultIdx?_eq_some_iff (j : (⟨2, ![E, C]⟩ : Shape).Idx) (idx : IVec ⟨2, ![E, 1]⟩ w)
    (i : (⟨2, ![N, C]⟩ : Shape).Idx) :
    (rowDims N C E wf).resultIdx? j idx = some i ↔
      (idx (rowIdx j)).toInt = ((i 0).val : ℤ) ∧ (j 1).val = (i 1).val := by
  have hi0 : (i 0).val < N := idx2_lt0 i
  have hi1 : (i 1).val < C := idx2_lt1 i
  constructor
  · intro hsome
    unfold ScatterDims.resultIdx? at hsome
    split at hsome
    · rename_i h
      have e := Option.some.inj hsome
      have e0 := congrArg Fin.val (congrFun e 0)
      have e1 := congrArg Fin.val (congrFun e 1)
      have h0 := h 0
      have h1 := h 1
      simp only [start_row, start_col, window_row, window_col] at e0 e1 h0 h1
      constructor <;> omega
    · exact absurd hsome (by simp)
  · rintro ⟨e0, e1⟩
    have h : ∀ a, 0 ≤ (rowDims N C E wf).start j idx a + (rowDims N C E wf).window j a ∧
        (rowDims N C E wf).start j idx a + (rowDims N C E wf).window j a < (⟨2, ![N, C]⟩ : Shape).size a := by
      intro a
      match a with
      | ⟨0, _⟩ =>
        show 0 ≤ (rowDims N C E wf).start j idx 0 + (rowDims N C E wf).window j 0 ∧
          (rowDims N C E wf).start j idx 0 + (rowDims N C E wf).window j 0 < (N : ℤ)
        rw [start_row, window_row]; omega
      | ⟨1, _⟩ =>
        show 0 ≤ (rowDims N C E wf).start j idx 1 + (rowDims N C E wf).window j 1 ∧
          (rowDims N C E wf).start j idx 1 + (rowDims N C E wf).window j 1 < (C : ℤ)
        rw [start_col, window_col]; omega
    unfold ScatterDims.resultIdx?
    rw [dif_pos h]
    congr 1
    funext a
    refine Fin.ext ?_
    match a with
    | ⟨0, _⟩ =>
      show ((rowDims N C E wf).start j idx 0 + (rowDims N C E wf).window j 0).toNat = (i 0).val
      rw [start_row, window_row]; omega
    | ⟨1, _⟩ =>
      show ((rowDims N C E wf).start j idx 1 + (rowDims N C E wf).window j 1).toNat = (i 1).val
      rw [start_col, window_col]; omega

/-- THE ROW SCATTER-ADD READ AT `(n, c)`, on the extended reals: the operand's element plus the sum, over the update
    rows `e` whose row index read signed is `n`, of the update's element `(e, c)`.  The update elements that land on
    `(n, c)` are exactly the `(e, c)` with such an `e`, one for each. -/
theorem scatterAdd_rows_apply {φ : FTy} (x : FVec Ideal ⟨2, ![N, C]⟩ φ) (idx : IVec ⟨2, ![E, 1]⟩ w)
    (upd : FVec Ideal ⟨2, ![E, C]⟩ φ) (n : Fin N) (c : Fin C) :
    Host.scatterAdd (rowDims N C E wf) x idx upd (ix2 n c) =
      x (ix2 n c) + ∑ e ∈ Finset.univ.filter (fun e : Fin E => (idx (ix2 e (0 : Fin 1))).toInt = (n.val : ℤ)),
        upd (ix2 e c) := by
  show Ideal.hostScatterAdd (rowDims N C E wf) x idx upd (ix2 n c) = _
  unfold Ideal.hostScatterAdd
  refine congrArg (x (ix2 n c) + ·) ?_
  have key : ∀ j : (⟨2, ![E, C]⟩ : Shape).Idx, (rowDims N C E wf).resultIdx? j idx = some (ix2 n c) ↔
      (idx (rowIdx j)).toInt = (n.val : ℤ) ∧ (j 1).val = c.val :=
    fun j => resultIdx?_eq_some_iff wf j idx (ix2 n c)
  have back : ∀ j : (⟨2, ![E, C]⟩ : Shape).Idx, (j 1).val = c.val →
      ix2 (⟨(j 0).val, idx2_lt0 j⟩ : Fin E) c = j := by
    intro j hj
    have hc : j 1 = c := Fin.ext hj
    rw [← hc]
    exact (eq_ix2 j).symm
  refine Finset.sum_bij' (fun j _ => (⟨(j 0).val, idx2_lt0 j⟩ : Fin E)) (fun e _ => ix2 e c) ?_ ?_ ?_ ?_ ?_
  · intro j hj
    rw [Finset.mem_filter] at hj ⊢
    exact ⟨Finset.mem_univ _, ((key j).mp hj.2).1⟩
  · intro e he
    rw [Finset.mem_filter] at he ⊢
    exact ⟨Finset.mem_univ _, (key (ix2 e c)).mpr ⟨he.2, rfl⟩⟩
  · intro j hj
    rw [Finset.mem_filter] at hj
    exact back j ((key j).mp hj.2).2
  · intro e _
    rfl
  · intro j hj
    rw [Finset.mem_filter] at hj
    exact congrArg upd (back j ((key j).mp hj.2).2).symm

end

end Idealize.ShloMosaic.ScatterRows

end
-- ==== Proof.SegSum.lean ====
/-
  The two accumulating scatters of the kernel program read at an index.  Both scatter update rows into an all-`z`
  table by one target word per update row; the entry at node `n`, column `c` is `z` plus the sum of the update rows'
  column `c` over the update rows whose target word, read signed, is `n`.  One table has 129 columns (the features and
  a column of ones that counts the edges), the other 128.
-/
import proofs.«136065_j25357486915627_2_alg».proof.KernelIdeal
import proofs.«136065_j25357486915627_2_alg».proof.Proof.Gen.KernelIdeal
import proofs.«136065_j25357486915627_2_alg».proof.Proof.LibScatterRows
import proofs.«136065_j25357486915627_2_alg».proof.Proof.LayoutIdx
import Idealize.ShloMosaic.PureOps.Ideal

noncomputable section

open scoped BigOperators

namespace Cert.KernelIdeal.SegSum

open Idealize.ShloMosaic Idealize.ShloMosaic.ValueIdx
open Cert.KernelIdeal Cert.KernelIdeal.Facts₀ Cert.KernelIdeal.Facts

/-- The 129-column scatter into an all-`z` table, by the target words `col`, read at `(n, c)`. -/
theorem wide_apply (z : FVec Ideal S_ .f32) (col : IVec S1600000 32) (U : FVec Ideal S1600000x129 .f32)
    (n : Fin 100000) (c : Fin 129) :
    Host.scatterAdd (F := Ideal) scatter_S100000x129_S1600000x1_S1600000x129_1_0_0_1
        (broadcastInDim S100000x129 ![] bcast_S_S100000x129 z)
        (broadcastInDim S1600000x1 ![0] bcast_S1600000_S1600000x1_0 col) U (ix2 n c)
      = z ix0 + ∑ e ∈ Finset.univ.filter (fun e : Fin 1600000 => (col (ix1 e)).toInt = (n.val : ℤ)), U (ix2 e c) := by
  have wf : ScatterDims.WF ⟨2, ![100000, 129]⟩ ⟨2, ![1600000, 1]⟩ ⟨2, ![1600000, 129]⟩ [1] [0] [0] 1 :=
    scatter_S100000x129_S1600000x1_S1600000x129_1_0_0_1.wf
  have hd : scatter_S100000x129_S1600000x1_S1600000x129_1_0_0_1 = ScatterRows.rowDims 100000 129 1600000 wf := rfl
  rw [hd]
  refine (ScatterRows.scatterAdd_rows_apply wf _ _ U n c).trans ?_
  refine congr (congrArg HAdd.hAdd (GraphConv.Layout.scalar_apply z _ _)) ?_
  refine Finset.sum_congr (Finset.filter_congr fun e _ => ?_) fun _ _ => rfl
  rw [GraphConv.Layout.column_apply]

/-- The 128-column scatter into an all-`z` table, by the target words `col`, read at `(n, c)`. -/
theorem narrow_apply (z : FVec Ideal S_ .f32) (col : IVec S1600000 32) (U : FVec Ideal S1600000x128 .f32)
    (n : Fin 100000) (c : Fin 128) :
    Host.scatterAdd (F := Ideal) scatter_S100000x128_S1600000x1_S1600000x128_1_0_0_1
        (broadcastInDim S100000x128 ![] bcast_S_S100000x128 z)
        (broadcastInDim S1600000x1 ![0] bcast_S1600000_S1600000x1_0 col) U (ix2 n c)
      = z ix0 + ∑ e ∈ Finset.univ.filter (fun e : Fin 1600000 => (col (ix1 e)).toInt = (n.val : ℤ)), U (ix2 e c) := by
  have wf : ScatterDims.WF ⟨2, ![100000, 128]⟩ ⟨2, ![1600000, 1]⟩ ⟨2, ![1600000, 128]⟩ [1] [0] [0] 1 :=
    scatter_S100000x128_S1600000x1_S1600000x128_1_0_0_1.wf
  have hd : scatter_S100000x128_S1600000x1_S1600000x128_1_0_0_1 = ScatterRows.rowDims 100000 128 1600000 wf := rfl
  rw [hd]
  refine (ScatterRows.scatterAdd_rows_apply wf _ _ U n c).trans ?_
  refine congr (congrArg HAdd.hAdd (GraphConv.Layout.scalar_apply z _ _)) ?_
  refine Finset.sum_congr (Finset.filter_congr fun e _ => ?_) fun _ _ => rfl
  rw [GraphConv.Layout.column_apply]

end Cert.KernelIdeal.SegSum

end
-- ==== Proof.LibGatherTable.lean ====
/-
  A TABLE GATHERED BY ONE INDEX PER ENTRY, READ AT AN INDEX.  `x[idx]` of a table `x : [N, C]` at indices
  `idx : [E, 1]` is the array `[E, C]` whose row `e` is the table's row `idx[e, 0]`; the transposed form takes the
  columns of a table `x : [C, N]` into an array `[C, E]`.  In both the index is read as a signed integer and clamped
  into `[0, N − 1]`: a negative index reads row 0, an index past the end reads the last row.  The extents are
  arbitrary naturals and the elements of any type; nothing here depends on a program.
-/
import Idealize.ShloMosaic.PureOps.ShapeOps
import Idealize.ShloMosaic.Lib.ValueIdx

noncomputable section

namespace Idealize.ShloMosaic.GatherTable

open Idealize.ShloMosaic Idealize.ShloMosaic.ValueIdx

variable {α : Type}

/-- The position in a table of `N` entries that an index word names: read as a signed integer, a negative value
    goes to 0 and a value past the end to `N − 1`. -/
def clampIdx {w : Nat} (N : Nat) (hN : 0 < N) (i : BitVec w) : Fin N :=
  ⟨min i.toInt.toNat (N - 1), by omega⟩

/-! ## Rows of `[N, C]` -/

/-- The dimension numbers of a row gather: the index vector (length one, on the indices' axis 1) names operand axis 0,
    which is collapsed; the result's axis 1 is the offset axis and runs along operand axis 1, whole. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the table at the row `idx[e, 0]` (signed, clamped) and the column `c`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsDims N C E wf) x idx (ix2 e c) = x (ix2 (clampIdx N hN (idx (ix2 e (0 : Fin 1)))) c) := by
  unfold Host.gather
  congr 1
  funext a
  refine Fin.ext ?_
  match a with
  | ⟨0, _⟩ =>
    show (rowsDims N C E wf).start (ix2 e c) idx 0 + (rowsDims N C E wf).batchCoord (ix2 e c) 0
      + (rowsDims N C E wf).offCoord (ix2 e c) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C E wf).startIndexMap from List.mem_singleton.mpr rfl)]
    have hsi : (rowsDims N C E wf).siIdx (ix2 e c) ⟨List.idxOf (0 : Fin 2) (rowsDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N C E wf).start (ix2 e c) idx 1 + (rowsDims N C E wf).batchCoord (ix2 e c) 1
      + (rowsDims N C E wf).offCoord (ix2 e c) 1 = c.val
    have hst : (rowsDims N C E wf).start (ix2 e c) idx 1 = 0 := by
      unfold GatherDims.start
      rw [dif_neg]
      exact (show (1 : Fin 2) ∉ ([0] : List (Fin 2)) by decide)
    have hoff : (rowsDims N C E wf).offCoord (ix2 e c) 1 = c.val := by
      unfold GatherDims.offCoord
      rw [dif_pos]
      · rfl
      · exact (show (1 : Fin 2) ∈ (List.finRange 2).filter (fun a => a ∉ ([0] : List (Fin 2))) by decide)
    rw [GatherDims.batchCoord_eq_zero _ _ _ List.not_mem_nil, hst, hoff]
    omega

/-! ## Columns of `[C, N]` -/

/-- The dimension numbers of a column gather: the index vector names operand axis 1, which is collapsed; the result's
    axis 0 is the offset axis and runs along operand axis 0, whole. -/
abbrev colsDims (N C E : Nat)
    (wf : GatherDims.WF ⟨2, ![C, N]⟩ ⟨2, ![E, 1]⟩ ⟨2, ![C, E]⟩ [0] [1] [] [1] [] 1 ![C, 1]) :
    GatherDims ⟨2, ![C, N]⟩ ⟨2, ![E, 1]⟩ ⟨2, ![C, E]⟩ where
  offsetDims := [0]
  collapsedSliceDims := [1]
  operandBatchingDims := []
  startIndicesBatchingDims := []
  startIndexMap := [1]
  indexVectorDim := 1
  sliceSizes := ![C, 1]
  wf := wf

/-- THE COLUMN GATHER READ AT `(c, e)`: the table at the row `c` and the column `idx[e, 0]` (signed, clamped). -/
theorem gather_cols_apply {N C E w : Nat} (hN : 0 < N)
    (wf : GatherDims.WF ⟨2, ![C, N]⟩ ⟨2, ![E, 1]⟩ ⟨2, ![C, E]⟩ [0] [1] [] [1] [] 1 ![C, 1])
    (x : (⟨2, ![C, N]⟩ : Shape).Idx → α) (idx : IVec ⟨2, ![E, 1]⟩ w) (c : Fin C) (e : Fin E) :
    Host.gather (colsDims N C E wf) x idx (ix2 c e) = x (ix2 c (clampIdx N hN (idx (ix2 e (0 : Fin 1))))) := by
  unfold Host.gather
  congr 1
  funext a
  refine Fin.ext ?_
  match a with
  | ⟨0, _⟩ =>
    show (colsDims N C E wf).start (ix2 c e) idx 0 + (colsDims N C E wf).batchCoord (ix2 c e) 0
      + (colsDims N C E wf).offCoord (ix2 c e) 0 = c.val
    have hst : (colsDims N C E wf).start (ix2 c e) idx 0 = 0 := by
      unfold GatherDims.start
      rw [dif_neg]
      exact (show (0 : Fin 2) ∉ ([1] : List (Fin 2)) by decide)
    have hoff : (colsDims N C E wf).offCoord (ix2 c e) 0 = c.val := by
      unfold GatherDims.offCoord
      rw [dif_pos]
      · rfl
      · exact (show (0 : Fin 2) ∈ (List.finRange 2).filter (fun a => a ∉ ([1] : List (Fin 2))) by decide)
    rw [GatherDims.batchCoord_eq_zero _ _ _ List.not_mem_nil, hst, hoff]
    omega
  | ⟨1, _⟩ =>
    show (colsDims N C E wf).start (ix2 c e) idx 1 + (colsDims N C E wf).batchCoord (ix2 c e) 1
      + (colsDims N C E wf).offCoord (ix2 c e) 1 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims N C E wf).startIndexMap from List.mem_singleton.mpr rfl)]
    have hsi : (colsDims N C E wf).siIdx (ix2 c e) ⟨List.idxOf (1 : Fin 2) (colsDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Idealize.ShloMosaic.GatherTable

end
-- ==== Proof.LibRowOps.lean ====
/-
  Three shape operations read at an index, for rank-2 vectors with a unit leading axis and for a plain matrix
  product: the cast of a length-`b` vector to a row [1, b], the broadcast of a row [1, b] down the rows of [a, b],
  and the product of an [m, k] by a [k, n] matrix accumulated into the zero splat, over the extended reals.
-/
import Idealize.ShloMosaic.Lib.Pipeline.Value
import Idealize.ShloMosaic.Lib.ValueIdx
import Idealize.ShloMosaic.PureOps.Ideal.Laws

noncomputable section

namespace Cert.KernelBody

open Idealize.ShloMosaic Idealize.ShloMosaic.ValueIdx

variable {α : Type} {a b : ℕ}

/-- Entry `(0, k)` of the row cast of a vector is the vector's entry `k`: both sit at row-major position `k`. -/
theorem shapeCast_row_apply (x : (⟨1, ![b]⟩ : Shape).Idx → α) (h : (⟨1, ![b]⟩ : Shape).ShapeCasts ⟨2, ![1, b]⟩) (k : Fin b) :
    shapeCast ⟨2, ![1, b]⟩ x h (ix2 (0 : Fin 1) k) = x (ix1 k) :=
  shapeCast_apply x h (ix2 (0 : Fin 1) k) (ix1 k) (by
    rw [Shape.rowMajor_val_one, Shape.rowMajor_val_two]
    show k.val = 0 * b + k.val
    omega)

/-- Entry `(n, k)` of a row broadcast down the rows is the row's entry `(0, k)`. -/
theorem broadcastTo_row_apply (x : (⟨2, ![1, b]⟩ : Shape).Idx → α) (h : (⟨2, ![1, b]⟩ : Shape).Broadcasts ⟨2, ![a, b]⟩)
    (n : Fin a) (k : Fin b) : broadcastTo ⟨2, ![a, b]⟩ x h (ix2 n k) = x (ix2 (0 : Fin 1) k) :=
  broadcastTo_apply x h (ix2 n k) (ix2 (0 : Fin 1) k) (fun c => by
    match c with
    | ⟨0, _⟩ => rfl
    | ⟨1, _⟩ =>
      show k.val = if b = 1 then 0 else k.val
      have := k.isLt
      split <;> omega)

/-- The product of an m×k by a k×n matrix (contracting the left operand's axis 1 with the right operand's axis 0)
    accumulated into the zero splat, read at `(r, c)`, is the sum over the contracted coordinate of the products of
    the entries. `w` is the record's well-formedness, which a program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    matmul (⟨[1], [0], [0], [1], [], [], w⟩ : DotDims _ _ _) prec A B
        (constant (F := Ideal) ⟨2, ![m, n]⟩ .f32 0x00000000#32) (ix2 r c)
      = ∑ i : Fin k, A (ix2 r i) * B (ix2 i c) := by
  show FloatOps.matmul _ prec A B (constant (F := Ideal) ⟨2, ![m, n]⟩ .f32 0x00000000#32) (ix2 r c) = _
  rw [Ideal.matmul_constant_zero_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

end Cert.KernelBody

end
-- ==== Proof.Host0.lean ====
/-
  The host operations before the first kernel region, read at an index, piece by piece.  From the launch contents —
  the features `x` and the edge array `ei` among them — they compute: the source words and the target words of the
  edges; the features gathered at the (wrapped, clamped) sources with a column of ones appended; those 129-column rows
  scatter-added by the target words into zeros; the reciprocal of the last column floored at one; and the first 128
  columns times that reciprocal.  Entry `(n, k)` of the product is the sum of `x`'s rows over the edges into `n`
  times `1 / deg n`, which is that sum divided by `deg n`: the specification's `agg`.
-/
import proofs.«136065_j25357486915627_2_alg».proof.Proof.Host0Ops
import proofs.«136065_j25357486915627_2_alg».proof.Proof.Spec
import proofs.«136065_j25357486915627_2_alg».proof.Proof.Lits
import proofs.«136065_j25357486915627_2_alg».proof.Proof.Algebra
import proofs.«136065_j25357486915627_2_alg».proof.Proof.LayoutIdx
import proofs.«136065_j25357486915627_2_alg».proof.Proof.SegSum
import proofs.«136065_j25357486915627_2_alg».proof.Proof.LibGatherTable
import proofs.«136065_j25357486915627_2_alg».proof.Proof.LibRowOps
import Idealize.ShloMosaic.Lib.StableHlo.Run
import Idealize.ShloMosaic.PureOps.Ideal

set_option maxRecDepth 100000
set_option pp.deepTerms false
set_option pp.maxSteps 5000

noncomputable section

open scoped BigOperators

namespace Cert.KernelIdeal.Stretch0

open Idealize.ShloMosaic Idealize.ShloMosaic.TcCoe Idealize.ShloMosaic.Tactic Idealize.SL.Sem
open Idealize.ShloMosaic.StableHlo Idealize.ShloMosaic.ValueIdx
open Cert.KernelIdeal Cert.KernelIdeal.Gen

variable (V : Valuation τ sig (Elt Ideal))

/-- A buffer's contents read as an array of the right shape. -/
abbrev feat : S100000x128.Idx → EReal := V (Proc.devRef .tc main_arg0)
abbrev edges : S2x1600000.Idx → BitVec 32 := V (Proc.devRef .tc main_arg1)
abbrev srcs : S1600000.Idx → BitVec 32 := V (Proc.devRef .tc main_v1)
abbrev dsts : S1600000.Idx → BitVec 32 := V (Proc.devRef .tc main_v3)
abbrev rows129 : S1600000x129.Idx → EReal := V (Proc.devRef .tc main_v13)
abbrev table129 : S100000x129.Idx → EReal := V (Proc.devRef .tc main_v16)
abbrev bias : S128.Idx → EReal := V (Proc.devRef .tc main_arg4)

/-! ## The words -/

theorem words_src (e : Fin 1600000) : srcs (StableHlo.after wordOps V) (ix1 e) = edges V (ix2 (0 : Fin 2) e) := by
  show StableHlo.after wordOps V (Proc.devRef .tc main_v1) (ix1 e) = _
  after_results
  exact GraphConv.Layout.pairRow_apply (edges V) (0 : Fin 2) _ _ e

theorem words_dst (e : Fin 1600000) : dsts (StableHlo.after wordOps V) (ix1 e) = edges V (ix2 (1 : Fin 2) e) := by
  show StableHlo.after wordOps V (Proc.devRef .tc main_v3) (ix1 e) = _
  after_results
  exact GraphConv.Layout.pairRow_apply (edges V) (1 : Fin 2) _ _ e

theorem words_feat : feat (StableHlo.after wordOps V) = feat V := by
  show StableHlo.after wordOps V (Proc.devRef .tc main_arg0) = _
  after_results

theorem words_bias : bias (StableHlo.after wordOps V) = bias V := by
  show StableHlo.after wordOps V (Proc.devRef .tc main_arg4) = _
  after_results

/-! ## The gathered rows with the column of ones -/

theorem gather_dst : dsts (StableHlo.after gatherOps V) = dsts V := by
  show StableHlo.after gatherOps V (Proc.devRef .tc main_v3) = _
  after_results

theorem gather_src : srcs (StableHlo.after gatherOps V) = srcs V := by
  show StableHlo.after gatherOps V (Proc.devRef .tc main_v1) = _
  after_results

theorem gather_bias : bias (StableHlo.after gatherOps V) = bias V := by
  show StableHlo.after gatherOps V (Proc.devRef .tc main_arg4) = _
  after_results

/-- The features at the edge's source, in the first 128 columns. -/
theorem gather_left (e : Fin 1600000) (k : Fin 128) :
    rows129 (StableHlo.after gatherOps V) (ix2 e (⟨k.val, by omega⟩ : Fin 129))
      = feat V (ix2 (GraphConv.clampNode (GraphConv.wrap (srcs V (ix1 e)))) k) := by
  show StableHlo.after gatherOps V (Proc.devRef .tc main_v13) _ = _
  after_results
  refine (concatenate_pair_apply_left (t := S1600000x129) (s₁ := S1600000x128) (s₂ := S1600000x1) (1 : Fin 2) _ _ _ _ rfl (ix2 e k) ?_).trans ?_
  · intro b
    match b with
    | ⟨0, _⟩ => rfl
    | ⟨1, _⟩ => rfl
  · have wf : GatherDims.WF ⟨2, ![100000, 128]⟩ ⟨2, ![1600000, 1]⟩ ⟨2, ![1600000, 128]⟩ [1] [0] [] [0] [] 1 ![1, 128] :=
      gather_S100000x128_S1600000x1_S1600000x128_1_0_n_n_0_1_1128.wf
    have hd : gather_S100000x128_S1600000x1_S1600000x128_1_0_n_n_0_1_1128 = GatherTable.rowsDims 100000 128 1600000 wf := rfl
    rw [hd]
    refine (GatherTable.gather_rows_apply (by decide) wf _ _ e k).trans ?_
    refine congrArg (feat V) (congrArg (fun a => ix2 a k) ?_)
    refine Fin.ext ?_
    show min _ _ = min _ _
    refine congrArg (fun w : BitVec 32 => min w.toInt.toNat 99999) ?_
    refine (GraphConv.Layout.column_apply _ _ e).trans ?_
    show Scalar.select (IntOp.cmpi .slt _ _) (IntOp.addi _ _) _ = Scalar.select (IntOp.cmpi .slt _ _) (IntOp.addi _ _) _
    rw [GraphConv.Layout.scalar_apply, GraphConv.Layout.scalar_apply]
    rfl

/-- The one, in the last column. -/
theorem gather_right (e : Fin 1600000) :
    rows129 (StableHlo.after gatherOps V) (ix2 e (⟨128, by omega⟩ : Fin 129)) = GraphConv.one := by
  show StableHlo.after gatherOps V (Proc.devRef .tc main_v13) _ = _
  after_results
  refine (concatenate_pair_apply_right (t := S1600000x129) (s₁ := S1600000x128) (s₂ := S1600000x1) (1 : Fin 2) _ _ _ _ rfl rfl (ix2 e (0 : Fin 1)) ?_ ?_).trans ?_
  · intro b hb
    match b with
    | ⟨0, _⟩ => rfl
    | ⟨1, _⟩ => exact absurd rfl hb
  · rfl
  · refine (GraphConv.Layout.column_apply _ _ e).trans ?_
    exact GraphConv.Layout.scalar_apply _ _ _

/-! ## The scatter -/

theorem scatter_dst : dsts (StableHlo.after scatterOps V) = dsts V := by
  show StableHlo.after scatterOps V (Proc.devRef .tc main_v3) = _
  after_results

theorem scatter_src : srcs (StableHlo.after scatterOps V) = srcs V := by
  show StableHlo.after scatterOps V (Proc.devRef .tc main_v1) = _
  after_results

theorem scatter_bias : bias (StableHlo.after scatterOps V) = bias V := by
  show StableHlo.after scatterOps V (Proc.devRef .tc main_arg4) = _
  after_results

/-- Entry `(n, c)` of the table: zero plus the rows' column `c` over the edges whose target word names `n`. -/
theorem scatter_table (n : Fin 100000) (c : Fin 129) :
    table129 (StableHlo.after scatterOps V) (ix2 n c)
      = GraphConv.zero + ∑ e ∈ Finset.univ.filter (fun e : Fin 1600000 => (dsts V (ix1 e)).toInt = (n.val : ℤ)),
          rows129 V (ix2 e c) := by
  show StableHlo.after scatterOps V (Proc.devRef .tc main_v16) _ = _
  after_results
  exact SegSum.wide_apply _ (dsts V) (rows129 V) n c

/-! ## The rest -/

theorem tail_dst : dsts (StableHlo.after tailOps V) = dsts V := by
  show StableHlo.after tailOps V (Proc.devRef .tc main_v3) = _
  after_results

theorem tail_src : srcs (StableHlo.after tailOps V) = srcs V := by
  show StableHlo.after tailOps V (Proc.devRef .tc main_v1) = _
  after_results

/-- The reciprocal of the last column floored at one. -/
theorem tail_inv (n : Fin 100000) :
    StableHlo.after tailOps V (Proc.devRef .tc main_v23) (ix2 n (0 : Fin 1))
      = Ideal.div GraphConv.one (max (table129 V (ix2 n (⟨128, by omega⟩ : Fin 129))) GraphConv.one) := by
  after_results
  refine (GraphConv.Layout.column_apply _ _ n).trans ?_
  show Ideal.div _ (max _ _) = _
  refine congr (congrArg Ideal.div (GraphConv.Layout.scalar_apply _ _ _)) ?_
  refine congr (congrArg max ?_) (GraphConv.Layout.scalar_apply _ _ _)
  refine (GraphConv.Layout.ofColumn_apply _ _ n).trans ?_
  exact GraphConv.Layout.columns_apply (table129 V) _ n (0 : Fin 1) (by omega)

/-- The first 128 columns times the reciprocal. -/
theorem tail_agg (n : Fin 100000) (k : Fin 128) :
    StableHlo.after tailOps V (Proc.devRef .tc main_v26) (ix2 n k)
      = table129 V (ix2 n (⟨k.val, by omega⟩ : Fin 129))
        * Ideal.div GraphConv.one (max (table129 V (ix2 n (⟨128, by omega⟩ : Fin 129))) GraphConv.one) := by
  after_results
  show _ * _ = _ * _
  refine congr (congrArg HMul.hMul ?_) ?_
  · refine (GraphConv.Layout.columns_apply (table129 V) _ n k (by omega)).trans ?_
    exact congrArg (table129 V) (congrArg (ix2 n) (Fin.ext (by show 0 + k.val = k.val; omega)))
  · refine (GraphConv.Layout.spreadColumn_apply _ _ n k).trans ?_
    refine (GraphConv.Layout.column_apply _ _ n).trans ?_
    show Ideal.div _ (max _ _) = _
    refine congr (congrArg Ideal.div (GraphConv.Layout.scalar_apply _ _ _)) ?_
    refine congr (congrArg max ?_) (GraphConv.Layout.scalar_apply _ _ _)
    refine (GraphConv.Layout.ofColumn_apply _ _ n).trans ?_
    exact GraphConv.Layout.columns_apply (table129 V) _ n (0 : Fin 1) (by omega)

/-- The bias as a row. -/
theorem tail_bias (j : Fin 128) :
    StableHlo.after tailOps V (Proc.devRef .tc main_v27) (ix2 (0 : Fin 1) j) = bias V (ix1 j) := by
  after_results
  exact Cert.KernelBody.shapeCast_row_apply _ _ j

end Cert.KernelIdeal.Stretch0

end
-- ==== Proof.Host0All.lean ====
/-
  The host operations before the first kernel region, as a whole: the pieces composed.  The count column of the
  129-column table at node `n` is zero plus a one for every edge into `n`, so its floor at one is the specification's
  `deg`; the other columns hold the sums of the features' rows over the edges into `n`; the product with the
  reciprocal of `deg` is the quotient by `deg`, which is nonzero.
-/
import proofs.«136065_j25357486915627_2_alg».proof.Proof.Host0

set_option maxRecDepth 100000
set_option pp.deepTerms false
set_option pp.maxSteps 5000

noncomputable section

open scoped BigOperators

namespace Cert.KernelIdeal.Stretch0

open Idealize.ShloMosaic Idealize.ShloMosaic.TcCoe Idealize.ShloMosaic.Tactic Idealize.SL.Sem
open Idealize.ShloMosaic.StableHlo Idealize.ShloMosaic.ValueIdx
open Cert.KernelIdeal Cert.KernelIdeal.Gen

variable (W : Valuation τ sig (Elt Ideal))

/-- The source word of edge `e`. -/
theorem all_src (e : Fin 1600000) : srcs (StableHlo.after hostOps0 W) (ix1 e) = edges W (ix2 (0 : Fin 2) e) := by
  rw [after_hostOps0, tail_src, scatter_src, gather_src]
  exact words_src W e

/-- The target word of edge `e`. -/
theorem all_dst (e : Fin 1600000) : dsts (StableHlo.after hostOps0 W) (ix1 e) = edges W (ix2 (1 : Fin 2) e) := by
  rw [after_hostOps0, tail_dst, scatter_dst, gather_dst]
  exact words_dst W e

/-- The bias as a row. -/
theorem all_bias (j : Fin 128) :
    StableHlo.after hostOps0 W (Proc.devRef .tc main_v27) (ix2 (0 : Fin 1) j) = bias W (ix1 j) := by
  rw [after_hostOps0, tail_bias, scatter_bias, gather_bias, words_bias]

/-- The edges whose target word names `n`, in the specification's spelling. -/
theorem filter_into (n : Fin 100000) :
    Finset.univ.filter (fun e : Fin 1600000 =>
        (dsts (StableHlo.after gatherOps (StableHlo.after wordOps W)) (ix1 e)).toInt = (n.val : ℤ))
      = GraphConv.into (edges W) n := by
  unfold GraphConv.into
  refine Finset.filter_congr fun e _ => ?_
  rw [gather_dst, words_dst]

/-- The count column: zero plus a one per edge into `n`. -/
theorem table_count (n : Fin 100000) :
    table129 (StableHlo.after scatterOps (StableHlo.after gatherOps (StableHlo.after wordOps W)))
        (ix2 n (⟨128, by omega⟩ : Fin 129))
      = GraphConv.zero + ∑ _e ∈ GraphConv.into (edges W) n, GraphConv.one := by
  rw [scatter_table, filter_into]
  exact congrArg (GraphConv.zero + ·) (Finset.sum_congr rfl fun e _ => gather_right _ e)

/-- A feature column: zero plus the features' rows over the edges into `n`. -/
theorem table_feat (n : Fin 100000) (k : Fin 128) :
    table129 (StableHlo.after scatterOps (StableHlo.after gatherOps (StableHlo.after wordOps W)))
        (ix2 n (⟨k.val, by omega⟩ : Fin 129))
      = GraphConv.zero + ∑ e ∈ GraphConv.into (edges W) n, feat W (ix2 (GraphConv.src (edges W) e) k) := by
  rw [scatter_table, filter_into]
  refine congrArg (GraphConv.zero + ·) (Finset.sum_congr rfl fun e _ => ?_)
  rw [gather_left, words_feat, words_src]
  rfl

/-- The reciprocal of the in-degree floored at one. -/
theorem all_inv (n : Fin 100000) :
    StableHlo.after hostOps0 W (Proc.devRef .tc main_v23) (ix2 n (0 : Fin 1))
      = Ideal.div GraphConv.one (GraphConv.deg (edges W) n) := by
  rw [after_hostOps0, tail_inv, table_count]
  rfl

/-- The features aggregated over the edges into each node. -/
theorem all_agg (n : Fin 100000) (k : Fin 128) :
    StableHlo.after hostOps0 W (Proc.devRef .tc main_v26) (ix2 n k) = GraphConv.agg (feat W) (edges W) n k := by
  rw [after_hostOps0, tail_agg, table_count, table_feat]
  exact GraphConv.mul_recip _ _ (GraphConv.deg_ne_zero (edges W) n)

end Cert.KernelIdeal.Stretch0

end
-- ==== Proof.Keep.lean ====
/-
  Buffers the host stretches do not write.  The operations before the first region write none of the weight, scale,
  shift and bias arguments nor the features; those between the first and the second region write neither the second
  layer's arguments, nor the edge words, nor the reciprocal in-degree.  A buffer that no operation of a list writes
  holds after the list what it held before.
-/
import proofs.«136065_j25357486915627_2_alg».proof.Proof.Gen.KernelIdeal.Launch
import Idealize.ShloMosaic.Lib.StableHlo.Run
import Idealize.ShloMosaic.PureOps.Ideal

set_option maxRecDepth 100000

noncomputable section

namespace Cert.KernelIdeal.Keep

open Idealize.ShloMosaic Idealize.ShloMosaic.TcCoe Idealize.SL.Sem
open Cert.KernelIdeal Cert.KernelIdeal.Gen

/-- No operation of the named list writes the buffer: each operation's one written reference differs from it. -/
macro "not_written " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

variable (W : Valuation τ sig (Elt Ideal))

theorem hostOps0_keeps_main_arg0 : StableHlo.after (hostOps0 (F := Ideal)) W (Proc.devRef .tc main_arg0) = W (Proc.devRef .tc main_arg0) := by
  not_written hostOps0

theorem hostOps0_keeps_main_arg2 : StableHlo.after (hostOps0 (F := Ideal)) W (Proc.devRef .tc main_arg2) = W (Proc.devRef .tc main_arg2) := by
  not_written hostOps0

theorem hostOps0_keeps_main_arg3 : StableHlo.after (hostOps0 (F := Ideal)) W (Proc.devRef .tc main_arg3) = W (Proc.devRef .tc main_arg3) := by
  not_written hostOps0

theorem hostOps0_keeps_main_arg5 : StableHlo.after (hostOps0 (F := Ideal)) W (Proc.devRef .tc main_arg5) = W (Proc.devRef .tc main_arg5) := by
  not_written hostOps0

theorem hostOps0_keeps_main_arg6 : StableHlo.after (hostOps0 (F := Ideal)) W (Proc.devRef .tc main_arg6) = W (Proc.devRef .tc main_arg6) := by
  not_written hostOps0

theorem hostOps0_keeps_main_arg7 : StableHlo.after (hostOps0 (F := Ideal)) W (Proc.devRef .tc main_arg7) = W (Proc.devRef .tc main_arg7) := by
  not_written hostOps0

theorem hostOps0_keeps_main_arg8 : StableHlo.after (hostOps0 (F := Ideal)) W (Proc.devRef .tc main_arg8) = W (Proc.devRef .tc main_arg8) := by
  not_written hostOps0

theorem hostOps0_keeps_main_arg9 : StableHlo.after (hostOps0 (F := Ideal)) W (Proc.devRef .tc main_arg9) = W (Proc.devRef .tc main_arg9) := by
  not_written hostOps0

theorem hostOps1_keeps_main_arg7 : StableHlo.after (hostOps1 (F := Ideal)) W (Proc.devRef .tc main_arg7) = W (Proc.devRef .tc main_arg7) := by
  not_written hostOps1

theorem hostOps1_keeps_main_arg8 : StableHlo.after (hostOps1 (F := Ideal)) W (Proc.devRef .tc main_arg8) = W (Proc.devRef .tc main_arg8) := by
  not_written hostOps1

theorem hostOps1_keeps_main_arg9 : StableHlo.after (hostOps1 (F := Ideal)) W (Proc.devRef .tc main_arg9) = W (Proc.devRef .tc main_arg9) := by
  not_written hostOps1

theorem hostOps1_keeps_main_v1 : StableHlo.after (hostOps1 (F := Ideal)) W (Proc.devRef .tc main_v1) = W (Proc.devRef .tc main_v1) := by
  not_written hostOps1

theorem hostOps1_keeps_main_v3 : StableHlo.after (hostOps1 (F := Ideal)) W (Proc.devRef .tc main_v3) = W (Proc.devRef .tc main_v3) := by
  not_written hostOps1

theorem hostOps1_keeps_main_v23 : StableHlo.after (hostOps1 (F := Ideal)) W (Proc.devRef .tc main_v23) = W (Proc.devRef .tc main_v23) := by
  not_written hostOps1

end Cert.KernelIdeal.Keep

end
-- ==== Proof.RealVal.lean ====
/-
  Entries that are real numbers stay real through the first convolution.  An extended real "is real" when it is the
  image of a real number.  Sums, products and maxima of reals are real, and so is a quotient by a nonzero real; the
  floored in-degree is a real that is at least one.  Hence every entry of `agg x` and of `hidden x` is real as soon as
  every entry of the features, of the two weight matrices and of the bias is.
-/
import proofs.«136065_j25357486915627_2_alg».proof.Proof.Spec
import proofs.«136065_j25357486915627_2_alg».proof.Proof.Lits
import proofs.«136065_j25357486915627_2_alg».proof.Proof.Algebra

noncomputable section

open scoped BigOperators

namespace GraphConv

open Idealize.ShloMosaic Idealize.ShloMosaic.ValueIdx

/-- The extended real is (the image of) a real number. -/
def IsReal (a : EReal) : Prop := ∃ r : ℝ, a = (r : EReal)

theorem isReal_zero : IsReal 0 := ⟨0, EReal.coe_zero.symm⟩
theorem isReal_one : IsReal 1 := ⟨1, EReal.coe_one.symm⟩
theorem isReal_zeroLit : IsReal zero := by rw [zero_eq]; exact isReal_zero
theorem isReal_oneLit : IsReal one := by rw [one_eq]; exact isReal_one

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.max {a b : EReal} (ha : IsReal a) (hb : IsReal b) : IsReal (max a b) := by
  obtain ⟨r, rfl⟩ := ha; obtain ⟨s, rfl⟩ := hb; exact ⟨Max.max r s, (ERealCoe.coe_max r s).symm⟩

theorem IsReal.sum {ι : Type*} (S : Finset ι) (f : ι → EReal) (h : ∀ i ∈ S, IsReal (f i)) : IsReal (∑ i ∈ S, f i) :=
  Finset.sum_induction f IsReal (fun _ _ => IsReal.add) isReal_zero h

/-- A quotient by a nonzero real is real. -/
theorem IsReal.div {a c : EReal} (ha : IsReal a) (hc : IsReal c) (hne : c ≠ 0) : IsReal (Ideal.div a c) := by
  obtain ⟨r, rfl⟩ := ha; obtain ⟨s, rfl⟩ := hc
  have hs : s ≠ 0 := fun h => hne (by rw [h]; rfl)
  rw [Ideal.div_coe hs]
  exact ⟨r * (1 / s), (EReal.coe_mul r (1 / s)).symm⟩

theorem isReal_deg (ei : Edges) (n : Fin 100000) : IsReal (deg ei n) :=
  IsReal.max (IsReal.add isReal_zeroLit (IsReal.sum _ _ fun _ _ => isReal_oneLit)) isReal_oneLit

theorem isReal_agg (f : Arr 100000 128) (hf : ∀ i, IsReal (f i)) (ei : Edges) (n : Fin 100000) (c : Fin 128) :
    IsReal (agg f ei n c) :=
  IsReal.div (IsReal.add isReal_zeroLit (IsReal.sum _ _ fun _ _ => hf _)) (isReal_deg ei n) (deg_ne_zero ei n)

theorem isReal_lin {C : Nat} (A X : Arr 100000 128) (Wl Wr : Arr 128 C) (b : Fin C → EReal)
    (hA : ∀ i, IsReal (A i)) (hX : ∀ i, IsReal (X i)) (hWl : ∀ i, IsReal (Wl i)) (hWr : ∀ i, IsReal (Wr i))
    (hb : ∀ j, IsReal (b j)) (n : Fin 100000) (j : Fin C) : IsReal (lin A X Wl Wr b n j) :=
  IsReal.add (IsReal.add (IsReal.sum _ _ fun _ _ => IsReal.mul (hA _) (hWl _))
    (IsReal.sum _ _ fun _ _ => IsReal.mul (hX _) (hWr _))) (hb j)

/-- Reading the arrays at an index built from its two coordinates. -/
theorem aggArr_apply (f : Arr 100000 128) (ei : Edges) (n : Fin 100000) (c : Fin 128) :
    aggArr f ei (ix2 n c) = agg f ei n c := rfl

theorem linArr_apply {C : Nat} (A X : Arr 100000 128) (Wl Wr : Arr 128 C) (b : Fin C → EReal) (n : Fin 100000)
    (j : Fin C) : linArr A X Wl Wr b (ix2 n j) = lin A X Wl Wr b n j := rfl

theorem actArr_apply (h : Arr 100000 128) (γ β : Fin 128 → EReal) (n : Fin 100000) (j : Fin 128) :
    actArr h γ β (ix2 n j) = act h γ β n j := rfl

/-- Every entry of the first convolution is real when the features, both weight matrices and the bias are. -/
theorem isReal_hidden (x : Arr 100000 128) (ei : Edges) (W1l W1r : Arr 128 128) (b1 : Fin 128 → EReal)
    (hx : ∀ i, IsReal (x i)) (hWl : ∀ i, IsReal (W1l i)) (hWr : ∀ i, IsReal (W1r i)) (hb : ∀ j, IsReal (b1 j))
    (n : Fin 100000) (j : Fin 128) : IsReal (hidden x ei W1l W1r b1 (ix2 n j)) := by
  unfold hidden
  rw [linArr_apply]
  refine isReal_lin _ _ _ _ _ (fun i => ?_) hx hWl hWr hb n j
  rw [eq_ix2 i]
  exact isReal_agg x hx ei _ _

end GraphConv

end
-- ==== Proof.ConvOneOut5.lean ====
/-
  The first convolution's kernel, one grid step: the block of 5000 rows it stores is one function of the two input
  blocks, the two weights and the bias, at a first step of a core and at a later one alike.
-/
import proofs.«136065_j25357486915627_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.ConvOne

open Cert.KernelIdeal Cert.KernelIdeal.Gen

variable {F : FTy → Type} [FloatOps F]

theorem hz : (![0, 0] : Fin 2 → Nat) = fun _ => 0 := funext fun a => by fin_cases a <;> rfl

/-- At a core's first step the stored block is the linear payload of the blocks read. -/
theorem out5_A (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (hc0 : cond0_0 i) (x0 : Vec F S5000x128 .f32) (x1 : Vec F S5000x128 .f32) (x2 : Vec F S128x128 .f32) (x3 : Vec F S128x128 .f32) (x4 : Vec F S1x128 .f32) :
    out0_A_5 c i arg2 harg2 arg3 harg3 arg4 harg4 arg5 harg5 arg6 harg6 arg7 harg7 arg8 harg8 arg9 harg9 hc0 x0 x1 x2 x3 x4 = k0_pay2 x0 x1 x2 x3 x4 := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  try sl_unfold_words
  rw [View.canon_unit_zero hz]
  simp only [View.readAt_eq_ld, harg2.read_unread, harg3.read_unread, harg4.read_unread, harg5.read_unread, harg6.read_unread,
    View.ld_unit_zero (S := S5000x128) hz, View.ld_unit_zero (S := S128x128) hz, View.ld_unit_zero (S := S1x128) hz]

/-- At a later step it is the same function of that step's blocks. -/
theorem out5_B (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (x0 : Vec F S5000x128 .f32) (x1 : Vec F S5000x128 .f32) (x2 : Vec F S128x128 .f32) (x3 : Vec F S128x128 .f32) (x4 : Vec F S1x128 .f32) (xo6 : Vec F S8x128 .f32) (xo7 : Vec F S8x128 .f32) :
    out0_B_5 c i arg2 harg2 arg3 harg3 arg4 harg4 arg5 harg5 arg6 harg6 arg7 harg7 arg8 harg8 arg9 harg9 hc0 x0 x1 x2 x3 x4 xo6 xo7 = k0_pay2 x0 x1 x2 x3 x4 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xo6 xo7)]
  unfold kernelRun0_B
  dsimp only
  try sl_unfold_words
  rw [View.canon_unit_zero hz]
  simp only [View.readAt_eq_ld, harg2.read_unread, harg3.read_unread, harg4.read_unread, harg5.read_unread, harg6.read_unread,
    View.ld_unit_zero (S := S5000x128) hz, View.ld_unit_zero (S := S128x128) hz, View.ld_unit_zero (S := S1x128) hz]

end Cert.KernelIdeal.ConvOne

end
-- ==== Proof.LibColumnSum.lean ====
/-
  The sum of each COLUMN of a rank-2 vector over the extended reals: reducing an [a, b] vector along axis 0 leaves a
  length-`b` vector whose entry `l` is the sum of the `a` entries of column `l`.
-/
import Idealize.ShloMosaic.Lib.ValueIdx
import Idealize.ShloMosaic.PureOps.Ideal.Laws

noncomputable section

namespace Cert.LibColumnSum

open Idealize.ShloMosaic Idealize.ShloMosaic.ValueIdx

variable {a b : ℕ} {φ : FTy}

/-- The reduced index `l` of a column reduction with the row `k` put back is `(k, l)`. -/
theorem lift_col (h : (⟨2, ![a, b]⟩ : Shape).Reduces [0] ⟨1, ![b]⟩) (l : Fin b) (k : Fin a) :
    h.lift (ix1 l) k = ix2 k l := by
  funext c; apply Fin.ext
  fin_cases c <;> rfl

/-- A column sum at column `l` is the sum of that column's entries. -/
theorem colsum_apply (src : FVec Ideal ⟨2, ![a, b]⟩ φ) (acc : BitVec φ.bits)
    (h : (⟨2, ![a, b]⟩ : Shape).Reduces [0] ⟨1, ![b]⟩)
    (hφ : FKind.Formats φ) (hacc : acc = FKind.add.neutral φ hφ) (l : Fin b) :
    multiReduction .add [0] ⟨1, ![b]⟩ src acc h hφ hacc (ix1 l) = ∑ k : Fin a, src (ix2 k l) :=
  (Ideal.multiReduction_add_single src acc h hφ hacc (ix1 l)).trans
    (Finset.sum_congr rfl fun k _ => congrArg src (lift_col h l k))

end Cert.LibColumnSum

end
-- ==== Proof.ConvOnePayload.lean ====
/-
  The first convolution's arithmetic at one entry, over the extended reals.  The stored block at row r, column j is
  (row r of the first block) · (column j of the first weight) + the same for the second block and weight + the bias at
  j: rounding to the short format is the identity there, and a product accumulated into zeros is a plain sum.  The
  column-sum payload at column j is the value found there plus the sum of column j of the stored block; the
  square-sum payload the same over the squares.
-/
import proofs.«136065_j25357486915627_2_alg».proof.Proof.Gen.KernelIdeal.Skeleton
import proofs.«136065_j25357486915627_2_alg».proof.Proof.LibRowOps
import proofs.«136065_j25357486915627_2_alg».proof.Proof.LibColumnSum
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.ConvOne

open Cert.KernelIdeal Cert.KernelIdeal.Gen

open Idealize.ShloMosaic.ValueIdx

/-- The stored block at an entry. -/
theorem pay2_apply (x0 x1 : Vec Ideal S5000x128 .f32) (x2 x3 : Vec Ideal S128x128 .f32) (x4 : Vec Ideal S1x128 .f32)
    (r : Fin 5000) (j : Fin 128) :
    k0_pay2 (F := Ideal) x0 x1 x2 x3 x4 (ix2 r j)
      = ((∑ k : Fin 128, x0 (ix2 r k) * x2 (ix2 k j)) + (∑ k : Fin 128, x1 (ix2 r k) * x3 (ix2 k j)))
          + x4 (ix2 (0 : Fin 1) j) := by
  unfold k0_pay2
  try dsimp only
  refine congrArg₂ (· + ·) (congrArg₂ (· + ·) ?_ ?_) ?_
  · refine (Cert.KernelBody.matmul_plain_zero_apply (m := 5000) (k := 128) (n := 128)
      dot_S5000x128_S128x128_S5000x128_1_0_0_1_n_n_wf none _ _ r j).trans ?_
    refine Finset.sum_congr rfl fun k _ => ?_
    rw [truncf_apply, truncf_apply, shapeCast_self]
  · refine (Cert.KernelBody.matmul_plain_zero_apply (m := 5000) (k := 128) (n := 128)
      dot_S5000x128_S128x128_S5000x128_1_0_0_1_n_n_wf none _ _ r j).trans ?_
    refine Finset.sum_congr rfl fun k _ => ?_
    rw [truncf_apply, truncf_apply]
  · refine (Cert.KernelBody.broadcastTo_row_apply (a := 5000) (b := 128) _ _ r j).trans ?_
    rw [shapeCast_self]

/-- The column-sum payload at a column: what was found there plus the column's sum over the stored block. -/
theorem pay5_apply (x0 x1 : Vec Ideal S5000x128 .f32) (x2 x3 : Vec Ideal S128x128 .f32) (x4 : Vec Ideal S1x128 .f32)
    (v20 : Vec Ideal S1x128 .f32) (j : Fin 128) :
    k0_pay5 (F := Ideal) x0 x1 x2 x3 x4 v20 (ix2 (0 : Fin 1) j)
      = v20 (ix2 (0 : Fin 1) j) + ∑ r : Fin 5000, k0_pay2 (F := Ideal) x0 x1 x2 x3 x4 (ix2 r j) := by
  unfold k0_pay5
  try dsimp only
  refine congrArg₂ (· + ·) ?_ ?_
  · rw [shapeCast_self]
  · refine (Cert.KernelBody.shapeCast_row_apply (b := 128) _ _ j).trans ?_
    exact Cert.LibColumnSum.colsum_apply (a := 5000) (b := 128) _ _ _ _ _ j

/-- The square-sum payload at a column: what was found there plus the column's sum of squares. -/
theorem pay17_apply (x0 x1 : Vec Ideal S5000x128 .f32) (x2 x3 : Vec Ideal S128x128 .f32) (x4 : Vec Ideal S1x128 .f32)
    (v26 : Vec Ideal S1x128 .f32) (j : Fin 128) :
    k0_pay1 (F := Ideal) (k0_pay6 (F := Ideal) v26) (k0_pay7 (F := Ideal) x0 x1 x2 x3 x4) (ix2 (0 : Fin 1) j)
      = v26 (ix2 (0 : Fin 1) j)
          + ∑ r : Fin 5000, k0_pay2 (F := Ideal) x0 x1 x2 x3 x4 (ix2 r j) * k0_pay2 (F := Ideal) x0 x1 x2 x3 x4 (ix2 r j) := by
  unfold k0_pay1 k0_pay6 k0_pay7
  try dsimp only
  refine congrArg₂ (· + ·) ?_ ?_
  · rw [shapeCast_self]
  · refine (Cert.KernelBody.shapeCast_row_apply (b := 128) _ _ j).trans ?_
    refine (Cert.LibColumnSum.colsum_apply (a := 5000) (b := 128) _ _ _ _ _ j).trans ?_
    rfl

end Cert.KernelIdeal.ConvOne

end
-- ==== Proof.ConvOneBlocks.lean ====
/-
  The first convolution's kernel reads its operands block by block.  At grid point t (core t / 10, step t % 10) the
  aggregated features and the node features are read 5000 rows at a time — block t is rows 5000 t … 5000 t + 4999 —,
  the two weights and the bias whole.  So the block stored at point t is rows 5000 t … of
  H = A · Wl + X · Wr + b.
-/
import proofs.«136065_j25357486915627_2_alg».proof.Proof.Gen.KernelIdeal.Frame
import proofs.«136065_j25357486915627_2_alg».proof.Proof.Spec
import proofs.«136065_j25357486915627_2_alg».proof.Proof.ConvOnePayload
import Idealize.ShloMosaic.Lib.Pipeline.Value

noncomputable section

open Idealize.ShloMosaic Idealize.ShloMosaic.TcCoe Idealize.SL.Sem
open Idealize.ShloMosaic.Pipeline (Dat)

namespace Cert.KernelIdeal.ConvOne

open Cert.KernelIdeal Cert.KernelIdeal.Gen

open Idealize.ShloMosaic.ValueIdx

variable (V : (c : Dev nD) → (b : Ref sig .tc) → Buf (Elt Ideal) ((c : Thread nD τ).loc b)) (c : Dev nD)

/-- The five operand arrays as the region finds them. -/
abbrev inA : GraphConv.Arr 100000 128 := V c (Pipeline.arrRef spec0 0)
abbrev inX : GraphConv.Arr 100000 128 := V c (Pipeline.arrRef spec0 1)
abbrev inWl : GraphConv.Arr 128 128 := V c (Pipeline.arrRef spec0 2)
abbrev inWr : GraphConv.Arr 128 128 := V c (Pipeline.arrRef spec0 3)
abbrev inB : GraphConv.Arr 1 128 := V c (Pipeline.arrRef spec0 4)

/-- The hidden layer before normalisation, at node `n`, feature `j`. -/
def H (n : Fin 100000) (j : Fin 128) : EReal :=
  GraphConv.lin (inA V c) (inX V c) (inWl V c) (inWr V c) (fun j => inB V c (ix2 (0 : Fin 1) j)) n j

/-- Where the blocks sit, decided over the grid: the row blocks move with the point, the others stay. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_5.index t (0 : Fin 2) = t.val ∧ win0_5.index t (1 : Fin 2) = 0 :=
  (by decide +kernel : ∀ t : Fin grid0.N, _)

theorem idx_whole : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Row `r` of block `t` of the aggregated features is row `5000 t + r` of the array. -/
theorem blkA_apply (t : Fin cfg0.N) (r : Fin 5000) (k : Fin 128) (n : Fin 100000) (hn : n.val = 5000 * t.val + r.val) :
    (iblk0 V c 0 t : Vec Ideal S5000x128 .f32) (ix2 r k) = inA V c (ix2 n k) := by
  obtain ⟨e0, e1, -⟩ := idx_rows t
  unfold iblk0
  rw [View.read_apply]
  show V c (Pipeline.arrRef spec0 0) _ = V c (Pipeline.arrRef spec0 0) _
  refine congrArg _ (funext fun a => Fin.ext ?_)
  match a with
  | ⟨0, _⟩ => show win0_0.index t (0 : Fin 2) * 5000 + 1 * r.val = n.val; omega
  | ⟨1, _⟩ => show win0_0.index t (1 : Fin 2) * 128 + 1 * k.val = k.val; omega

/-- The same for the node features. -/
theorem blkX_apply (t : Fin cfg0.N) (r : Fin 5000) (k : Fin 128) (n : Fin 100000) (hn : n.val = 5000 * t.val + r.val) :
    (iblk0 V c 1 t : Vec Ideal S5000x128 .f32) (ix2 r k) = inX V c (ix2 n k) := by
  obtain ⟨-, -, e0, e1, -⟩ := idx_rows t
  unfold iblk0
  rw [View.read_apply]
  show V c (Pipeline.arrRef spec0 1) _ = V c (Pipeline.arrRef spec0 1) _
  refine congrArg _ (funext fun a => Fin.ext ?_)
  match a with
  | ⟨0, _⟩ => show win0_1.index t (0 : Fin 2) * 5000 + 1 * r.val = n.val; omega
  | ⟨1, _⟩ => show win0_1.index t (1 : Fin 2) * 128 + 1 * k.val = k.val; omega

/-- The weights and the bias are read whole. -/
theorem blkWl_apply (t : Fin cfg0.N) (k : Fin 128) (j : Fin 128) :
    (iblk0 V c 2 t : Vec Ideal S128x128 .f32) (ix2 k j) = inWl V c (ix2 k j) := by
  obtain ⟨e0, e1, -⟩ := idx_whole t
  unfold iblk0
  rw [View.read_apply]
  show V c (Pipeline.arrRef spec0 2) _ = V c (Pipeline.arrRef spec0 2) _
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * j.val = j.val; omega

theorem blkWr_apply (t : Fin cfg0.N) (k : Fin 128) (j : Fin 128) :
    (iblk0 V c 3 t : Vec Ideal S128x128 .f32) (ix2 k j) = inWr V c (ix2 k j) := by
  obtain ⟨-, -, e0, e1, -⟩ := idx_whole t
  unfold iblk0
  rw [View.read_apply]
  show V c (Pipeline.arrRef spec0 3) _ = V c (Pipeline.arrRef spec0 3) _
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * j.val = j.val; omega

theorem blkB_apply (t : Fin cfg0.N) (j : Fin 128) :
    (iblk0 V c 4 t : Vec Ideal S1x128 .f32) (ix2 (0 : Fin 1) j) = inB V c (ix2 (0 : Fin 1) j) := by
  obtain ⟨-, -, -, -, e0, e1⟩ := idx_whole t
  unfold iblk0
  rw [View.read_apply]
  show V c (Pipeline.arrRef spec0 4) _ = V c (Pipeline.arrRef spec0 4) _
  refine congrArg _ (funext fun a => Fin.ext ?_)
  match a with
  | ⟨0, _⟩ => show win0_4.index t (0 : Fin 2) * 1 + 1 * (0 : Fin 1).val = (0 : Fin 1).val; omega
  | ⟨1, _⟩ => show win0_4.index t (1 : Fin 2) * 128 + 1 * j.val = j.val; omega

/-- The block stored at point `t`, at its row `r`, is row `5000 t + r` of `H`. -/
theorem pay2_blocks (t : Fin cfg0.N) (r : Fin 5000) (j : Fin 128) (n : Fin 100000) (hn : n.val = 5000 * t.val + r.val) :
    k0_pay2 (F := Ideal) (iblk0 V c 0 t) (iblk0 V c 1 t) (iblk0 V c 2 t) (iblk0 V c 3 t) (iblk0 V c 4 t) (ix2 r j)
      = H V c n j := by
  refine (pay2_apply (iblk0 V c 0 t) (iblk0 V c 1 t) (iblk0 V c 2 t) (iblk0 V c 3 t) (iblk0 V c 4 t) r j).trans ?_
  unfold H GraphConv.lin
  refine congrArg₂ (· + ·) (congrArg₂ (· + ·)
    (Finset.sum_congr rfl fun k _ => congrArg₂ (· * ·) (blkA_apply V c t r k n hn) (blkWl_apply V c t k j))
    (Finset.sum_congr rfl fun k _ => congrArg₂ (· * ·) (blkX_apply V c t r k n hn) (blkWr_apply V c t k j)))
    (blkB_apply V c t j)

end Cert.KernelIdeal.ConvOne

end
-- ==== Proof.ConvOneHidden.lean ====
/-
  The hidden layer as the kernel leaves it: every grid point writes back its block of 5000 rows, block t is rows
  5000 t … 5000 t + 4999 of H, and the twenty blocks tile the 100000 rows; so the array ends holding H.
-/
import proofs.«136065_j25357486915627_2_alg».proof.Proof.ConvOneOut5
import proofs.«136065_j25357486915627_2_alg».proof.Proof.ConvOneBlocks

noncomputable section

open Idealize.ShloMosaic Idealize.ShloMosaic.TcCoe Idealize.SL.Sem
open Idealize.ShloMosaic.Pipeline (Dat)

namespace Cert.KernelIdeal.ConvOne

open Cert.KernelIdeal Cert.KernelIdeal.Gen

open Idealize.ShloMosaic.ValueIdx

variable (V : (c : Dev nD) → (b : Ref sig .tc) → Buf (Elt Ideal) ((c : Thread nD τ).loc b)) (c : Dev nD)

/-- `H` as an array. -/
def Harr : GraphConv.Arr 100000 128 := fun i => H V c ⟨(i 0).val, idx2_lt0 i⟩ ⟨(i 1).val, idx2_lt1 i⟩

/-- What the stored-block buffer holds after point `t`: the linear payload of the point's blocks, in either case. -/
theorem after5 (t : Fin cfg0.N) : (outsAt0 V c t.val t.isLt).1 = k0_pay2 (F := Ideal) (iblk0 V c 0 t) (iblk0 V c 1 t) (iblk0 V c 2 t) (iblk0 V c 3 t) (iblk0 V c 4 t) := by
  by_cases h0 : t.val % 10 = 0
  · rw [outsAt0_A V c t h0]
    dsimp only
    exact out5_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)
  · rw [outsAt0_B V c t h0]
    dsimp only
    exact out5_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t)
      (outsAt0 V c (t.val - 1) (Nat.lt_of_le_of_lt (Nat.sub_le _ _) t.isLt)).2.1 (outsAt0 V c (t.val - 1) (Nat.lt_of_le_of_lt (Nat.sub_le _ _) t.isLt)).2.2

/-- What point `t` writes back is block `t` of `H`. -/
theorem flushed5_eq (t : Fin cfg0.N) :
    (dat0 V c).flushed 5 t = ((cfg0.win 5).blk t).view.read (Elt Ideal) (Harr V c) := by
  show (cfg0.win 5).cut (grid0.coords t) ((dat0 V c).after 5 t) = _
  rw [after0_5, after5]
  obtain ⟨-, -, -, -, e0, e1⟩ := idx_rows t
  have hN : t.val < 20 := lt_of_lt_of_eq t.isLt (show cfg0.N = 20 from N_0)
  funext y
  obtain ⟨r, j, rfl⟩ : ∃ (r : Fin 5000) (j : Fin 128), y = ix2 r j := ⟨y 0, y 1, eq_ix2 y⟩
  show k0_pay2 (F := Ideal) (iblk0 V c 0 t) (iblk0 V c 1 t) (iblk0 V c 2 t) (iblk0 V c 3 t) (iblk0 V c 4 t) (ix2 r j) = Harr V c (((cfg0.win 5).blk t).view.emb (ix2 r j))
  refine (pay2_blocks V c t r j ⟨5000 * t.val + r.val, by have := r.isLt; omega⟩ rfl).trans ?_
  unfold Harr
  refine congrArg₂ (H V c) (Fin.ext ?_) (Fin.ext ?_)
  · show 5000 * t.val + r.val = win0_5.index t (0 : Fin 2) * 5000 + 1 * r.val
    omega
  · show j.val = win0_5.index t (1 : Fin 2) * 128 + 1 * j.val
    omega

/-- An index of the array is in point `t`'s block iff each coordinate is in the block's range on its axis. -/
theorem mem_blk5 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v28_0).slice (win0_5.rect t)).set ↔ _
  rw [View.set_slice_whole, Rect.mem_set_unit]
  exact Iff.rfl

/-- The array of the hidden layer after the run. -/
theorem hidden_eq : (dat0 V c).arrAt 5 cfg0.N = Harr V c :=
  (dat0 V c).arrAt_eq_of_cover 5 (Harr V c) (fun t _ => flushed5_eq V c t) fun i => by
    have hi0 : (i 0).val < 100000 := (i 0).isLt
    have hi1 : (i 1).val < 128 := (i 1).isLt
    have hN : cfg0.N = 20 := N_0
    refine ⟨⟨(i 0).val / 5000, by rw [hN]; omega⟩, flush0_5 _, ?_⟩
    rw [mem_blk5]
    obtain ⟨-, -, -, -, e0, e1⟩ := idx_rows ⟨(i 0).val / 5000, by rw [hN]; omega⟩
    intro a
    match a with
    | ⟨0, _⟩ =>
      show win0_5.index _ (0 : Fin 2) * 5000 ≤ (i 0).val ∧ (i 0).val < win0_5.index _ (0 : Fin 2) * 5000 + 5000
      rw [e0]; dsimp only; omega
    | ⟨1, _⟩ =>
      show win0_5.index _ (1 : Fin 2) * 128 ≤ (i 1).val ∧ (i 1).val < win0_5.index _ (1 : Fin 2) * 128 + 128
      rw [e1]; omega

/-- The hidden layer at node `n`, feature `j`. -/
theorem hidden_apply (n : Fin 100000) (j : Fin 128) :
    (dat0 V c).arrAt 5 cfg0.N (ix2 n j) = H V c n j :=
  congrFun (hidden_eq V c) (ix2 n j)

end Cert.KernelIdeal.ConvOne

end
-- ==== Proof.Entry0.lean ====
/-
  The first kernel region's inputs and output in terms of the launch memory.  The region is entered with the
  aggregated features (the host operations before it), the features themselves, the first layer's two weight matrices
  (none of which those operations write) and the bias as a row.  Its row-by-row linear combination of them is the
  specification's first convolution.
-/
import proofs.«136065_j25357486915627_2_alg».proof.Proof.Gen.KernelIdeal.Frame
import proofs.«136065_j25357486915627_2_alg».proof.Proof.Host0All
import proofs.«136065_j25357486915627_2_alg».proof.Proof.Keep
import proofs.«136065_j25357486915627_2_alg».proof.Proof.RealVal
import proofs.«136065_j25357486915627_2_alg».proof.Proof.ConvOneHidden

set_option maxRecDepth 100000
set_option pp.deepTerms false
set_option pp.maxSteps 5000

noncomputable section

open scoped BigOperators

namespace Cert.KernelIdeal.Bridge

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

/-- The ten arguments as launched, read as arrays. -/
abbrev x : GraphConv.Arr 100000 128 := m ((c : Thread nD τ).loc main_arg0)
abbrev ei : GraphConv.Edges := m ((c : Thread nD τ).loc main_arg1)
abbrev w1l : GraphConv.Arr 128 128 := m ((c : Thread nD τ).loc main_arg2)
abbrev w1r : GraphConv.Arr 128 128 := m ((c : Thread nD τ).loc main_arg3)
abbrev b1 : Fin 128 → EReal := fun j => (m ((c : Thread nD τ).loc main_arg4) : S128.Idx → EReal) (ix1 j)
abbrev gam : Fin 128 → EReal := fun j => (m ((c : Thread nD τ).loc main_arg5) : S128.Idx → EReal) (ix1 j)
abbrev bet : Fin 128 → EReal := fun j => (m ((c : Thread nD τ).loc main_arg6) : S128.Idx → EReal) (ix1 j)
abbrev w2l : GraphConv.Arr 128 40 := m ((c : Thread nD τ).loc main_arg7)
abbrev w2r : GraphConv.Arr 128 40 := m ((c : Thread nD τ).loc main_arg8)
abbrev b2 : Fin 40 → EReal := fun j => (m ((c : Thread nD τ).loc main_arg9) : S40.Idx → EReal) (ix1 j)

/-- The first convolution of the launched arguments. -/
abbrev hid : GraphConv.Arr 100000 128 := GraphConv.hidden (x m c) (ei m c) (w1l m c) (w1r m c) (b1 m c)

theorem in_agg : ConvOne.inA (V1 m ρ) c = GraphConv.aggArr (x m c) (ei m c) := by
  funext i
  obtain ⟨n, k, rfl⟩ : ∃ (n : Fin 100000) (k : Fin 128), i = ix2 n k := ⟨i 0, i 1, eq_ix2 i⟩
  show StableHlo.after hostOps0 (W0 m ρ c) (Proc.devRef .tc main_v26) (ix2 n k) = _
  exact Stretch0.all_agg (W0 m ρ c) n k

theorem in_feat : ConvOne.inX (V1 m ρ) c = x m c := by
  show StableHlo.after hostOps0 (W0 m ρ c) (Proc.devRef .tc main_arg0) = _
  rw [Keep.hostOps0_keeps_main_arg0]

theorem in_wl : ConvOne.inWl (V1 m ρ) c = w1l m c := by
  show StableHlo.after hostOps0 (W0 m ρ c) (Proc.devRef .tc main_arg2) = _
  rw [Keep.hostOps0_keeps_main_arg2]

theorem in_wr : ConvOne.inWr (V1 m ρ) c = w1r m c := by
  show StableHlo.after hostOps0 (W0 m ρ c) (Proc.devRef .tc main_arg3) = _
  rw [Keep.hostOps0_keeps_main_arg3]

theorem in_bias : (fun j : Fin 128 => ConvOne.inB (V1 m ρ) c (ix2 (0 : Fin 1) j)) = b1 m c := by
  funext j
  show StableHlo.after hostOps0 (W0 m ρ c) (Proc.devRef .tc main_v27) (ix2 (0 : Fin 1) j) = _
  exact Stretch0.all_bias (W0 m ρ c) j

/-- The region's row-by-row combination is the first convolution. -/
theorem H_eq (n : Fin 100000) (j : Fin 128) : ConvOne.H (V1 m ρ) c n j = hid m c (ix2 n j) := by
  unfold ConvOne.H
  rw [in_agg, in_feat, in_wl, in_wr, in_bias]
  rfl

/-- The first region's main output. -/
theorem out_hidden (n : Fin 100000) (j : Fin 128) :
    (dat0 (V1 m ρ) c).arrAt 5 cfg0.N (ix2 n j) = hid m c (ix2 n j) :=
  (ConvOne.hidden_apply (V1 m ρ) c n j).trans (H_eq m ρ c n j)

end Cert.KernelIdeal.Bridge

end
-- ==== Proof.Host1.lean ====
/-
  The host operations between the first and the second kernel region, read at an index.  The first region leaves two
  16-row tables of column statistics whose rows 0 and 8 hold the two halves' column sums (of the entries, and of their
  squares).  From them: the column mean `(s₀ + s₈) / N`; the mean of squares minus the squared mean, floored at zero;
  and the scale and the shift as rows.
-/
import proofs.«136065_j25357486915627_2_alg».proof.Proof.Gen.KernelIdeal.Frame
import proofs.«136065_j25357486915627_2_alg».proof.Proof.Spec
import proofs.«136065_j25357486915627_2_alg».proof.Proof.LayoutIdx
import proofs.«136065_j25357486915627_2_alg».proof.Proof.LibRowOps
import Idealize.ShloMosaic.Lib.StableHlo.Run
import Idealize.ShloMosaic.PureOps.Ideal

set_option maxRecDepth 100000
set_option pp.deepTerms false
set_option pp.maxSteps 5000

noncomputable section

namespace Cert.KernelIdeal.Stretch1

open Idealize.ShloMosaic Idealize.ShloMosaic.TcCoe Idealize.ShloMosaic.Tactic Idealize.SL.Sem
open Idealize.ShloMosaic.StableHlo Idealize.ShloMosaic.ValueIdx
open Cert.KernelIdeal Cert.KernelIdeal.Gen

variable (W : Valuation τ sig (Elt Ideal))

/-- The table of column sums as the first region leaves it. -/
abbrev sums : S16x128.Idx → EReal := W (Proc.devRef .tc main_v28_1)
/-- The table of column sums of squares. -/
abbrev sumsqs : S16x128.Idx → EReal := W (Proc.devRef .tc main_v28_2)

/-- Row `o` of a 16-row table, sliced out at unit height, at column `j`. -/
theorem statRow (X : FVec Ideal S16x128 .f32) (o : Fin 16) (h : S16x128.Slices ![o.val, 0] S1x128) (j : Fin 128) :
    extractStridedSlice S1x128 ![o.val, 0] X h (ix2 (0 : Fin 1) j) = X (ix2 o j) :=
  extractStridedSlice_apply _ X h _ (ix2 o j) fun a => by
    match a with
    | ⟨0, _⟩ => show o.val = o.val + 0; omega
    | ⟨1, _⟩ => show j.val = 0 + j.val; omega

/-- The column mean: the two halves' sums, added, over the node count. -/
theorem meanRow (j : Fin 128) :
    StableHlo.after (hostOps1 (F := Ideal)) W (Proc.devRef .tc main_v36) (ix2 (0 : Fin 1) j)
      = Ideal.div (sums W (ix2 (0 : Fin 16) j) + sums W (ix2 (8 : Fin 16) j))
          GraphConv.nodes := by
  after_results
  show Ideal.div (_ + _) _ = _
  refine congr (congrArg Ideal.div (congr (congrArg HAdd.hAdd ?_) ?_)) ?_
  · exact statRow (sums W) (0 : Fin 16) _ j
  · exact statRow (sums W) (8 : Fin 16) _ j
  · exact GraphConv.Layout.scalar_apply _ _ _

/-- The mean of squares minus the squared mean, floored at zero. -/
theorem varRow (j : Fin 128) :
    StableHlo.after (hostOps1 (F := Ideal)) W (Proc.devRef .tc main_v42) (ix2 (0 : Fin 1) j)
      = max (Ideal.div (sumsqs W (ix2 (0 : Fin 16) j) + sumsqs W (ix2 (8 : Fin 16) j))
              GraphConv.nodes
            - Ideal.div (sums W (ix2 (0 : Fin 16) j) + sums W (ix2 (8 : Fin 16) j))
                GraphConv.nodes
              * Ideal.div (sums W (ix2 (0 : Fin 16) j) + sums W (ix2 (8 : Fin 16) j))
                GraphConv.nodes) GraphConv.zero := by
  after_results
  show max (Ideal.div (_ + _) _ - Ideal.div (_ + _) _ * Ideal.div (_ + _) _) _ = _
  have s0 := statRow (sums W) (0 : Fin 16) slices_S16x128_S1x128_0_0 j
  have s8 := statRow (sums W) (8 : Fin 16) slices_S16x128_S1x128_8_0 j
  have q0 := statRow (sumsqs W) (0 : Fin 16) slices_S16x128_S1x128_0_0 j
  have q8 := statRow (sumsqs W) (8 : Fin 16) slices_S16x128_S1x128_8_0 j
  have hn : ∀ i, broadcastInDim S1x128 ![] bcast_S_S1x128 (constant (F := Ideal) S_ .f32 0x47C35000#32) i = GraphConv.nodes :=
    fun i => GraphConv.Layout.scalar_apply _ _ i
  have hz : ∀ i, broadcastInDim S1x128 ![] bcast_S_S1x128 (constant (F := Ideal) S_ .f32 0x00000000#32) i = GraphConv.zero :=
    fun i => GraphConv.Layout.scalar_apply _ _ i
  rw [hn, hz]
  exact congrArg (fun t => max t GraphConv.zero)
    (congr (congrArg HSub.hSub (congrArg (fun t => Ideal.div t GraphConv.nodes) (congr (congrArg HAdd.hAdd q0) q8)))
      (congr (congrArg HMul.hMul (congrArg (fun t => Ideal.div t GraphConv.nodes) (congr (congrArg HAdd.hAdd s0) s8)))
        (congrArg (fun t => Ideal.div t GraphConv.nodes) (congr (congrArg HAdd.hAdd s0) s8))))

/-- The scale as a row. -/
theorem scaleRow (j : Fin 128) :
    StableHlo.after (hostOps1 (F := Ideal)) W (Proc.devRef .tc main_v43) (ix2 (0 : Fin 1) j)
      = W (Proc.devRef .tc main_arg5) (ix1 j) := by
  after_results
  exact Cert.KernelBody.shapeCast_row_apply _ _ j

/-- The shift as a row. -/
theorem shiftRow (j : Fin 128) :
    StableHlo.after (hostOps1 (F := Ideal)) W (Proc.devRef .tc main_v44) (ix2 (0 : Fin 1) j)
      = W (Proc.devRef .tc main_arg6) (ix1 j) := by
  after_results
  exact Cert.KernelBody.shapeCast_row_apply _ _ j

/-- The first convolution's array is not touched by these operations. -/
theorem hiddenKept : StableHlo.after (hostOps1 (F := Ideal)) W (Proc.devRef .tc main_v28_0) = W (Proc.devRef .tc main_v28_0) := by
  after_results

end Cert.KernelIdeal.Stretch1

end
-- ==== Proof.ConvOneOut67A.lean ====
/-
  A core's first step, the two statistics buffers: each is filled with zeros, then row 0 is rewritten — the column-sum
  buffer with (row 0 of the fill) + the column sums of the stored block, the square-sum buffer likewise with the
  column sums of the squares.
-/
import proofs.«136065_j25357486915627_2_alg».proof.Proof.ConvOneOut5

noncomputable section

open Idealize.ShloMosaic Idealize.ShloMosaic.TcCoe Idealize.SL.Sem
open Idealize.ShloMosaic.Pipeline (Dat)

namespace Cert.KernelIdeal.ConvOne

open Cert.KernelIdeal Cert.KernelIdeal.Gen

variable {F : FTy → Type} [FloatOps F]

/-- The rectangle of row 0 of an 8 × 128 buffer. -/
abbrev R0 : Rect S8x128 := Rect.unit (s := S8x128) ![0, 0] S1x128.size inb_S8x128_S1x128_0_0

/-- A load through any rectangle of what one whole-buffer store left reads the store's payload there. -/
theorem readCov_whole {sig : RefSig} {κ : Kind} {sp : Space} (v : View sig κ sp S8x128 .f32)
    (inb : ∀ a, (![0, 0] : Fin 2 → Nat) a + S8x128.size a ≤ S8x128.size a) (w : S8x128.Idx → Elt F .f32) (r : Rect S8x128) :
    v.readCov [(⟨Rect.unit ![0, 0] S8x128.size inb, w⟩ : View.Piece (Elt F) S8x128 .f32)] r.toLoadRect = View.ld w r := by
  rw [View.readCov_eq_canon_ld _ _ _ (fun y => ⟨_, List.mem_singleton_self _, View.mem_set_unit_zero hz inb y⟩),
    View.canon_unit_zero hz]

/-- Row 0 of the column-sum buffer after a first step. -/
theorem out6_A (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (hc0 : cond0_0 i) (x0 : Vec F S5000x128 .f32) (x1 : Vec F S5000x128 .f32) (x2 : Vec F S128x128 .f32) (x3 : Vec F S128x128 .f32) (x4 : Vec F S1x128 .f32) (y : S1x128.Idx) :
    out0_A_6 c i arg2 harg2 arg3 harg3 arg4 harg4 arg5 harg5 arg6 harg6 arg7 harg7 arg8 harg8 arg9 harg9 hc0 x0 x1 x2 x3 x4 (R0.emb y) = k0_pay5 x0 x1 x2 x3 x4 (View.ld (k0_pay3 (F := F)) R0) y := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4)]
  unfold kernelRun0_A
  dsimp only
  try sl_unfold_words
  refine (View.canon_cons_emb R0 _ _ y).trans ?_
  simp only [View.readAt_eq_ld, harg2.read_unread, harg3.read_unread, harg4.read_unread, harg5.read_unread, harg6.read_unread,
    View.ld_unit_zero (S := S5000x128) hz, View.ld_unit_zero (S := S128x128) hz, View.ld_unit_zero (S := S1x128) hz]
  rw [readCov_whole]

/-- Row 0 of the square-sum buffer after a first step. -/
theorem out7_A (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (hc0 : cond0_0 i) (x0 : Vec F S5000x128 .f32) (x1 : Vec F S5000x128 .f32) (x2 : Vec F S128x128 .f32) (x3 : Vec F S128x128 .f32) (x4 : Vec F S1x128 .f32) (y : S1x128.Idx) :
    out0_A_7 c i arg2 harg2 arg3 harg3 arg4 harg4 arg5 harg5 arg6 harg6 arg7 harg7 arg8 harg8 arg9 harg9 hc0 x0 x1 x2 x3 x4 (R0.emb y) = k0_pay1 (k0_pay6 (View.ld (k0_pay4 (F := F)) R0)) (k0_pay7 x0 x1 x2 x3 x4) y := by
  unfold out0_A_7
  rw [View.read_writes_eq_canon _ _ _ (cover0_A_7 c i arg2 harg2 arg3 harg3 arg4 harg4 arg5 harg5 arg6 harg6 arg7 harg7 arg8 harg8 arg9 harg9 hc0 x0 x1 x2 x3 x4)]
  unfold kernelRun0_A
  dsimp only
  try sl_unfold_words
  refine (View.canon_cons_emb R0 _ _ y).trans ?_
  simp only [View.readAt_eq_ld, harg2.read_unread, harg3.read_unread, harg4.read_unread, harg5.read_unread, harg6.read_unread,
    View.ld_unit_zero (S := S5000x128) hz, View.ld_unit_zero (S := S128x128) hz, View.ld_unit_zero (S := S1x128) hz]
  rw [readCov_whole]

end Cert.KernelIdeal.ConvOne

end
-- ==== Proof.ConvOneOut67B.lean ====
/-
  A later step of a core, the two statistics buffers: only row 0 is rewritten, over what the step before left — the
  column-sum buffer with (its row 0) + the column sums of the stored block, the square-sum buffer likewise with the
  column sums of the squares.
-/
import proofs.«136065_j25357486915627_2_alg».proof.Proof.ConvOneOut67A

noncomputable section

open Idealize.ShloMosaic Idealize.ShloMosaic.TcCoe Idealize.SL.Sem
open Idealize.ShloMosaic.Pipeline (Dat)

namespace Cert.KernelIdeal.ConvOne

open Cert.KernelIdeal Cert.KernelIdeal.Gen

variable {F : FTy → Type} [FloatOps F]

/-- Row 0 of the column-sum buffer after a later step, over the buffer `xo6` it found. -/
theorem out6_B (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (x0 : Vec F S5000x128 .f32) (x1 : Vec F S5000x128 .f32) (x2 : Vec F S128x128 .f32) (x3 : Vec F S128x128 .f32) (x4 : Vec F S1x128 .f32) (xo6 : Vec F S8x128 .f32) (xo7 : Vec F S8x128 .f32) (y : S1x128.Idx) :
    out0_B_6 c i arg2 harg2 arg3 harg3 arg4 harg4 arg5 harg5 arg6 harg6 arg7 harg7 arg8 harg8 arg9 harg9 hc0 x0 x1 x2 x3 x4 xo6 xo7 (R0.emb y) = k0_pay5 x0 x1 x2 x3 x4 (View.ld xo6 R0) y := by
  unfold out0_B_6
  unfold kernelRun0_B
  dsimp only
  try sl_unfold_words
  refine (View.read_writes_cons_emb _ _ R0 _ _ y).trans ?_
  simp only [View.readAt_eq_ld, harg2.read_unread, harg3.read_unread, harg4.read_unread, harg5.read_unread, harg6.read_unread,
    View.ld_unit_zero (S := S5000x128) hz, View.ld_unit_zero (S := S128x128) hz, View.ld_unit_zero (S := S1x128) hz]
  simp only [harg8.read_unread]

/-- Row 0 of the square-sum buffer after a later step, over the buffer `xo7` it found. -/
theorem out7_B (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (x0 : Vec F S5000x128 .f32) (x1 : Vec F S5000x128 .f32) (x2 : Vec F S128x128 .f32) (x3 : Vec F S128x128 .f32) (x4 : Vec F S1x128 .f32) (xo6 : Vec F S8x128 .f32) (xo7 : Vec F S8x128 .f32) (y : S1x128.Idx) :
    out0_B_7 c i arg2 harg2 arg3 harg3 arg4 harg4 arg5 harg5 arg6 harg6 arg7 harg7 arg8 harg8 arg9 harg9 hc0 x0 x1 x2 x3 x4 xo6 xo7 (R0.emb y) = k0_pay1 (k0_pay6 (View.ld xo7 R0)) (k0_pay7 x0 x1 x2 x3 x4) y := by
  unfold out0_B_7
  unfold kernelRun0_B
  dsimp only
  try sl_unfold_words
  refine (View.read_writes_cons_emb _ _ R0 _ _ y).trans ?_
  simp only [View.readAt_eq_ld, harg2.read_unread, harg3.read_unread, harg4.read_unread, harg5.read_unread, harg6.read_unread,
    View.ld_unit_zero (S := S5000x128) hz, View.ld_unit_zero (S := S128x128) hz, View.ld_unit_zero (S := S1x128) hz]
  simp only [harg9.read_unread]

end Cert.KernelIdeal.ConvOne

end
-- ==== Proof.LibTileAccum.lean ====
/-
  Joining a sum accumulated tile by tile to the whole sum.

  The adjacency-weighted sum over all 8192 nodes is computed as eight partial sums, one per tile of 1024 consecutive
  nodes, added one after the other into an accumulator that starts at zero. Over the extended reals addition is
  commutative and associative (an additive commutative monoid), so the accumulated value is the sum over all nodes.
  Nothing here distributes a product over a sum, so no finiteness is needed.
-/
import Mathlib.Algebra.BigOperators.Fin
import Mathlib.Data.Fintype.BigOperators
import Mathlib.Logic.Equiv.Fin.Basic
import Mathlib.Data.EReal.Basic

noncomputable section

open scoped BigOperators

namespace Cert.Accum

/-- A sum over `Fin (m * n)` read as `m` consecutive blocks of `n` terms: block `k`, position `j` is term
    `j + n * k`. -/
theorem blocks_sum {M : Type*} [AddCommMonoid M] (m n : ℕ) (f : Fin (m * n) → M) :
    ∑ k : Fin m, ∑ j : Fin n, f (finProdFinEquiv (k, j)) = ∑ x : Fin (m * n), f x := by
  rw [← Fintype.sum_prod_type' (fun k j => f (finProdFinEquiv (k, j)))]
  exact Equiv.sum_comp finProdFinEquiv f

/-- Eight tiles of 1024 terms make up the sum of all 8192 terms. -/
theorem tiles_sum (f : Fin 8192 → EReal) :
    ∑ k : Fin 8, ∑ j : Fin 1024, f ⟨k.val * 1024 + j.val, by omega⟩ = ∑ n : Fin 8192, f n := by
  refine Eq.trans ?_ (blocks_sum 8 1024 f)
  refine Finset.sum_congr rfl fun k _ => Finset.sum_congr rfl fun j _ => congrArg f (Fin.ext ?_)
  show k.val * 1024 + j.val = j.val + 1024 * k.val
  omega

/-- Eight terms added one after the other into a zero accumulator are their sum. -/
theorem fold8 (d : Fin 8 → EReal) :
    (((((((0 + d 0) + d 1) + d 2) + d 3) + d 4) + d 5) + d 6) + d 7 = ∑ k : Fin 8, d k := by
  rw [Fin.sum_univ_eight, zero_add]

/-- The accumulator after tile `n`: it starts at zero, and each tile adds its partial sum. -/
def accN (d : ℕ → EReal) : ℕ → EReal
  | 0 => 0 + d 0
  | n + 1 => accN d n + d (n + 1)

/-- The accumulator after tile `n` is the sum of the partial sums of tiles `0 … n`. -/
theorem accN_eq (d : ℕ → EReal) (n : ℕ) : accN d n = ∑ k ∈ Finset.range (n + 1), d k := by
  induction n with
  | zero => simp [accN]
  | succ n ih => rw [accN, ih, Finset.sum_range_succ d (n + 1)]

/-- After the eighth tile the accumulator is the sum of all eight partial sums. -/
theorem accN_seven (d : ℕ → EReal) : accN d 7 = ∑ k : Fin 8, d k.val := by
  rw [accN_eq, Finset.sum_range]

/-- The accumulator after the eighth tile, when tile `k`'s partial sum is the sum of `f` over the tile's 1024 terms,
    is the sum of `f` over all 8192 terms. -/
theorem accN_tiles (f : Fin 8192 → EReal) (d : ℕ → EReal)
    (hd : ∀ k : Fin 8, d k.val = ∑ j : Fin 1024, f ⟨k.val * 1024 + j.val, by omega⟩) :
    accN d 7 = ∑ n : Fin 8192, f n := by
  rw [accN_seven, ← tiles_sum f]
  exact Finset.sum_congr rfl fun k _ => hd k

end Cert.Accum

end
-- ==== Proof.ConvOneSums.lean ====
/-
  Sums over the 100000 nodes cut into twenty blocks of 5000 consecutive nodes.  The sum over blocks 0 … 9 is the sum over
  the nodes below 50000, the sum over blocks 10 … 19 the sum over the others: a sum over ten blocks of 5000 terms is
  a sum over 50000 consecutive terms.
-/
import proofs.«136065_j25357486915627_2_alg».proof.Proof.LibTileAccum
import Mathlib.Algebra.BigOperators.Fin
import Mathlib.Algebra.BigOperators.Intervals
import Mathlib.Data.EReal.Basic

noncomputable section

open scoped BigOperators

namespace Cert.KernelIdeal.ConvOne

/-- The sum of `g` over the 5000 nodes of block `p` (nothing past the twentieth block). -/
def blockSum (g : Fin 100000 → EReal) (p : ℕ) : EReal :=
  if h : p < 20 then ∑ r : Fin 5000, g ⟨5000 * p + r.val, by have := r.isLt; omega⟩ else 0

theorem blockSum_of_lt (g : Fin 100000 → EReal) (p : ℕ) (h : p < 20) :
    blockSum g p = ∑ r : Fin 5000, g ⟨5000 * p + r.val, by have := r.isLt; omega⟩ := dif_pos h

/-- The first 50000 nodes, as a subset of all of them. -/
theorem half_lo (g : Fin 100000 → EReal) :
    ∑ x : Fin (10 * 5000), g ⟨x.val, by have := x.isLt; omega⟩
      = ∑ n ∈ Finset.univ.filter (fun n : Fin 100000 => n.val < 50000), g n := by
  refine Finset.sum_bij (fun x _ => ⟨x.val, by have := x.isLt; omega⟩) ?_ ?_ ?_ ?_
  · intro x _
    have := x.isLt
    exact Finset.mem_filter.mpr ⟨Finset.mem_univ _, by show x.val < 50000; omega⟩
  · intro a _ b _ h
    have e := congrArg Fin.val h
    exact Fin.ext e
  · intro n hn
    have h := (Finset.mem_filter.mp hn).2
    exact ⟨⟨n.val, by show n.val < 10 * 5000; omega⟩, Finset.mem_univ _, Fin.ext rfl⟩
  · intro x _
    rfl

/-- The last 50000 nodes, as a subset of all of them. -/
theorem half_hi (g : Fin 100000 → EReal) :
    ∑ x : Fin (10 * 5000), g ⟨50000 + x.val, by have := x.isLt; omega⟩
      = ∑ n ∈ Finset.univ.filter (fun n : Fin 100000 => 50000 ≤ n.val), g n := by
  refine Finset.sum_bij (fun x _ => ⟨50000 + x.val, by have := x.isLt; omega⟩) ?_ ?_ ?_ ?_
  · intro x _
    exact Finset.mem_filter.mpr ⟨Finset.mem_univ _, by show 50000 ≤ 50000 + x.val; omega⟩
  · intro a _ b _ h
    have := congrArg Fin.val h
    exact Fin.ext (by show a.val = b.val; have e : 50000 + a.val = 50000 + b.val := this; omega)
  · intro n hn
    have h := (Finset.mem_filter.mp hn).2
    have := n.isLt
    exact ⟨⟨n.val - 50000, by show n.val - 50000 < 10 * 5000; omega⟩, Finset.mem_univ _,
      Fin.ext (by show 50000 + (n.val - 50000) = n.val; omega)⟩
  · intro x _
    rfl

/-- Blocks 0 … 9 make up the nodes below 50000. -/
theorem blocks_lo (g : Fin 100000 → EReal) :
    ∑ s ∈ Finset.range 10, blockSum g (10 * 0 + s)
      = ∑ n ∈ Finset.univ.filter (fun n : Fin 100000 => n.val < 50000), g n := by
  rw [Finset.sum_range, ← half_lo g]
  refine Eq.trans ?_ (Cert.Accum.blocks_sum 10 5000
    (fun x : Fin (10 * 5000) => g ⟨x.val, by have := x.isLt; omega⟩))
  refine Finset.sum_congr rfl fun s _ => ?_
  rw [blockSum_of_lt g _ (by have := s.isLt; omega)]
  refine Finset.sum_congr rfl fun r _ => congrArg g (Fin.ext ?_)
  show 5000 * (10 * 0 + s.val) + r.val = r.val + 5000 * s.val
  omega

/-- Blocks 10 … 19 make up the nodes from 50000 on. -/
theorem blocks_hi (g : Fin 100000 → EReal) :
    ∑ s ∈ Finset.range 10, blockSum g (10 * 1 + s)
      = ∑ n ∈ Finset.univ.filter (fun n : Fin 100000 => 50000 ≤ n.val), g n := by
  rw [Finset.sum_range, ← half_hi g]
  refine Eq.trans ?_ (Cert.Accum.blocks_sum 10 5000
    (fun x : Fin (10 * 5000) => g ⟨50000 + x.val, by have := x.isLt; omega⟩))
  refine Finset.sum_congr rfl fun s _ => ?_
  rw [blockSum_of_lt g _ (by have := s.isLt; omega)]
  refine Finset.sum_congr rfl fun r _ => congrArg g (Fin.ext ?_)
  show 5000 * (10 * 1 + s.val) + r.val = 50000 + (r.val + 5000 * s.val)
  omega

end Cert.KernelIdeal.ConvOne

end
-- ==== Proof.ConvOneAccum.lean ====
/-
  The two statistics buffers along the grid.  Within a core the buffers are carried from step to step: the first step
  zeroes them and adds its block's column sums into row 0, every later step adds its own.  So after point n (core
  n / 10, step n % 10) row 0 of the column-sum buffer is the sum over the blocks 10 (n / 10) … n of the column sums of
  H, and row 0 of the square-sum buffer the same for H².
-/
import proofs.«136065_j25357486915627_2_alg».proof.Proof.ConvOneOut67B
import proofs.«136065_j25357486915627_2_alg».proof.Proof.ConvOneBlocks
import proofs.«136065_j25357486915627_2_alg».proof.Proof.ConvOneSums

noncomputable section

open Idealize.ShloMosaic Idealize.ShloMosaic.TcCoe Idealize.SL.Sem
open Idealize.ShloMosaic.Pipeline (Dat)

namespace Cert.KernelIdeal.ConvOne

open Cert.KernelIdeal Cert.KernelIdeal.Gen

open Idealize.ShloMosaic.ValueIdx

variable (V : (c : Dev nD) → (b : Ref sig .tc) → Buf (Elt Ideal) ((c : Thread nD τ).loc b)) (c : Dev nD)

/-- The column sum of the block stored at point `t` is the sum of `H`'s column over block `t`. -/
theorem pay2_sum (t : Fin cfg0.N) (j : Fin 128) :
    ∑ r : Fin 5000, k0_pay2 (F := Ideal) (iblk0 V c 0 t) (iblk0 V c 1 t) (iblk0 V c 2 t) (iblk0 V c 3 t) (iblk0 V c 4 t) (ix2 r j) = blockSum (fun n => H V c n j) t.val := by
  have hN : t.val < 20 := lt_of_lt_of_eq t.isLt (show cfg0.N = 20 from N_0)
  rw [blockSum_of_lt _ _ hN]
  exact Finset.sum_congr rfl fun r _ => pay2_blocks V c t r j ⟨5000 * t.val + r.val, by have := r.isLt; omega⟩ rfl

/-- The same for the squares. -/
theorem pay2_sumsq (t : Fin cfg0.N) (j : Fin 128) :
    ∑ r : Fin 5000, k0_pay2 (F := Ideal) (iblk0 V c 0 t) (iblk0 V c 1 t) (iblk0 V c 2 t) (iblk0 V c 3 t) (iblk0 V c 4 t) (ix2 r j) * k0_pay2 (F := Ideal) (iblk0 V c 0 t) (iblk0 V c 1 t) (iblk0 V c 2 t) (iblk0 V c 3 t) (iblk0 V c 4 t) (ix2 r j)
      = blockSum (fun n => H V c n j * H V c n j) t.val := by
  have hN : t.val < 20 := lt_of_lt_of_eq t.isLt (show cfg0.N = 20 from N_0)
  rw [blockSum_of_lt _ _ hN]
  exact Finset.sum_congr rfl fun r _ => congrArg₂ (· * ·)
    (pay2_blocks V c t r j ⟨5000 * t.val + r.val, by have := r.isLt; omega⟩ rfl)
    (pay2_blocks V c t r j ⟨5000 * t.val + r.val, by have := r.isLt; omega⟩ rfl)

/-- Row 0 of either zero fill is zero. -/
theorem zero_row6 (j : Fin 128) :
    (View.ld (k0_pay3 (F := Ideal)) R0 : Vec Ideal S1x128 .f32) (ix2 (0 : Fin 1) j) = (0 : EReal) := by
  show Ideal.ofBits .f32 0x00000000#32 = 0
  exact Ideal.ofBits_zero_f32

theorem zero_row7 (j : Fin 128) :
    (View.ld (k0_pay4 (F := Ideal)) R0 : Vec Ideal S1x128 .f32) (ix2 (0 : Fin 1) j) = (0 : EReal) := by
  show Ideal.ofBits .f32 0x00000000#32 = 0
  exact Ideal.ofBits_zero_f32

/-- One step of the column-sum buffer at a core's first step: the block's column sum. -/
theorem step6_A (t : Fin cfg0.N) (h0 : t.val % 10 = 0) (j : Fin 128) :
    (outsAt0 V c t.val t.isLt).2.1 (R0.emb (ix2 (0 : Fin 1) j)) = blockSum (fun n => H V c n j) t.val := by
  rw [outsAt0_A V c t h0]
  dsimp only
  refine (out6_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t) (ix2 (0 : Fin 1) j)).trans ?_
  refine (pay5_apply (iblk0 V c 0 t) (iblk0 V c 1 t) (iblk0 V c 2 t) (iblk0 V c 3 t) (iblk0 V c 4 t) (View.ld (k0_pay3 (F := Ideal)) R0) j).trans ?_
  refine (congrArg₂ (· + ·) (zero_row6 j)
    (pay2_sum V c t j)).trans ?_
  exact zero_add _

/-- One later step: what the step before left plus the block's column sum. -/
theorem step6_B (t : Fin cfg0.N) (h0 : ¬t.val % 10 = 0) (j : Fin 128) :
    (outsAt0 V c t.val t.isLt).2.1 (R0.emb (ix2 (0 : Fin 1) j))
      = (outsAt0 V c (t.val - 1) (Nat.lt_of_le_of_lt (Nat.sub_le _ _) t.isLt)).2.1 (R0.emb (ix2 (0 : Fin 1) j))
        + blockSum (fun n => H V c n j) t.val := by
  rw [outsAt0_B V c t h0]
  dsimp only
  refine (out6_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t)
    (outsAt0 V c (t.val - 1) (Nat.lt_of_le_of_lt (Nat.sub_le _ _) t.isLt)).2.1
    (outsAt0 V c (t.val - 1) (Nat.lt_of_le_of_lt (Nat.sub_le _ _) t.isLt)).2.2 (ix2 (0 : Fin 1) j)).trans ?_
  refine (pay5_apply (iblk0 V c 0 t) (iblk0 V c 1 t) (iblk0 V c 2 t) (iblk0 V c 3 t) (iblk0 V c 4 t)
    (View.ld (outsAt0 V c (t.val - 1) (Nat.lt_of_le_of_lt (Nat.sub_le _ _) t.isLt)).2.1 R0) j).trans ?_
  exact congrArg₂ (· + ·) rfl (pay2_sum V c t j)

/-- The square-sum buffer, first step. -/
theorem step7_A (t : Fin cfg0.N) (h0 : t.val % 10 = 0) (j : Fin 128) :
    (outsAt0 V c t.val t.isLt).2.2 (R0.emb (ix2 (0 : Fin 1) j)) = blockSum (fun n => H V c n j * H V c n j) t.val := by
  rw [outsAt0_A V c t h0]
  dsimp only
  refine (out7_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t) (ix2 (0 : Fin 1) j)).trans ?_
  refine (pay17_apply (iblk0 V c 0 t) (iblk0 V c 1 t) (iblk0 V c 2 t) (iblk0 V c 3 t) (iblk0 V c 4 t) (View.ld (k0_pay4 (F := Ideal)) R0) j).trans ?_
  refine (congrArg₂ (· + ·) (zero_row7 j)
    (pay2_sumsq V c t j)).trans ?_
  exact zero_add _

/-- The square-sum buffer, a later step. -/
theorem step7_B (t : Fin cfg0.N) (h0 : ¬t.val % 10 = 0) (j : Fin 128) :
    (outsAt0 V c t.val t.isLt).2.2 (R0.emb (ix2 (0 : Fin 1) j))
      = (outsAt0 V c (t.val - 1) (Nat.lt_of_le_of_lt (Nat.sub_le _ _) t.isLt)).2.2 (R0.emb (ix2 (0 : Fin 1) j))
        + blockSum (fun n => H V c n j * H V c n j) t.val := by
  rw [outsAt0_B V c t h0]
  dsimp only
  refine (out7_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t)
    (outsAt0 V c (t.val - 1) (Nat.lt_of_le_of_lt (Nat.sub_le _ _) t.isLt)).2.1
    (outsAt0 V c (t.val - 1) (Nat.lt_of_le_of_lt (Nat.sub_le _ _) t.isLt)).2.2 (ix2 (0 : Fin 1) j)).trans ?_
  refine (pay17_apply (iblk0 V c 0 t) (iblk0 V c 1 t) (iblk0 V c 2 t) (iblk0 V c 3 t) (iblk0 V c 4 t)
    (View.ld (outsAt0 V c (t.val - 1) (Nat.lt_of_le_of_lt (Nat.sub_le _ _) t.isLt)).2.2 R0) j).trans ?_
  exact congrArg₂ (· + ·) rfl (pay2_sumsq V c t j)

/-- A running sum that restarts at every multiple of ten: from the two step laws, by induction on the point. -/
theorem running (g : ℕ → EReal) (a : (n : ℕ) → n < 20 → EReal)
    (hA : ∀ n (h : n < 20), n % 10 = 0 → a n h = g n)
    (hB : ∀ n (h : n + 1 < 20), ¬(n + 1) % 10 = 0 → a (n + 1) h = a n (Nat.lt_of_succ_lt h) + g (n + 1)) :
    ∀ n (h : n < 20), a n h = ∑ s ∈ Finset.range (n % 10 + 1), g (10 * (n / 10) + s)
  | 0, h => by rw [hA 0 h rfl]; simp
  | n + 1, h => by
    by_cases h0 : (n + 1) % 10 = 0
    · rw [hA _ h h0, h0, Finset.sum_range_one]
      exact congrArg g (by omega)
    · rw [hB n h h0, running g a hA hB n (Nat.lt_of_succ_lt h)]
      have e1 : (n + 1) % 10 = n % 10 + 1 := by omega
      have e2 : (n + 1) / 10 = n / 10 := by omega
      rw [e1, e2, Finset.sum_range_succ _ (n % 10 + 1)]
      exact congrArg₂ (· + ·) rfl (congrArg g (by omega))

/-- Row 0 of the column-sum buffer after point `n`. -/
theorem acc6 (n : ℕ) (hn : n < cfg0.N) (j : Fin 128) :
    (outsAt0 V c n hn).2.1 (R0.emb (ix2 (0 : Fin 1) j))
      = ∑ s ∈ Finset.range (n % 10 + 1), blockSum (fun m => H V c m j) (10 * (n / 10) + s) := by
  have hN : cfg0.N = 20 := N_0
  exact running (fun p => blockSum (fun m => H V c m j) p)
    (fun n h => (outsAt0 V c n (lt_of_lt_of_eq h hN.symm)).2.1 (R0.emb (ix2 (0 : Fin 1) j)))
    (fun n h h0 => step6_A V c ⟨n, lt_of_lt_of_eq h hN.symm⟩ h0 j)
    (fun n h h0 => step6_B V c ⟨n + 1, lt_of_lt_of_eq h hN.symm⟩ h0 j)
    n (lt_of_lt_of_eq hn hN)

/-- Row 0 of the square-sum buffer after point `n`. -/
theorem acc7 (n : ℕ) (hn : n < cfg0.N) (j : Fin 128) :
    (outsAt0 V c n hn).2.2 (R0.emb (ix2 (0 : Fin 1) j))
      = ∑ s ∈ Finset.range (n % 10 + 1), blockSum (fun m => H V c m j * H V c m j) (10 * (n / 10) + s) := by
  have hN : cfg0.N = 20 := N_0
  exact running (fun p => blockSum (fun m => H V c m j * H V c m j) p)
    (fun n h => (outsAt0 V c n (lt_of_lt_of_eq h hN.symm)).2.2 (R0.emb (ix2 (0 : Fin 1) j)))
    (fun n h h0 => step7_A V c ⟨n, lt_of_lt_of_eq h hN.symm⟩ h0 j)
    (fun n h h0 => step7_B V c ⟨n + 1, lt_of_lt_of_eq h hN.symm⟩ h0 j)
    n (lt_of_lt_of_eq hn hN)

end Cert.KernelIdeal.ConvOne

end
-- ==== Proof.ConvOneStats.lean ====
/-
  The two statistics arrays as the kernel leaves them.  Each is 16 × 128: rows 0 … 7 are core 0's buffer, written back
  after its last step (point 9), rows 8 … 15 core 1's (point 19); the two write-backs do not meet.  Row 0 holds the
  column sums of H (of H²) over the first 50000 nodes, row 8 over the last 50000.
-/
import proofs.«136065_j25357486915627_2_alg».proof.Proof.ConvOneAccum
import Idealize.ShloMosaic.Lib.Pipeline.Value

noncomputable section

open Idealize.ShloMosaic Idealize.ShloMosaic.TcCoe Idealize.SL.Sem
open Idealize.ShloMosaic.Pipeline (Dat)

namespace Cert.KernelIdeal.ConvOne

open Cert.KernelIdeal Cert.KernelIdeal.Gen

open Idealize.ShloMosaic.ValueIdx

variable (V : (c : Dev nD) → (b : Ref sig .tc) → Buf (Elt Ideal) ((c : Thread nD τ).loc b)) (c : Dev nD)

/-- Where window 6's block sits: block row = the core. -/
theorem idx6 : ∀ t : Fin cfg0.N, win0_6.index t (0 : Fin 2) = t.val / 10 ∧ win0_6.index t (1 : Fin 2) = 0 :=
  (by decide +kernel : ∀ t : Fin grid0.N, _)

/-- An index of the 16 × 128 array is in point `t`'s block iff each coordinate is in the block's range. -/
theorem mem_blk6 (t : Fin cfg0.N) (i : S16x128.Idx) :
    i ∈ ((cfg0.win 6).blk t).view.set ↔ ∀ a : Fin 2, win0_6.index t a * S8x128.size a ≤ (i a).val ∧ (i a).val < win0_6.index t a * S8x128.size a + S8x128.size a := by
  show i ∈ ((View.whole main_v28_1).slice (win0_6.rect t)).set ↔ _
  rw [View.set_slice_whole, Rect.mem_set_unit]
  exact Iff.rfl

/-- The two write-backs (after the last step of each core) go to different blocks. -/
theorem disj6 (t t' : Fin cfg0.N) (hf : (cfg0.win 6).flush t = true) (hf' : (cfg0.win 6).flush t' = true) (hne : t ≠ t') :
    Disjoint ((cfg0.win 6).blk t).view.set ((cfg0.win 6).blk t').view.set := by
  have hN : cfg0.N = 20 := N_0
  have h9 := (flush0_6 t).mp hf
  have h9' := (flush0_6 t').mp hf'
  have hlt := t.isLt
  have hlt' := t'.isLt
  have hv : t.val ≠ t'.val := fun e => hne (Fin.ext e)
  obtain ⟨e0, -⟩ := idx6 t
  obtain ⟨e0', -⟩ := idx6 t'
  rw [Finset.disjoint_left]
  intro i hi hi'
  rw [mem_blk6] at hi hi'
  have a0 : win0_6.index t (0 : Fin 2) * 8 ≤ (i 0).val ∧ (i 0).val < win0_6.index t (0 : Fin 2) * 8 + 8 := hi 0
  have a0' : win0_6.index t' (0 : Fin 2) * 8 ≤ (i 0).val ∧ (i 0).val < win0_6.index t' (0 : Fin 2) * 8 + 8 := hi' 0
  rw [e0] at a0
  rw [e0'] at a0'
  omega

/-- Row `8 q` of the array after the run: what core `q`'s last step left in row 0 of its buffer. -/
theorem stat6 (q : Fin 2) (j : Fin 128) :
    (dat0 V c).arrAt 6 cfg0.N (ix2 (⟨8 * q.val, by have := q.isLt; omega⟩ : Fin 16) j)
      = ∑ s ∈ Finset.range 10, blockSum (fun m => H V c m j) (10 * q.val + s) := by
  have hN : cfg0.N = 20 := N_0
  have hq := q.isLt
  have ht : 10 * q.val + 9 < cfg0.N := by rw [hN]; omega
  have hf : (cfg0.win 6).flush ⟨10 * q.val + 9, ht⟩ = true := (flush0_6 _).mpr (by show (10 * q.val + 9) % 10 = 9; omega)
  obtain ⟨e0, e1⟩ := idx6 ⟨10 * q.val + 9, ht⟩
  have h := (dat0 V c).arrAt_emb_eq_flushed 6 (disj6) ⟨10 * q.val + 9, ht⟩ hf (R0.emb (ix2 (0 : Fin 1) j))
  have hidx : ((cfg0.win 6).blk ⟨10 * q.val + 9, ht⟩).view.emb (R0.emb (ix2 (0 : Fin 1) j))
      = ix2 (⟨8 * q.val, by omega⟩ : Fin 16) j := by
    funext a; apply Fin.ext
    match a with
    | ⟨0, _⟩ =>
      show win0_6.index ⟨10 * q.val + 9, ht⟩ (0 : Fin 2) * 8 + 1 * (0 + 1 * 0) = 8 * q.val
      rw [e0]; dsimp only; omega
    | ⟨1, _⟩ =>
      show win0_6.index ⟨10 * q.val + 9, ht⟩ (1 : Fin 2) * 128 + 1 * (0 + 1 * j.val) = j.val
      rw [e1]; omega
  refine (congrArg _ hidx.symm).trans (h.trans ?_)
  show (cfg0.win 6).cut (grid0.coords ⟨10 * q.val + 9, ht⟩) ((dat0 V c).after 6 ⟨10 * q.val + 9, ht⟩) (R0.emb (ix2 (0 : Fin 1) j)) = _
  rw [after0_6]
  refine (acc6 V c (10 * q.val + 9) ht j).trans ?_
  have e1' : (10 * q.val + 9) % 10 + 1 = 10 := by omega
  have e2' : (10 * q.val + 9) / 10 = q.val := by omega
  rw [e1', e2']

/-- Where window 7's block sits: block row = the core. -/
theorem idx7 : ∀ t : Fin cfg0.N, win0_7.index t (0 : Fin 2) = t.val / 10 ∧ win0_7.index t (1 : Fin 2) = 0 :=
  (by decide +kernel : ∀ t : Fin grid0.N, _)

/-- An index of the 16 × 128 array is in point `t`'s block iff each coordinate is in the block's range. -/
theorem mem_blk7 (t : Fin cfg0.N) (i : S16x128.Idx) :
    i ∈ ((cfg0.win 7).blk t).view.set ↔ ∀ a : Fin 2, win0_7.index t a * S8x128.size a ≤ (i a).val ∧ (i a).val < win0_7.index t a * S8x128.size a + S8x128.size a := by
  show i ∈ ((View.whole main_v28_2).slice (win0_7.rect t)).set ↔ _
  rw [View.set_slice_whole, Rect.mem_set_unit]
  exact Iff.rfl

/-- The two write-backs (after the last step of each core) go to different blocks. -/
theorem disj7 (t t' : Fin cfg0.N) (hf : (cfg0.win 7).flush t = true) (hf' : (cfg0.win 7).flush t' = true) (hne : t ≠ t') :
    Disjoint ((cfg0.win 7).blk t).view.set ((cfg0.win 7).blk t').view.set := by
  have hN : cfg0.N = 20 := N_0
  have h9 := (flush0_7 t).mp hf
  have h9' := (flush0_7 t').mp hf'
  have hlt := t.isLt
  have hlt' := t'.isLt
  have hv : t.val ≠ t'.val := fun e => hne (Fin.ext e)
  obtain ⟨e0, -⟩ := idx7 t
  obtain ⟨e0', -⟩ := idx7 t'
  rw [Finset.disjoint_left]
  intro i hi hi'
  rw [mem_blk7] at hi hi'
  have a0 : win0_7.index t (0 : Fin 2) * 8 ≤ (i 0).val ∧ (i 0).val < win0_7.index t (0 : Fin 2) * 8 + 8 := hi 0
  have a0' : win0_7.index t' (0 : Fin 2) * 8 ≤ (i 0).val ∧ (i 0).val < win0_7.index t' (0 : Fin 2) * 8 + 8 := hi' 0
  rw [e0] at a0
  rw [e0'] at a0'
  omega

/-- Row `8 q` of the array after the run: what core `q`'s last step left in row 0 of its buffer. -/
theorem stat7 (q : Fin 2) (j : Fin 128) :
    (dat0 V c).arrAt 7 cfg0.N (ix2 (⟨8 * q.val, by have := q.isLt; omega⟩ : Fin 16) j)
      = ∑ s ∈ Finset.range 10, blockSum (fun m => H V c m j * H V c m j) (10 * q.val + s) := by
  have hN : cfg0.N = 20 := N_0
  have hq := q.isLt
  have ht : 10 * q.val + 9 < cfg0.N := by rw [hN]; omega
  have hf : (cfg0.win 7).flush ⟨10 * q.val + 9, ht⟩ = true := (flush0_7 _).mpr (by show (10 * q.val + 9) % 10 = 9; omega)
  obtain ⟨e0, e1⟩ := idx7 ⟨10 * q.val + 9, ht⟩
  have h := (dat0 V c).arrAt_emb_eq_flushed 7 (disj7) ⟨10 * q.val + 9, ht⟩ hf (R0.emb (ix2 (0 : Fin 1) j))
  have hidx : ((cfg0.win 7).blk ⟨10 * q.val + 9, ht⟩).view.emb (R0.emb (ix2 (0 : Fin 1) j))
      = ix2 (⟨8 * q.val, by omega⟩ : Fin 16) j := by
    funext a; apply Fin.ext
    match a with
    | ⟨0, _⟩ =>
      show win0_7.index ⟨10 * q.val + 9, ht⟩ (0 : Fin 2) * 8 + 1 * (0 + 1 * 0) = 8 * q.val
      rw [e0]; dsimp only; omega
    | ⟨1, _⟩ =>
      show win0_7.index ⟨10 * q.val + 9, ht⟩ (1 : Fin 2) * 128 + 1 * (0 + 1 * j.val) = j.val
      rw [e1]; omega
  refine (congrArg _ hidx.symm).trans (h.trans ?_)
  show (cfg0.win 7).cut (grid0.coords ⟨10 * q.val + 9, ht⟩) ((dat0 V c).after 7 ⟨10 * q.val + 9, ht⟩) (R0.emb (ix2 (0 : Fin 1) j)) = _
  rw [after0_7]
  refine (acc7 V c (10 * q.val + 9) ht j).trans ?_
  have e1' : (10 * q.val + 9) % 10 + 1 = 10 := by omega
  have e2' : (10 * q.val + 9) / 10 = q.val := by omega
  rw [e1', e2']

/-- Row 0 of the column-sum array: the sum of `H`'s column over the nodes below 50000. -/
theorem sum_lo (j : Fin 128) :
    (dat0 V c).arrAt 6 cfg0.N (ix2 (0 : Fin 16) j)
      = ∑ n ∈ Finset.univ.filter (fun n : Fin 100000 => n.val < 50000), H V c n j :=
  (stat6 V c 0 j).trans (blocks_lo (fun m => H V c m j))

/-- Row 8: over the nodes from 50000 on. -/
theorem sum_hi (j : Fin 128) :
    (dat0 V c).arrAt 6 cfg0.N (ix2 (8 : Fin 16) j)
      = ∑ n ∈ Finset.univ.filter (fun n : Fin 100000 => 50000 ≤ n.val), H V c n j :=
  (stat6 V c 1 j).trans (blocks_hi (fun m => H V c m j))

/-- Row 0 of the square-sum array. -/
theorem sumsq_lo (j : Fin 128) :
    (dat0 V c).arrAt 7 cfg0.N (ix2 (0 : Fin 16) j)
      = ∑ n ∈ Finset.univ.filter (fun n : Fin 100000 => n.val < 50000), H V c n j * H V c n j :=
  (stat7 V c 0 j).trans (blocks_lo (fun m => H V c m j * H V c m j))

/-- Row 8 of the square-sum array. -/
theorem sumsq_hi (j : Fin 128) :
    (dat0 V c).arrAt 7 cfg0.N (ix2 (8 : Fin 16) j)
      = ∑ n ∈ Finset.univ.filter (fun n : Fin 100000 => 50000 ≤ n.val), H V c n j * H V c n j :=
  (stat7 V c 1 j).trans (blocks_hi (fun m => H V c m j * H V c m j))

end Cert.KernelIdeal.ConvOne

end
-- ==== Proof.ConvOneTotals.lean ====
/-
  The two halves put together: row 0 plus row 8 of each statistics array is the sum over all 100000 nodes.
-/
import proofs.«136065_j25357486915627_2_alg».proof.Proof.ConvOneStats

noncomputable section

open Idealize.ShloMosaic Idealize.ShloMosaic.TcCoe Idealize.SL.Sem
open Idealize.ShloMosaic.Pipeline (Dat)

namespace Cert.KernelIdeal.ConvOne

open Cert.KernelIdeal Cert.KernelIdeal.Gen

open Idealize.ShloMosaic.ValueIdx

variable (V : (c : Dev nD) → (b : Ref sig .tc) → Buf (Elt Ideal) ((c : Thread nD τ).loc b)) (c : Dev nD)

/-- A sum over the nodes below 50000 plus the sum over the others is the sum over all nodes. -/
theorem halves (g : Fin 100000 → EReal) :
    (∑ n ∈ Finset.univ.filter (fun n : Fin 100000 => n.val < 50000), g n)
      + (∑ n ∈ Finset.univ.filter (fun n : Fin 100000 => 50000 ≤ n.val), g n) = ∑ n : Fin 100000, g n := by
  rw [← Finset.sum_filter_add_sum_filter_not (Finset.univ : Finset (Fin 100000)) (fun n => n.val < 50000) g]
  refine congrArg₂ (· + ·) rfl (Finset.sum_congr (Finset.filter_congr fun n _ => ?_) fun _ _ => rfl)
  exact (not_lt).symm

/-- The column sums of `H` over all nodes. -/
theorem sum_all (j : Fin 128) :
    (show EReal from (dat0 V c).arrAt 6 cfg0.N (ix2 (0 : Fin 16) j)) + (show EReal from (dat0 V c).arrAt 6 cfg0.N (ix2 (8 : Fin 16) j))
      = ∑ n : Fin 100000, H V c n j :=
  (congrArg₂ (fun a b : EReal => a + b) (sum_lo V c j) (sum_hi V c j)).trans (halves (fun n => H V c n j))

/-- The column sums of `H²` over all nodes. -/
theorem sumsq_all (j : Fin 128) :
    (show EReal from (dat0 V c).arrAt 7 cfg0.N (ix2 (0 : Fin 16) j)) + (show EReal from (dat0 V c).arrAt 7 cfg0.N (ix2 (8 : Fin 16) j))
      = ∑ n : Fin 100000, H V c n j * H V c n j :=
  (congrArg₂ (fun a b : EReal => a + b) (sumsq_lo V c j) (sumsq_hi V c j)).trans (halves (fun n => H V c n j * H V c n j))

end Cert.KernelIdeal.ConvOne

end
-- ==== Proof.NormPoint.lean ====
/-
  The normalise–scale–shift–rectify body at one entry of a block of 10000 rows: what it stores at row r, column j is
  max (γ_j · (h_{r j} − μ_j) · rsqrt (v_j + ε) + β_j) 0, the statistics and the scale and shift read from rows [1,128].
-/
import proofs.«136065_j25357486915627_2_alg».proof.Proof.Gen.KernelIdeal.Skeleton
import proofs.«136065_j25357486915627_2_alg».proof.Proof.Spec
import proofs.«136065_j25357486915627_2_alg».proof.Proof.LibRowOps

noncomputable section

namespace Cert.KernelIdeal.Tail

open Idealize.ShloMosaic Idealize.ShloMosaic.ValueIdx

/-- The stored block of the normalisation body, entry by entry. -/
theorem norm_point (x0 : Vec Ideal S10000x128 .f32) (va ga mu be : Vec Ideal S1x128 .f32) (r : Fin 10000) (j : Fin 128) :
    Gen.k1_pay1 (F := Ideal) x0 va ga mu be (ix2 r j)
      = max (((ga (ix2 (0 : Fin 1) j) * (x0 (ix2 r j) - mu (ix2 (0 : Fin 1) j)))
            * Ideal.rsqrt (va (ix2 (0 : Fin 1) j) + GraphConv.eps)) + be (ix2 (0 : Fin 1) j)) GraphConv.zero := by
  unfold Gen.k1_pay1
  simp only [shapeCast_self]
  rw [truncf_apply, maximumf_apply, addf_apply, mulf_apply, mulf_apply, subf_apply, broadcast_apply]
  rw [Cert.KernelBody.broadcastTo_row_apply, Cert.KernelBody.broadcastTo_row_apply,
    Cert.KernelBody.broadcastTo_row_apply, Cert.KernelBody.broadcastTo_row_apply]
  rfl

end Cert.KernelIdeal.Tail

end
-- ==== Proof.NormBlocks.lean ====
/-
  The normalisation's windows read off their arrays. The grid has ten points; at point t the input and output windows
  are rows 10000 t … 10000 t + 9999 of their [100000,128] arrays, and each of the four [1,128] rows (mean, variance,
  scale, shift) is its whole array. So entry (r, j) of the input block at t is entry (10000 t + r, j) of the array, and
  entry (0, j) of a row block is entry (0, j) of the row.
-/
import proofs.«136065_j25357486915627_2_alg».proof.Proof.Gen.KernelIdeal.Frame
import proofs.«136065_j25357486915627_2_alg».proof.Proof.NormPoint
import Idealize.ShloMosaic.Lib.Pipeline.Value

noncomputable section

namespace Cert.KernelIdeal.Tail

open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem zeros2 : (![0, 0] : Fin 2 → Nat) = fun _ => 0 := funext fun a => by fin_cases a <;> rfl

/-- Where each window of the normalisation sits at grid point t: the row windows at block row t, the [1,128] rows whole. -/
theorem norm_idx : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Row r of block t of the input is row 10000 t + r of the array. -/
theorem norm_rows_read (c : Dev nD) (t : Fin cfg1.N) (r : Fin 10000) (j : Fin 128) (n : Fin 100000)
    (hn : n.val = 10000 * t.val + r.val) :
    (Gen.iblk1 V c 0 t : Vec Ideal S10000x128 .f32) (ix2 r j)
      = (V c (Pipeline.arrRef spec1 0) : S100000x128.Idx → EReal) (ix2 n j) := by
  obtain ⟨e0, e1, -⟩ := norm_idx t
  unfold Gen.iblk1
  rw [View.read_apply]
  show (V c (Pipeline.arrRef spec1 0) : S100000x128.Idx → EReal) _ = _
  refine congrArg _ (funext fun a => Fin.ext ?_)
  match a with
  | ⟨0, _⟩ => show win1_0.index t (0 : Fin 2) * 10000 + 1 * r.val = n.val; rw [e0, hn]; omega
  | ⟨1, _⟩ => show win1_0.index t (1 : Fin 2) * 128 + 1 * j.val = j.val; rw [e1]; omega

/-- A [1,128] row window is its whole array at every grid point: the statistics' mean row. -/
theorem norm_row1_read (c : Dev nD) (t : Fin cfg1.N) (j : Fin 128) :
    (Gen.iblk1 V c 1 t : Vec Ideal S1x128 .f32) (ix2 (0 : Fin 1) j)
      = (V c (Pipeline.arrRef spec1 1) : S1x128.Idx → EReal) (ix2 (0 : Fin 1) j) := by
  obtain ⟨-, -, -, -, e0, e1, -⟩ := norm_idx t
  unfold Gen.iblk1
  rw [View.read_apply]
  show (V c (Pipeline.arrRef spec1 1) : S1x128.Idx → EReal) _ = _
  refine congrArg _ (funext fun a => Fin.ext ?_)
  match a with
  | ⟨0, _⟩ => show win1_1.index t (0 : Fin 2) * 1 + 1 * 0 = 0; rw [e0]
  | ⟨1, _⟩ => show win1_1.index t (1 : Fin 2) * 128 + 1 * j.val = j.val; rw [e1]; omega

/-- The variance row. -/
theorem norm_row2_read (c : Dev nD) (t : Fin cfg1.N) (j : Fin 128) :
    (Gen.iblk1 V c 2 t : Vec Ideal S1x128 .f32) (ix2 (0 : Fin 1) j)
      = (V c (Pipeline.arrRef spec1 2) : S1x128.Idx → EReal) (ix2 (0 : Fin 1) j) := by
  obtain ⟨-, -, -, -, -, -, e0, e1, -⟩ := norm_idx t
  unfold Gen.iblk1
  rw [View.read_apply]
  show (V c (Pipeline.arrRef spec1 2) : S1x128.Idx → EReal) _ = _
  refine congrArg _ (funext fun a => Fin.ext ?_)
  match a with
  | ⟨0, _⟩ => show win1_2.index t (0 : Fin 2) * 1 + 1 * 0 = 0; rw [e0]
  | ⟨1, _⟩ => show win1_2.index t (1 : Fin 2) * 128 + 1 * j.val = j.val; rw [e1]; omega

/-- The scale row. -/
theorem norm_row3_read (c : Dev nD) (t : Fin cfg1.N) (j : Fin 128) :
    (Gen.iblk1 V c 3 t : Vec Ideal S1x128 .f32) (ix2 (0 : Fin 1) j)
      = (V c (Pipeline.arrRef spec1 3) : S1x128.Idx → EReal) (ix2 (0 : Fin 1) j) := by
  obtain ⟨-, -, -, -, -, -, -, -, e0, e1, -⟩ := norm_idx t
  unfold Gen.iblk1
  rw [View.read_apply]
  show (V c (Pipeline.arrRef spec1 3) : S1x128.Idx → EReal) _ = _
  refine congrArg _ (funext fun a => Fin.ext ?_)
  match a with
  | ⟨0, _⟩ => show win1_3.index t (0 : Fin 2) * 1 + 1 * 0 = 0; rw [e0]
  | ⟨1, _⟩ => show win1_3.index t (1 : Fin 2) * 128 + 1 * j.val = j.val; rw [e1]; omega

/-- The shift row. -/
theorem norm_row4_read (c : Dev nD) (t : Fin cfg1.N) (j : Fin 128) :
    (Gen.iblk1 V c 4 t : Vec Ideal S1x128 .f32) (ix2 (0 : Fin 1) j)
      = (V c (Pipeline.arrRef spec1 4) : S1x128.Idx → EReal) (ix2 (0 : Fin 1) j) := by
  obtain ⟨-, -, -, -, -, -, -, -, -, -, e0, e1⟩ := norm_idx t
  unfold Gen.iblk1
  rw [View.read_apply]
  show (V c (Pipeline.arrRef spec1 4) : S1x128.Idx → EReal) _ = _
  refine congrArg _ (funext fun a => Fin.ext ?_)
  match a with
  | ⟨0, _⟩ => show win1_4.index t (0 : Fin 2) * 1 + 1 * 0 = 0; rw [e0]
  | ⟨1, _⟩ => show win1_4.index t (1 : Fin 2) * 128 + 1 * j.val = j.val; rw [e1]; omega

end Cert.KernelIdeal.Tail

end
-- ==== Proof.Norm.lean ====
/-
  The normalised, rectified array. Every grid point writes back block t of one function of the region's arrays,
  max (γ_j (h_{n j} − μ_j) rsqrt (v_j + ε) + β_j) 0 at (n, j); the ten blocks tile the 100000 rows; so the array ends
  holding that function.
-/
import proofs.«136065_j25357486915627_2_alg».proof.Proof.NormBlocks

noncomputable section

namespace Cert.KernelIdeal.Tail

open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The array the normalisation leaves, as a function of the arrays the region finds. -/
def normArr (c : Dev nD) : S100000x128.Idx → EReal := fun i =>
  GraphConv.actWith
    (fun j => (V c (Pipeline.arrRef spec1 1) : S1x128.Idx → EReal) (ix2 (0 : Fin 1) j))
    (fun j => (V c (Pipeline.arrRef spec1 2) : S1x128.Idx → EReal) (ix2 (0 : Fin 1) j))
    (V c (Pipeline.arrRef spec1 0) : S100000x128.Idx → EReal)
    (fun j => (V c (Pipeline.arrRef spec1 3) : S1x128.Idx → EReal) (ix2 (0 : Fin 1) j))
    (fun j => (V c (Pipeline.arrRef spec1 4) : S1x128.Idx → EReal) (ix2 (0 : Fin 1) j))
    ⟨(i 0).val, idx2_lt0 i⟩ ⟨(i 1).val, idx2_lt1 i⟩

/-- `normArr` at an index whose coordinates are known. -/
theorem normArr_apply (c : Dev nD) (i : S100000x128.Idx) (n : Fin 100000) (j : Fin 128)
    (h0 : (i 0).val = n.val) (h1 : (i 1).val = j.val) :
    normArr V c i = GraphConv.actWith
      (fun j => (V c (Pipeline.arrRef spec1 1) : S1x128.Idx → EReal) (ix2 (0 : Fin 1) j))
      (fun j => (V c (Pipeline.arrRef spec1 2) : S1x128.Idx → EReal) (ix2 (0 : Fin 1) j))
      (V c (Pipeline.arrRef spec1 0) : S100000x128.Idx → EReal)
      (fun j => (V c (Pipeline.arrRef spec1 3) : S1x128.Idx → EReal) (ix2 (0 : Fin 1) j))
      (fun j => (V c (Pipeline.arrRef spec1 4) : S1x128.Idx → EReal) (ix2 (0 : Fin 1) j)) n j := by
  unfold normArr
  have e0 : (⟨(i 0).val, idx2_lt0 i⟩ : Fin 100000) = n := Fin.ext h0
  have e1 : (⟨(i 1).val, idx2_lt1 i⟩ : Fin 128) = j := Fin.ext h1
  rw [e0, e1]

/-- What grid point t writes back is block t of `normArr`. -/
theorem norm_flushed (c : Dev nD) (t : Fin cfg1.N) :
    (Gen.dat1 V c).flushed 5 t = ((cfg1.win 5).blk t).view.read (Elt Ideal) (normArr V c) := by
  show (cfg1.win 5).cut (grid1.coords t) ((Gen.dat1 V c).after 5 t) = _
  rw [Gen.after1_5]
  unfold Gen.out1_5
  rw [View.canon_unit_zero zeros2]
  simp only [View.ld_unit_zero (S := S10000x128) zeros2, View.ld_unit_zero (S := S1x128) zeros2]
  funext y
  obtain ⟨r, j, rfl⟩ : ∃ (r : Fin 10000) (j : Fin 128), y = ix2 r j := ⟨y 0, y 1, eq_ix2 y⟩
  obtain ⟨-, -, e0, e1, -⟩ := norm_idx t
  have hN : grid1.N = 10 := Gen.N_1
  have ht : t.val < 10 := hN ▸ t.isLt
  rw [View.read_apply]
  show Gen.k1_pay1 (F := Ideal) _ _ _ _ _ (ix2 r j) = normArr V c (((cfg1.win 5).blk t).view.emb (ix2 r j))
  rw [norm_point, normArr_apply V c _ ⟨10000 * t.val + r.val, by have := r.isLt; omega⟩ j
    (by show win1_5.index t (0 : Fin 2) * 10000 + 1 * r.val = 10000 * t.val + r.val; rw [e0]; omega)
    (by show win1_5.index t (1 : Fin 2) * 128 + 1 * j.val = j.val; rw [e1]; omega)]
  rw [norm_rows_read V c t r j ⟨10000 * t.val + r.val, by have := r.isLt; omega⟩ rfl,
    norm_row1_read, norm_row2_read, norm_row3_read, norm_row4_read]
  rfl

/-- An index of the array is in grid point t's block iff each coordinate is in the block's range on its axis. -/
theorem norm_mem_blk (t : Fin cfg1.N) (i : S100000x128.Idx) :
    i ∈ ((cfg1.win 5).blk t).view.set ↔ ∀ a : Fin 2, win1_5.index t a * S10000x128.size a ≤ (i a).val
      ∧ (i a).val < win1_5.index t a * S10000x128.size a + S10000x128.size a := by
  show i ∈ ((View.whole main_v45).slice (win1_5.rect t)).set ↔ _
  rw [View.set_slice_whole, Rect.mem_set_unit]
  exact Iff.rfl

/-- Row n lies in the block of grid point n / 10000. -/
theorem norm_cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : grid1.N = 10 := Gen.N_1
  have hlt : (i 0).val / 10000 < grid1.N := by rw [hN]; omega
  refine ⟨⟨(i 0).val / 10000, hlt⟩, Gen.flush1_5 _, ?_⟩
  rw [norm_mem_blk]
  obtain ⟨-, -, e0, e1, -⟩ := norm_idx ⟨(i 0).val / 10000, hlt⟩
  intro a
  match a with
  | ⟨0, _⟩ =>
    show win1_5.index ⟨(i 0).val / 10000, hlt⟩ (0 : Fin 2) * 10000 ≤ (i 0).val
      ∧ (i 0).val < win1_5.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win1_5.index ⟨(i 0).val / 10000, hlt⟩ (1 : Fin 2) * 128 ≤ (i 1).val
      ∧ (i 1).val < win1_5.index ⟨(i 0).val / 10000, hlt⟩ (1 : Fin 2) * 128 + 128
    rw [e1]; omega

/-- The array after the ten write-backs. -/
theorem norm_arr (c : Dev nD) : (Gen.dat1 V c).arrAt 5 cfg1.N = normArr V c :=
  (Gen.dat1 V c).arrAt_eq_of_cover 5 (normArr V c) (fun t _ => norm_flushed V c t) norm_cover

/-- Entry (n, j) of the array the normalisation leaves. -/
theorem norm_apply (c : Dev nD) (n : Fin 100000) (j : Fin 128) :
    (Gen.dat1 V c).arrAt 5 cfg1.N (ix2 n j) = GraphConv.actWith
      (fun j => (V c (Pipeline.arrRef spec1 1) : S1x128.Idx → EReal) (ix2 (0 : Fin 1) j))
      (fun j => (V c (Pipeline.arrRef spec1 2) : S1x128.Idx → EReal) (ix2 (0 : Fin 1) j))
      (V c (Pipeline.arrRef spec1 0) : S100000x128.Idx → EReal)
      (fun j => (V c (Pipeline.arrRef spec1 3) : S1x128.Idx → EReal) (ix2 (0 : Fin 1) j))
      (fun j => (V c (Pipeline.arrRef spec1 4) : S1x128.Idx → EReal) (ix2 (0 : Fin 1) j)) n j := by
  rw [norm_arr]
  exact normArr_apply V c (ix2 n j) n j rfl rfl

end Cert.KernelIdeal.Tail

end
-- ==== Proof.Entry1.lean ====
/-
  The second kernel region's inputs and output in terms of the launch memory.  Between the first region and the second
  the host forms, from the two tables of half-sums the first region leaves, the column mean and the column variance
  (mean of squares minus squared mean, floored at zero), and lays the scale and the shift out as rows.  Rows 0 and 8
  of each table add up to the sum over all nodes, so the mean is the specification's; the variance is the
  specification's mean squared deviation when the hidden entries are real.  The region's normalised, rectified array
  is then the specification's activation of the first convolution.
-/
import proofs.«136065_j25357486915627_2_alg».proof.Proof.Entry0
import proofs.«136065_j25357486915627_2_alg».proof.Proof.Host1
import proofs.«136065_j25357486915627_2_alg».proof.Proof.Keep
import proofs.«136065_j25357486915627_2_alg».proof.Proof.Algebra
import proofs.«136065_j25357486915627_2_alg».proof.Proof.RealVal
import proofs.«136065_j25357486915627_2_alg».proof.Proof.ConvOneTotals
import proofs.«136065_j25357486915627_2_alg».proof.Proof.Norm

set_option maxRecDepth 100000
set_option pp.deepTerms false
set_option pp.maxSteps 5000

noncomputable section

open scoped BigOperators

namespace Cert.KernelIdeal.Bridge

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

/-- The table of column sums at the first region's exit is what the region's write-backs leave. -/
theorem sums_exit : Stretch1.sums (W2 m ρ c) = (dat0 (V1 m ρ) c).arrAt 6 cfg0.N := W2_arr m ρ c 6

/-- The table of column sums of squares likewise. -/
theorem sumsqs_exit : Stretch1.sumsqs (W2 m ρ c) = (dat0 (V1 m ρ) c).arrAt 7 cfg0.N := W2_arr m ρ c 7

/-- Rows 0 and 8 of the first table add up to the column sum of the first convolution over all nodes. -/
theorem stat_sum (j : Fin 128) :
    Stretch1.sums (W2 m ρ c) (ix2 (0 : Fin 16) j) + Stretch1.sums (W2 m ρ c) (ix2 (8 : Fin 16) j)
      = ∑ n : Fin 100000, hid m c (ix2 n j) :=
  (congrArg₂ (fun a b : EReal => a + b)
    ((congrFun (sums_exit m ρ c) (ix2 (0 : Fin 16) j)).trans (ConvOne.sum_lo (V1 m ρ) c j))
    ((congrFun (sums_exit m ρ c) (ix2 (8 : Fin 16) j)).trans (ConvOne.sum_hi (V1 m ρ) c j))).trans
    ((ConvOne.halves (fun n => ConvOne.H (V1 m ρ) c n j)).trans
      (Finset.sum_congr rfl fun n _ => H_eq m ρ c n j))

/-- Rows 0 and 8 of the second table add up to the column sum of its squares. -/
theorem stat_sumsq (j : Fin 128) :
    Stretch1.sumsqs (W2 m ρ c) (ix2 (0 : Fin 16) j) + Stretch1.sumsqs (W2 m ρ c) (ix2 (8 : Fin 16) j)
      = ∑ n : Fin 100000, hid m c (ix2 n j) * hid m c (ix2 n j) :=
  (congrArg₂ (fun a b : EReal => a + b)
    ((congrFun (sumsqs_exit m ρ c) (ix2 (0 : Fin 16) j)).trans (ConvOne.sumsq_lo (V1 m ρ) c j))
    ((congrFun (sumsqs_exit m ρ c) (ix2 (8 : Fin 16) j)).trans (ConvOne.sumsq_hi (V1 m ρ) c j))).trans
    ((ConvOne.halves (fun n => ConvOne.H (V1 m ρ) c n j * ConvOne.H (V1 m ρ) c n j)).trans
      (Finset.sum_congr rfl fun n _ => congrArg₂ (fun a b : EReal => a * b) (H_eq m ρ c n j) (H_eq m ρ c n j)))

/-- The second region finds the first convolution where the first region left it. -/
theorem in1_hidden : (V3 m ρ c (Pipeline.arrRef spec1 0) : S100000x128.Idx → EReal) = hid m c := by
  show StableHlo.after hostOps1 (W2 m ρ c) (Proc.devRef .tc main_v28_0) = _
  rw [Stretch1.hiddenKept]
  funext i
  obtain ⟨n, j, rfl⟩ : ∃ (n : Fin 100000) (j : Fin 128), i = ix2 n j := ⟨i 0, i 1, eq_ix2 i⟩
  have e : W2 m ρ c (Proc.devRef .tc main_v28_0) = (dat0 (V1 m ρ) c).arrAt 5 cfg0.N := W2_arr m ρ c 5
  exact (congrFun e (ix2 n j)).trans (out_hidden m ρ c n j)

/-- The row of column means it finds is the specification's. -/
theorem in1_mean (j : Fin 128) :
    (V3 m ρ c (Pipeline.arrRef spec1 1) : S1x128.Idx → EReal) (ix2 (0 : Fin 1) j) = GraphConv.mean (hid m c) j := by
  show StableHlo.after hostOps1 (W2 m ρ c) (Proc.devRef .tc main_v36) (ix2 (0 : Fin 1) j) = _
  refine (Stretch1.meanRow (W2 m ρ c) j).trans ?_
  refine (congrArg (fun t => Ideal.div t GraphConv.nodes) (stat_sum m ρ c j)).trans ?_
  exact GraphConv.mean_eq (hid m c) j

/-- The row of column variances it finds is the specification's, the hidden entries being real. -/
theorem in1_var (hreal : ∀ n j, GraphConv.IsReal (hid m c (ix2 n j))) (j : Fin 128) :
    (V3 m ρ c (Pipeline.arrRef spec1 2) : S1x128.Idx → EReal) (ix2 (0 : Fin 1) j) = GraphConv.var (hid m c) j := by
  show StableHlo.after hostOps1 (W2 m ρ c) (Proc.devRef .tc main_v42) (ix2 (0 : Fin 1) j) = _
  refine (Stretch1.varRow (W2 m ρ c) j).trans ?_
  rw [stat_sum m ρ c j, stat_sumsq m ρ c j]
  exact GraphConv.var_eq (hid m c) j (fun n => hreal n j)

/-- The scale row is the launched scale: nothing before the second region writes it. -/
theorem in1_scale (j : Fin 128) :
    (V3 m ρ c (Pipeline.arrRef spec1 3) : S1x128.Idx → EReal) (ix2 (0 : Fin 1) j) = gam m c j := by
  show StableHlo.after hostOps1 (W2 m ρ c) (Proc.devRef .tc main_v43) (ix2 (0 : Fin 1) j) = _
  refine (Stretch1.scaleRow (W2 m ρ c) j).trans ?_
  have e : W2 m ρ c (Proc.devRef .tc main_arg5) = m ((c : Thread nD τ).loc main_arg5) :=
    (W2_of_ne m ρ c main_arg5 (by decide)).trans ((Keep.hostOps0_keeps_main_arg5 (W0 m ρ c)).trans rfl)
  exact congrFun e (ix1 j)

/-- The shift row is the launched shift. -/
theorem in1_shift (j : Fin 128) :
    (V3 m ρ c (Pipeline.arrRef spec1 4) : S1x128.Idx → EReal) (ix2 (0 : Fin 1) j) = bet m c j := by
  show StableHlo.after hostOps1 (W2 m ρ c) (Proc.devRef .tc main_v44) (ix2 (0 : Fin 1) j) = _
  refine (Stretch1.shiftRow (W2 m ρ c) j).trans ?_
  have e : W2 m ρ c (Proc.devRef .tc main_arg6) = m ((c : Thread nD τ).loc main_arg6) :=
    (W2_of_ne m ρ c main_arg6 (by decide)).trans ((Keep.hostOps0_keeps_main_arg6 (W0 m ρ c)).trans rfl)
  exact congrFun e (ix1 j)

/-- The second region's output: the normalised, rectified first convolution. -/
theorem out_normed (hreal : ∀ n j, GraphConv.IsReal (hid m c (ix2 n j))) (n : Fin 100000) (j : Fin 128) :
    (dat1 (V3 m ρ) c).arrAt 5 cfg1.N (ix2 n j) = GraphConv.actArr (hid m c) (gam m c) (bet m c) (ix2 n j) := by
  refine (Tail.norm_apply (V3 m ρ) c n j).trans ?_
  have e1 : (fun j => (V3 m ρ c (Pipeline.arrRef spec1 1) : S1x128.Idx → EReal) (ix2 (0 : Fin 1) j))
      = GraphConv.mean (hid m c) := funext (in1_mean m ρ c)
  have e2 : (fun j => (V3 m ρ c (Pipeline.arrRef spec1 2) : S1x128.Idx → EReal) (ix2 (0 : Fin 1) j))
      = GraphConv.var (hid m c) := funext (in1_var m ρ c hreal)
  have e3 : (fun j => (V3 m ρ c (Pipeline.arrRef spec1 3) : S1x128.Idx → EReal) (ix2 (0 : Fin 1) j))
      = gam m c := funext (in1_scale m ρ c)
  have e4 : (fun j => (V3 m ρ c (Pipeline.arrRef spec1 4) : S1x128.Idx → EReal) (ix2 (0 : Fin 1) j))
      = bet m c := funext (in1_shift m ρ c)
  rw [e1, e2, in1_hidden m ρ c, e3, e4]
  rfl

end Cert.KernelIdeal.Bridge

end
-- ==== Proof.Entry2Walk.lean ====
/-
  Buffers that reach the last host stretch unchanged. The edge words split into source and target vectors and the
  reciprocal of the floored in-degree are computed before the first region; the second layer's weights and bias are
  arguments. Neither the first two regions nor the operations between them write any of these, so at the second
  region's exit each still holds what the first operations left, or what was launched.
-/
import proofs.«136065_j25357486915627_2_alg».proof.Proof.Entry0

set_option maxRecDepth 100000

noncomputable section

namespace Cert.KernelIdeal.Bridge

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

/-- The source words. -/
theorem walk_src : W4 m ρ c (Proc.devRef .tc main_v1) = StableHlo.after hostOps0 (W0 m ρ c) (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := Keep.hostOps1_keeps_main_v1 (W2 m ρ c)
    _ = W1 m ρ c (Proc.devRef .tc main_v1) := W2_of_ne m ρ c main_v1 (by decide)
    _ = StableHlo.after hostOps0 (W0 m ρ c) (Proc.devRef .tc main_v1) := rfl

/-- The target words. -/
theorem walk_dst : W4 m ρ c (Proc.devRef .tc main_v3) = StableHlo.after hostOps0 (W0 m ρ c) (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := Keep.hostOps1_keeps_main_v3 (W2 m ρ c)
    _ = W1 m ρ c (Proc.devRef .tc main_v3) := W2_of_ne m ρ c main_v3 (by decide)
    _ = StableHlo.after hostOps0 (W0 m ρ c) (Proc.devRef .tc main_v3) := rfl

/-- The reciprocal in-degrees. -/
theorem walk_recip : W4 m ρ c (Proc.devRef .tc main_v23) = StableHlo.after hostOps0 (W0 m ρ c) (Proc.devRef .tc main_v23) :=
  calc W4 m ρ c (Proc.devRef .tc main_v23)
    _ = W3 m ρ c (Proc.devRef .tc main_v23) := W4_of_ne m ρ c main_v23 (by decide)
    _ = W2 m ρ c (Proc.devRef .tc main_v23) := Keep.hostOps1_keeps_main_v23 (W2 m ρ c)
    _ = W1 m ρ c (Proc.devRef .tc main_v23) := W2_of_ne m ρ c main_v23 (by decide)
    _ = StableHlo.after hostOps0 (W0 m ρ c) (Proc.devRef .tc main_v23) := rfl

/-- The second layer's left weights. -/
theorem walk_w2l : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := Keep.hostOps1_keeps_main_arg7 (W2 m ρ c)
    _ = W1 m ρ c (Proc.devRef .tc main_arg7) := W2_of_ne m ρ c main_arg7 (by decide)
    _ = W0 m ρ c (Proc.devRef .tc main_arg7) := Keep.hostOps0_keeps_main_arg7 (W0 m ρ c)
    _ = m ((c : Thread nD τ).loc main_arg7) := rfl

/-- The second layer's right weights. -/
theorem walk_w2r : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := Keep.hostOps1_keeps_main_arg8 (W2 m ρ c)
    _ = W1 m ρ c (Proc.devRef .tc main_arg8) := W2_of_ne m ρ c main_arg8 (by decide)
    _ = W0 m ρ c (Proc.devRef .tc main_arg8) := Keep.hostOps0_keeps_main_arg8 (W0 m ρ c)
    _ = m ((c : Thread nD τ).loc main_arg8) := rfl

/-- The second layer's bias. -/
theorem walk_b2 : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := Keep.hostOps1_keeps_main_arg9 (W2 m ρ c)
    _ = W1 m ρ c (Proc.devRef .tc main_arg9) := W2_of_ne m ρ c main_arg9 (by decide)
    _ = W0 m ρ c (Proc.devRef .tc main_arg9) := Keep.hostOps0_keeps_main_arg9 (W0 m ρ c)
    _ = m ((c : Thread nD τ).loc main_arg9) := rfl

/-- The source word of edge e at the second region's exit. -/
theorem src_word (e : Fin 1600000) :
    (W4 m ρ c (Proc.devRef .tc main_v1) : S1600000.Idx → BitVec 32) (ix1 e) = ei m c (ix2 (0 : Fin 2) e) := by
  rw [walk_src]
  exact Stretch0.all_src (W0 m ρ c) e

/-- The target word of edge e at the second region's exit. -/
theorem dst_word (e : Fin 1600000) :
    (W4 m ρ c (Proc.devRef .tc main_v3) : S1600000.Idx → BitVec 32) (ix1 e) = ei m c (ix2 (1 : Fin 2) e) := by
  rw [walk_dst]
  exact Stretch0.all_dst (W0 m ρ c) e

/-- The reciprocal of node n's floored in-degree at the second region's exit. -/
theorem recip_entry (n : Fin 100000) :
    (W4 m ρ c (Proc.devRef .tc main_v23) : S100000x1.Idx → EReal) (ix2 n (0 : Fin 1))
      = Ideal.div GraphConv.one (GraphConv.deg (ei m c) n) := by
  rw [walk_recip]
  exact Stretch0.all_inv (W0 m ρ c) n

/-- The normalised, rectified features at the second region's exit, given what that region leaves. -/
theorem normed_entry
    (hN : ∀ (n : Fin 100000) (j : Fin 128), (dat1 (V3 m ρ) c).arrAt 5 cfg1.N (ix2 n j)
      = GraphConv.actArr (hid m c) (gam m c) (bet m c) (ix2 n j))
    (n : Fin 100000) (k : Fin 128) :
    (W4 m ρ c (Proc.devRef .tc main_v45) : S100000x128.Idx → EReal) (ix2 n k)
      = GraphConv.actArr (hid m c) (gam m c) (bet m c) (ix2 n k) := by
  show (W4 m ρ c (Proc.devRef .tc (Pipeline.arrRef spec1 5)) : S100000x128.Idx → EReal) (ix2 n k) = _
  rw [W4_arr]
  exact hN n k

end Cert.KernelIdeal.Bridge

end
-- ==== Proof.Host2Ops.lean ====
import proofs.«136065_j25357486915627_2_alg».proof.Proof.Host0Ops

set_option maxRecDepth 100000

noncomputable section

namespace Cert.KernelIdeal.Stretch2

open Idealize.ShloMosaic Idealize.ShloMosaic.TcCoe Idealize.SL.Sem
open Cert.KernelIdeal Cert.KernelIdeal.Gen

variable {F : FTy → Type} [FloatOps F]

/-- Operations 1–8: the source words wrapped (a negative word has the node count added), as a column. -/
abbrev wrapOps : List (HloOp τ sig (Elt F)) :=
  [ StableHlo.nullary main_c_7 (constantI S_ 32 0#32),
    StableHlo.unary main_c_7 main_v46 (broadcastInDim S1600000 ![] bcast_S_S1600000 : (⟨S_, .i32⟩ : BufTy).Contents (Elt F) → (⟨S1600000, .i32⟩ : BufTy).Contents (Elt F)),
    StableHlo.binary main_v1 main_v46 main_v47 (cmpi .slt : (⟨S1600000, .i32⟩ : BufTy).Contents (Elt F) → (⟨S1600000, .i32⟩ : BufTy).Contents (Elt F) → (⟨S1600000, .i1⟩ : BufTy).Contents (Elt F)),
    StableHlo.nullary main_c_8 (constantI S_ 32 100000#32),
    StableHlo.unary main_c_8 main_v48 (broadcastInDim S1600000 ![] bcast_S_S1600000 : (⟨S_, .i32⟩ : BufTy).Contents (Elt F) → (⟨S1600000, .i32⟩ : BufTy).Contents (Elt F)),
    StableHlo.binary main_v1 main_v48 main_v49 (addi : (⟨S1600000, .i32⟩ : BufTy).Contents (Elt F) → (⟨S1600000, .i32⟩ : BufTy).Contents (Elt F) → (⟨S1600000, .i32⟩ : BufTy).Contents (Elt F)),
    StableHlo.ternary main_v47 main_v49 main_v1 main_v50 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v50 main_v51 (broadcastInDim S1600000x1 ![0] bcast_S1600000_S1600000x1_0 : (⟨S1600000, .i32⟩ : BufTy).Contents (Elt F) → (⟨S1600000x1, .i32⟩ : BufTy).Contents (Elt F)) ]

/-- Operations 9–17: the normalised rows gathered at the sources, scatter-added by the target words into zeros, times the reciprocal in-degree. -/
abbrev sumOps : List (HloOp τ sig (Elt F)) :=
  [ StableHlo.binary main_v45 main_v51 main_v52 ((fun x i => Host.gather gather_S100000x128_S1600000x1_S1600000x128_1_0_n_n_0_1_1128 x i) : (⟨S100000x128, .bf16⟩ : BufTy).Contents (Elt F) → (⟨S1600000x1, .i32⟩ : BufTy).Contents (Elt F) → (⟨S1600000x128, .bf16⟩ : BufTy).Contents (Elt F)),
    StableHlo.unary main_v52 main_v53 ((extf .f32 · bitsLt_bf16_f32) : (⟨S1600000x128, .bf16⟩ : BufTy).Contents (Elt F) → (⟨S1600000x128, .f32⟩ : BufTy).Contents (Elt F)),
    StableHlo.nullary main_cst_9 (constant S_ .f32 0x00000000#32),
    StableHlo.unary main_cst_9 main_v54 (broadcastInDim S100000x128 ![] bcast_S_S100000x128 : (⟨S_, .f32⟩ : BufTy).Contents (Elt F) → (⟨S100000x128, .f32⟩ : BufTy).Contents (Elt F)),
    StableHlo.unary main_v3 main_v55 (broadcastInDim S1600000x1 ![0] bcast_S1600000_S1600000x1_0 : (⟨S1600000, .i32⟩ : BufTy).Contents (Elt F) → (⟨S1600000x1, .i32⟩ : BufTy).Contents (Elt F)),
    StableHlo.ternary main_v54 main_v55 main_v53 main_v56 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v23 main_v57 (broadcastInDim S100000x128 ![0, 1] bcast_S100000x1_S100000x128_0_1 : (⟨S100000x1, .f32⟩ : BufTy).Contents (Elt F) → (⟨S100000x128, .f32⟩ : BufTy).Contents (Elt F)),
    StableHlo.binary main_v56 main_v57 main_v58 (mulf : (⟨S100000x128, .f32⟩ : BufTy).Contents (Elt F) → (⟨S100000x128, .f32⟩ : BufTy).Contents (Elt F) → (⟨S100000x128, .f32⟩ : BufTy).Contents (Elt F)),
    StableHlo.nullary main_c_10 (constantI S_ 32 0#32) ]

/-- The two pieces, in order, are the whole list. -/
theorem hostOps2_split : (hostOps2 : List (HloOp τ sig (Elt F))) = wrapOps ++ sumOps := rfl

/-- The contents after the whole list, piece by piece. -/
theorem after_hostOps2 (V : Valuation τ sig (Elt F)) :
    StableHlo.after (hostOps2 (F := F)) V = StableHlo.after sumOps (StableHlo.after wrapOps V) := by
  rw [hostOps2_split, Stretch0.after_append]

end Cert.KernelIdeal.Stretch2

end
-- ==== Proof.Host2Keep.lean ====
/-
  Between the second and the third kernel region: the arrays the stretch works on, named, and which of its six lists
  of host operations leaves which buffer alone.
-/
import proofs.«136065_j25357486915627_2_alg».proof.Proof.Host2Ops
import proofs.«136065_j25357486915627_2_alg».proof.Proof.Keep
import Idealize.ShloMosaic.Lib.StableHlo.Run
import Idealize.ShloMosaic.PureOps.Ideal
import Idealize.ShloMosaic.Lib.ValueIdx

set_option maxRecDepth 100000
set_option pp.deepTerms false
set_option pp.maxSteps 5000

noncomputable section

open scoped BigOperators

namespace Cert.KernelIdeal.Stretch2

open Idealize.ShloMosaic Idealize.ShloMosaic.TcCoe Idealize.ShloMosaic.Tactic Idealize.SL.Sem
open Idealize.ShloMosaic.StableHlo Idealize.ShloMosaic.ValueIdx
open Cert.KernelIdeal Cert.KernelIdeal.Gen

variable (V : Valuation τ sig (Elt Ideal))

abbrev normed : S100000x128.Idx → EReal := V (Proc.devRef .tc main_v45)
abbrev srcs : S1600000.Idx → BitVec 32 := V (Proc.devRef .tc main_v1)
abbrev dsts : S1600000.Idx → BitVec 32 := V (Proc.devRef .tc main_v3)
abbrev srcCol : S1600000x1.Idx → BitVec 32 := V (Proc.devRef .tc main_v51)
abbrev recip : S100000x1.Idx → EReal := V (Proc.devRef .tc main_v23)
abbrev wl : S128x40.Idx → EReal := V (Proc.devRef .tc main_arg7)
abbrev wr : S128x40.Idx → EReal := V (Proc.devRef .tc main_arg8)
abbrev b2 : S40.Idx → EReal := V (Proc.devRef .tc main_arg9)

/-! ## Buffers a list does not write -/

theorem keep_s2_1_v58 (X : Valuation τ sig (Elt Ideal)) :
    StableHlo.after (hostOps2_1 (F := Ideal)) X (Proc.devRef .tc main_v58) = X (Proc.devRef .tc main_v58) := by
  not_written hostOps2_1
theorem keep_s2_2_v58 (X : Valuation τ sig (Elt Ideal)) :
    StableHlo.after (hostOps2_2 (F := Ideal)) X (Proc.devRef .tc main_v58) = X (Proc.devRef .tc main_v58) := by
  not_written hostOps2_2
theorem keep_s2_3_v58 (X : Valuation τ sig (Elt Ideal)) :
    StableHlo.after (hostOps2_3 (F := Ideal)) X (Proc.devRef .tc main_v58) = X (Proc.devRef .tc main_v58) := by
  not_written hostOps2_3
theorem keep_s2_4_v58 (X : Valuation τ sig (Elt Ideal)) :
    StableHlo.after (hostOps2_4 (F := Ideal)) X (Proc.devRef .tc main_v58) = X (Proc.devRef .tc main_v58) := by
  not_written hostOps2_4
theorem keep_s2_5_v58 (X : Valuation τ sig (Elt Ideal)) :
    StableHlo.after (hostOps2_5 (F := Ideal)) X (Proc.devRef .tc main_v58) = X (Proc.devRef .tc main_v58) := by
  not_written hostOps2_5
theorem keep_s2_v45 (X : Valuation τ sig (Elt Ideal)) :
    StableHlo.after (hostOps2 (F := Ideal)) X (Proc.devRef .tc main_v45) = X (Proc.devRef .tc main_v45) := by
  not_written hostOps2
theorem keep_s2_1_v45 (X : Valuation τ sig (Elt Ideal)) :
    StableHlo.after (hostOps2_1 (F := Ideal)) X (Proc.devRef .tc main_v45) = X (Proc.devRef .tc main_v45) := by
  not_written hostOps2_1
theorem keep_s2_2_v45 (X : Valuation τ sig (Elt Ideal)) :
    StableHlo.after (hostOps2_2 (F := Ideal)) X (Proc.devRef .tc main_v45) = X (Proc.devRef .tc main_v45) := by
  not_written hostOps2_2
theorem keep_s2_3_v45 (X : Valuation τ sig (Elt Ideal)) :
    StableHlo.after (hostOps2_3 (F := Ideal)) X (Proc.devRef .tc main_v45) = X (Proc.devRef .tc main_v45) := by
  not_written hostOps2_3
theorem keep_s2_4_v45 (X : Valuation τ sig (Elt Ideal)) :
    StableHlo.after (hostOps2_4 (F := Ideal)) X (Proc.devRef .tc main_v45) = X (Proc.devRef .tc main_v45) := by
  not_written hostOps2_4
theorem keep_s2_5_v45 (X : Valuation τ sig (Elt Ideal)) :
    StableHlo.after (hostOps2_5 (F := Ideal)) X (Proc.devRef .tc main_v45) = X (Proc.devRef .tc main_v45) := by
  not_written hostOps2_5
theorem keep_s2_2_v59 (X : Valuation τ sig (Elt Ideal)) :
    StableHlo.after (hostOps2_2 (F := Ideal)) X (Proc.devRef .tc main_v59) = X (Proc.devRef .tc main_v59) := by
  not_written hostOps2_2
theorem keep_s2_3_v59 (X : Valuation τ sig (Elt Ideal)) :
    StableHlo.after (hostOps2_3 (F := Ideal)) X (Proc.devRef .tc main_v59) = X (Proc.devRef .tc main_v59) := by
  not_written hostOps2_3
theorem keep_s2_4_v59 (X : Valuation τ sig (Elt Ideal)) :
    StableHlo.after (hostOps2_4 (F := Ideal)) X (Proc.devRef .tc main_v59) = X (Proc.devRef .tc main_v59) := by
  not_written hostOps2_4
theorem keep_s2_5_v59 (X : Valuation τ sig (Elt Ideal)) :
    StableHlo.after (hostOps2_5 (F := Ideal)) X (Proc.devRef .tc main_v59) = X (Proc.devRef .tc main_v59) := by
  not_written hostOps2_5
theorem keep_s2_4_v60 (X : Valuation τ sig (Elt Ideal)) :
    StableHlo.after (hostOps2_4 (F := Ideal)) X (Proc.devRef .tc main_v60) = X (Proc.devRef .tc main_v60) := by
  not_written hostOps2_4
theorem keep_s2_5_v60 (X : Valuation τ sig (Elt Ideal)) :
    StableHlo.after (hostOps2_5 (F := Ideal)) X (Proc.devRef .tc main_v60) = X (Proc.devRef .tc main_v60) := by
  not_written hostOps2_5
theorem keep_s2_arg7 (X : Valuation τ sig (Elt Ideal)) :
    StableHlo.after (hostOps2 (F := Ideal)) X (Proc.devRef .tc main_arg7) = X (Proc.devRef .tc main_arg7) := by
  not_written hostOps2
theorem keep_s2_arg8 (X : Valuation τ sig (Elt Ideal)) :
    StableHlo.after (hostOps2 (F := Ideal)) X (Proc.devRef .tc main_arg8) = X (Proc.devRef .tc main_arg8) := by
  not_written hostOps2
theorem keep_s2_1_arg8 (X : Valuation τ sig (Elt Ideal)) :
    StableHlo.after (hostOps2_1 (F := Ideal)) X (Proc.devRef .tc main_arg8) = X (Proc.devRef .tc main_arg8) := by
  not_written hostOps2_1
theorem keep_s2_2_arg8 (X : Valuation τ sig (Elt Ideal)) :
    StableHlo.after (hostOps2_2 (F := Ideal)) X (Proc.devRef .tc main_arg8) = X (Proc.devRef .tc main_arg8) := by
  not_written hostOps2_2
theorem keep_s2_arg9 (X : Valuation τ sig (Elt Ideal)) :
    StableHlo.after (hostOps2 (F := Ideal)) X (Proc.devRef .tc main_arg9) = X (Proc.devRef .tc main_arg9) := by
  not_written hostOps2
theorem keep_s2_1_arg9 (X : Valuation τ sig (Elt Ideal)) :
    StableHlo.after (hostOps2_1 (F := Ideal)) X (Proc.devRef .tc main_arg9) = X (Proc.devRef .tc main_arg9) := by
  not_written hostOps2_1
theorem keep_s2_2_arg9 (X : Valuation τ sig (Elt Ideal)) :
    StableHlo.after (hostOps2_2 (F := Ideal)) X (Proc.devRef .tc main_arg9) = X (Proc.devRef .tc main_arg9) := by
  not_written hostOps2_2
theorem keep_s2_3_arg9 (X : Valuation τ sig (Elt Ideal)) :
    StableHlo.after (hostOps2_3 (F := Ideal)) X (Proc.devRef .tc main_arg9) = X (Proc.devRef .tc main_arg9) := by
  not_written hostOps2_3
theorem keep_wrapOps_v45 (X : Valuation τ sig (Elt Ideal)) :
    StableHlo.after (wrapOps (F := Ideal)) X (Proc.devRef .tc main_v45) = X (Proc.devRef .tc main_v45) := by
  not_written wrapOps
theorem keep_wrapOps_v3 (X : Valuation τ sig (Elt Ideal)) :
    StableHlo.after (wrapOps (F := Ideal)) X (Proc.devRef .tc main_v3) = X (Proc.devRef .tc main_v3) := by
  not_written wrapOps
theorem keep_wrapOps_v23 (X : Valuation τ sig (Elt Ideal)) :
    StableHlo.after (wrapOps (F := Ideal)) X (Proc.devRef .tc main_v23) = X (Proc.devRef .tc main_v23) := by
  not_written wrapOps

end Cert.KernelIdeal.Stretch2

end
-- ==== Proof.Host2Wrap.lean ====
/-
  The source words wrapped: a negative word has the node count added; the result is laid out as a column.
-/
import proofs.«136065_j25357486915627_2_alg».proof.Proof.Host2Keep
import proofs.«136065_j25357486915627_2_alg».proof.Proof.Spec
import proofs.«136065_j25357486915627_2_alg».proof.Proof.LayoutIdx

set_option maxRecDepth 100000
set_option pp.deepTerms false
set_option pp.maxSteps 5000

noncomputable section

open scoped BigOperators

namespace Cert.KernelIdeal.Stretch2

open Idealize.ShloMosaic Idealize.ShloMosaic.TcCoe Idealize.ShloMosaic.Tactic Idealize.SL.Sem
open Idealize.ShloMosaic.StableHlo Idealize.ShloMosaic.ValueIdx
open Cert.KernelIdeal Cert.KernelIdeal.Gen

variable (V : Valuation τ sig (Elt Ideal))

/-! ## The wrapped source words -/

theorem wrap_col (e : Fin 1600000) :
    srcCol (StableHlo.after wrapOps V) (ix2 e (0 : Fin 1)) = GraphConv.wrap (srcs V (ix1 e)) := by
  show StableHlo.after wrapOps V (Proc.devRef .tc main_v51) _ = _
  after_results
  refine (GraphConv.Layout.column_apply _ _ e).trans ?_
  show Scalar.select (IntOp.cmpi .slt _ _) (IntOp.addi _ _) _ = Scalar.select (IntOp.cmpi .slt _ _) (IntOp.addi _ _) _
  rw [GraphConv.Layout.scalar_apply, GraphConv.Layout.scalar_apply]
  rfl

end Cert.KernelIdeal.Stretch2

end
-- ==== Proof.Host2Sum.lean ====
/-
  The rows of the normalised features gathered at the clamped source column, scatter-added by the target words into
  zeros, times the reciprocal in-degree: read at an index over any contents.
-/
import proofs.«136065_j25357486915627_2_alg».proof.Proof.Host2Keep
import proofs.«136065_j25357486915627_2_alg».proof.Proof.Spec
import proofs.«136065_j25357486915627_2_alg».proof.Proof.LayoutIdx
import proofs.«136065_j25357486915627_2_alg».proof.Proof.SegSum
import proofs.«136065_j25357486915627_2_alg».proof.Proof.LibGatherTable

set_option maxRecDepth 100000
set_option pp.deepTerms false
set_option pp.maxSteps 5000

noncomputable section

open scoped BigOperators

namespace Cert.KernelIdeal.Stretch2

open Idealize.ShloMosaic Idealize.ShloMosaic.TcCoe Idealize.ShloMosaic.Tactic Idealize.SL.Sem
open Idealize.ShloMosaic.StableHlo Idealize.ShloMosaic.ValueIdx
open Cert.KernelIdeal Cert.KernelIdeal.Gen

/-! ## Gather, scatter, multiply -/

/-- The nine operations evaluated: the product of the scatter of the gathered rows and the spread reciprocal. -/
theorem sum_term (X : Valuation τ sig (Elt Ideal)) :
    StableHlo.after sumOps X (Proc.devRef .tc main_v58)
      = mulf (F := Ideal)
          (Host.scatterAdd (F := Ideal) scatter_S100000x128_S1600000x1_S1600000x128_1_0_0_1
            (broadcastInDim S100000x128 ![] bcast_S_S100000x128 (constant (F := Ideal) S_ .f32 0x00000000#32))
            (broadcastInDim S1600000x1 ![0] bcast_S1600000_S1600000x1_0 (X (Proc.devRef .tc main_v3)))
            (extf .f32 (Host.gather gather_S100000x128_S1600000x1_S1600000x128_1_0_n_n_0_1_1128
              (X (Proc.devRef .tc main_v45)) (X (Proc.devRef .tc main_v51))) bitsLt_bf16_f32))
          (broadcastInDim S100000x128 ![0, 1] bcast_S100000x1_S100000x128_0_1 (X (Proc.devRef .tc main_v23))) := by
  after_results

/-- The product of the scatter of the gathered rows and the spread reciprocal, read at an entry, over plain arrays. -/
theorem read_term (feat : FVec Ideal S100000x128 .bf16) (col : IVec S1600000 32) (srcC : IVec S1600000x1 32)
    (rc : FVec Ideal S100000x1 .f32) (n : Fin 100000) (k : Fin 128) :
    mulf (F := Ideal)
        (Host.scatterAdd (F := Ideal) scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 col)
          (extf .f32 (Host.gather gather_S100000x128_S1600000x1_S1600000x128_1_0_n_n_0_1_1128 feat srcC) bitsLt_bf16_f32))
        (broadcastInDim S100000x128 ![0, 1] bcast_S100000x1_S100000x128_0_1 rc) (ix2 n k)
      = (GraphConv.zero + ∑ e ∈ Finset.univ.filter (fun e : Fin 1600000 => (col (ix1 e)).toInt = (n.val : ℤ)),
            feat (ix2 (GraphConv.clampNode (srcC (ix2 e (0 : Fin 1)))) k))
        * rc (ix2 n (0 : Fin 1)) := by
  refine (mulf_apply _ _ (ix2 n k)).trans ?_
  refine congr (congrArg HMul.hMul ?_) (GraphConv.Layout.spreadColumn_apply rc bcast_S100000x1_S100000x128_0_1 n k)
  refine (SegSum.narrow_apply (constant (F := Ideal) S_ .f32 0x00000000#32) col _ n k).trans ?_
  refine congr (congrArg HAdd.hAdd rfl) (Finset.sum_congr rfl fun e _ => ?_)
  refine (extf_apply (Host.gather gather_S100000x128_S1600000x1_S1600000x128_1_0_n_n_0_1_1128 feat srcC) bitsLt_bf16_f32 (ix2 e k)).trans ?_
  have wf : GatherDims.WF ⟨2, ![100000, 128]⟩ ⟨2, ![1600000, 1]⟩ ⟨2, ![1600000, 128]⟩ [1] [0] [] [0] [] 1 ![1, 128] :=
    gather_S100000x128_S1600000x1_S1600000x128_1_0_n_n_0_1_1128.wf
  have hd : gather_S100000x128_S1600000x1_S1600000x128_1_0_n_n_0_1_1128 = GatherTable.rowsDims 100000 128 1600000 wf := rfl
  rw [hd]
  refine (GatherTable.gather_rows_apply (by decide) wf feat srcC e k).trans ?_
  refine congrArg feat (congrArg (fun a => ix2 a k) ?_)
  refine Fin.ext ?_
  show min _ _ = min _ _
  rfl

/-- Over any contents `X`: the rows of the normalised features at the clamped source column, summed over the edges
    whose target word names `n`, times the reciprocal. -/
theorem sum_agg (X : Valuation τ sig (Elt Ideal)) (n : Fin 100000) (k : Fin 128) :
    StableHlo.after sumOps X (Proc.devRef .tc main_v58) (ix2 n k)
      = (GraphConv.zero + ∑ e ∈ Finset.univ.filter (fun e : Fin 1600000 => (dsts X (ix1 e)).toInt = (n.val : ℤ)),
            normed X (ix2 (GraphConv.clampNode (srcCol X (ix2 e (0 : Fin 1)))) k))
        * recip X (ix2 n (0 : Fin 1)) :=
  (congrFun (sum_term X) (ix2 n k)).trans (read_term (normed X) (dsts X) (srcCol X) (recip X) n k)

end Cert.KernelIdeal.Stretch2

end
-- ==== Proof.Host2.lean ====
/-
  The host operations between the second and the third kernel region, composed: the second aggregation over the
  contents the stretch starts from, and the three zero-paddings of the second layer's parameters from 40 to 128 columns,
  read in one of the first 40 columns, where the padded array is the original.
-/
import proofs.«136065_j25357486915627_2_alg».proof.Proof.Host2Keep
import proofs.«136065_j25357486915627_2_alg».proof.Proof.Host2Wrap
import proofs.«136065_j25357486915627_2_alg».proof.Proof.Host2Sum
import proofs.«136065_j25357486915627_2_alg».proof.Proof.LibRowOps
import Idealize.ShloMosaic.Lib.KernelVsHost

set_option maxRecDepth 100000
set_option pp.deepTerms false
set_option pp.maxSteps 5000

noncomputable section

open scoped BigOperators

namespace Cert.KernelIdeal.Stretch2

open Idealize.ShloMosaic Idealize.ShloMosaic.TcCoe Idealize.ShloMosaic.Tactic Idealize.SL.Sem
open Idealize.ShloMosaic.StableHlo Idealize.ShloMosaic.ValueIdx
open Cert.KernelIdeal Cert.KernelIdeal.Gen

variable (V : Valuation τ sig (Elt Ideal))

/-- The wrapping operations leave the target words, the normalised features and the reciprocal alone. -/
theorem wrap_dsts : dsts (StableHlo.after wrapOps V) = dsts V := keep_wrapOps_v3 V
theorem wrap_normed : normed (StableHlo.after wrapOps V) = normed V := keep_wrapOps_v45 V
theorem wrap_recip : recip (StableHlo.after wrapOps V) = recip V := keep_wrapOps_v23 V

/-- The second aggregation, over the contents the stretch starts from. -/
theorem agg_first (n : Fin 100000) (k : Fin 128) :
    StableHlo.after hostOps2 V (Proc.devRef .tc main_v58) (ix2 n k)
      = (GraphConv.zero + ∑ e ∈ Finset.univ.filter (fun e : Fin 1600000 => (dsts V (ix1 e)).toInt = (n.val : ℤ)),
            normed V (ix2 (GraphConv.clampNode (GraphConv.wrap (srcs V (ix1 e)))) k))
        * recip V (ix2 n (0 : Fin 1)) := by
  rw [after_hostOps2, sum_agg, wrap_dsts, wrap_normed, wrap_recip]
  refine congrArg (· * recip V (ix2 n (0 : Fin 1))) (congrArg (GraphConv.zero + ·) (Finset.sum_congr rfl fun e _ => ?_))
  rw [wrap_col]

/-! ## The six stretches, one after the other -/

abbrev post (V : Valuation τ sig (Elt Ideal)) : Valuation τ sig (Elt Ideal) :=
  StableHlo.after hostOps2_5 (StableHlo.after hostOps2_4 (StableHlo.after hostOps2_3 (StableHlo.after hostOps2_2
    (StableHlo.after hostOps2_1 (StableHlo.after hostOps2 V)))))

/-- The later stretches leave the second aggregation alone. -/
theorem agg_kept : post V (Proc.devRef .tc main_v58) = StableHlo.after hostOps2 V (Proc.devRef .tc main_v58) := by
  show StableHlo.after hostOps2_5 _ _ = _
  rw [keep_s2_5_v58, keep_s2_4_v58, keep_s2_3_v58, keep_s2_2_v58, keep_s2_1_v58]

/-- The normalised features are left alone. -/
theorem normed_kept : normed (post V) = normed V := by
  show StableHlo.after hostOps2_5 _ _ = _
  rw [keep_s2_5_v45, keep_s2_4_v45, keep_s2_3_v45, keep_s2_2_v45, keep_s2_1_v45, keep_s2_v45]

/-- The padding of a 128 × 40 array read in one of its first 40 columns. -/
theorem pad40 (A : S128x40.Idx → EReal) (z : S_.Idx → EReal) (k : Fin 128) (j : Fin 40) :
    pad S128x128 ![0, 0] ![0, 88] ![0, 0] A z pads_S128x40_S128x128_000_0880 h_S_ (ix2 k (⟨j.val, by omega⟩ : Fin 128))
      = A (ix2 k j) :=
  pad_apply_of_inside ![0, 0] ![0, 88] ![0, 0] A z pads_S128x40_S128x128_000_0880 h_S_ _ (ix2 k j) fun a => by
    match a with
    | ⟨0, _⟩ => show k.val = 0 + k.val * (0 + 1); omega
    | ⟨1, _⟩ => show j.val = 0 + j.val * (0 + 1); omega

/-- A column below 40 of the padded left weights is the original column. -/
theorem padWl (k : Fin 128) (j : Fin 40) :
    post V (Proc.devRef .tc main_v59) (ix2 k (⟨j.val, by omega⟩ : Fin 128)) = wl V (ix2 k j) := by
  show StableHlo.after hostOps2_5 _ _ _ = _
  rw [keep_s2_5_v59, keep_s2_4_v59, keep_s2_3_v59, keep_s2_2_v59]
  generalize hX : StableHlo.after hostOps2 V = X
  have hA : wl X = wl V := by rw [← hX]; exact keep_s2_arg7 V
  rw [← hA]
  after_results
  exact pad40 (wl X) _ k j

/-- A column below 40 of the padded right weights is the original column. -/
theorem padWr (k : Fin 128) (j : Fin 40) :
    post V (Proc.devRef .tc main_v60) (ix2 k (⟨j.val, by omega⟩ : Fin 128)) = wr V (ix2 k j) := by
  show StableHlo.after hostOps2_5 _ _ _ = _
  rw [keep_s2_5_v60, keep_s2_4_v60]
  generalize hX : StableHlo.after hostOps2_2 (StableHlo.after hostOps2_1 (StableHlo.after hostOps2 V)) = X
  have hA : wr X = wr V := by
    rw [← hX]
    show StableHlo.after hostOps2_2 _ _ = _
    rw [keep_s2_2_arg8, keep_s2_1_arg8, keep_s2_arg8]
  rw [← hA]
  after_results
  exact pad40 (wr X) _ k j

/-- An entry below 40 of the padded bias row is the original entry. -/
theorem padBias (j : Fin 40) :
    post V (Proc.devRef .tc main_v62) (ix2 (0 : Fin 1) (⟨j.val, by omega⟩ : Fin 128)) = b2 V (ix1 j) := by
  show StableHlo.after hostOps2_5 (StableHlo.after hostOps2_4 _) _ _ = _
  generalize hX : StableHlo.after hostOps2_3 (StableHlo.after hostOps2_2 (StableHlo.after hostOps2_1 (StableHlo.after hostOps2 V))) = X
  have hA : b2 X = b2 V := by
    rw [← hX]
    show StableHlo.after hostOps2_3 _ _ = _
    rw [keep_s2_3_arg9, keep_s2_2_arg9, keep_s2_1_arg9, keep_s2_arg9]
  rw [← hA]
  after_results
  show pad S1x128 ![0, 0] ![0, 88] ![0, 0] (shapeCast S1x40 (b2 X) shapeCasts_S40_S1x40) _ pads_S1x40_S1x128_000_0880 h_S_
      (ix2 (0 : Fin 1) _) = b2 X (ix1 j)
  refine (pad_apply_of_inside ![0, 0] ![0, 88] ![0, 0] (shapeCast S1x40 (b2 X) shapeCasts_S40_S1x40) _
      pads_S1x40_S1x128_000_0880 h_S_ _ (ix2 (0 : Fin 1) j) fun a => ?_).trans ?_
  · match a with
    | ⟨0, _⟩ => rfl
    | ⟨1, _⟩ => show j.val = 0 + j.val * (0 + 1); omega
  · exact Cert.KernelBody.shapeCast_row_apply _ _ j

end Cert.KernelIdeal.Stretch2

end
-- ==== Proof.ConvTwoBlocks.lean ====
/-
  The linear layer's windows read off their arrays. The grid has ten points; at point t the two row windows (the
  aggregated features and the features) and the output window are rows 10000 t … 10000 t + 9999 of their [100000,128]
  arrays, and the two [128,128] weight matrices and the [1,128] bias row are their whole arrays. So entry (r, k) of a
  row block at t is entry (10000 t + r, k) of its array, and an entry of a weight or bias block is the same entry of
  its array.
-/
import proofs.«136065_j25357486915627_2_alg».proof.Proof.Gen.KernelIdeal.Frame
import Idealize.ShloMosaic.Lib.Pipeline.Value
import Idealize.ShloMosaic.Lib.ValueIdx

noncomputable section

namespace Cert.KernelIdeal.Tail

open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem conv2_zeros : (![0, 0] : Fin 2 → Nat) = fun _ => 0 := funext fun a => by fin_cases a <;> rfl

/-- Where each window of the linear layer sits at grid point t: the row windows at block row t, the weights and the
    bias whole. -/
theorem conv2_idx : ∀ t : Fin cfg2.N, win2_0.index t (0 : Fin 2) = t.val ∧ win2_0.index t (1 : Fin 2) = 0
    ∧ win2_1.index t (0 : Fin 2) = t.val ∧ win2_1.index t (1 : Fin 2) = 0
    ∧ win2_5.index t (0 : Fin 2) = t.val ∧ win2_5.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Row r of block t of the aggregated features is row 10000 t + r of their array. -/
theorem conv2_rows0_read (c : Dev nD) (t : Fin cfg2.N) (r : Fin 10000) (k : Fin 128) (n : Fin 100000)
    (hn : n.val = 10000 * t.val + r.val) :
    (Gen.iblk2 V c 0 t : Vec Ideal S10000x128 .f32) (ix2 r k)
      = (V c (Pipeline.arrRef spec2 0) : S100000x128.Idx → EReal) (ix2 n k) := by
  obtain ⟨a0, a1, x0, x1, o0, o1, l0, l1, r0, r1, b0, b1⟩ := conv2_idx t
  unfold Gen.iblk2
  rw [View.read_apply]
  show (V c (Pipeline.arrRef spec2 0) : S100000x128.Idx → EReal) _ = _
  refine congrArg _ (funext fun a => Fin.ext ?_)
  match a with
  | ⟨0, _⟩ => show win2_0.index t (0 : Fin 2) * 10000 + 1 * r.val = n.val; rw [a0, hn]; omega
  | ⟨1, _⟩ => show win2_0.index t (1 : Fin 2) * 128 + 1 * k.val = k.val; rw [a1]; omega

/-- Row r of block t of the features is row 10000 t + r of their array. -/
theorem conv2_rows1_read (c : Dev nD) (t : Fin cfg2.N) (r : Fin 10000) (k : Fin 128) (n : Fin 100000)
    (hn : n.val = 10000 * t.val + r.val) :
    (Gen.iblk2 V c 1 t : Vec Ideal S10000x128 .bf16) (ix2 r k)
      = (V c (Pipeline.arrRef spec2 1) : S100000x128.Idx → EReal) (ix2 n k) := by
  obtain ⟨a0, a1, x0, x1, o0, o1, l0, l1, r0, r1, b0, b1⟩ := conv2_idx t
  unfold Gen.iblk2
  rw [View.read_apply]
  show (V c (Pipeline.arrRef spec2 1) : S100000x128.Idx → EReal) _ = _
  refine congrArg _ (funext fun a => Fin.ext ?_)
  match a with
  | ⟨0, _⟩ => show win2_1.index t (0 : Fin 2) * 10000 + 1 * r.val = n.val; rw [x0, hn]; omega
  | ⟨1, _⟩ => show win2_1.index t (1 : Fin 2) * 128 + 1 * k.val = k.val; rw [x1]; omega

/-- The left weight matrix is whole at every grid point. -/
theorem conv2_wl_read (c : Dev nD) (t : Fin cfg2.N) (k : Fin 128) (j : Fin 128) :
    (Gen.iblk2 V c 2 t : Vec Ideal S128x128 .f32) (ix2 k j)
      = (V c (Pipeline.arrRef spec2 2) : S128x128.Idx → EReal) (ix2 k j) := by
  obtain ⟨a0, a1, x0, x1, o0, o1, l0, l1, r0, r1, b0, b1⟩ := conv2_idx t
  unfold Gen.iblk2
  rw [View.read_apply]
  show (V c (Pipeline.arrRef spec2 2) : S128x128.Idx → EReal) _ = _
  refine congrArg _ (funext fun a => Fin.ext ?_)
  match a with
  | ⟨0, _⟩ => show win2_2.index t (0 : Fin 2) * 128 + 1 * k.val = k.val; rw [l0]; omega
  | ⟨1, _⟩ => show win2_2.index t (1 : Fin 2) * 128 + 1 * j.val = j.val; rw [l1]; omega

/-- The right weight matrix is whole at every grid point. -/
theorem conv2_wr_read (c : Dev nD) (t : Fin cfg2.N) (k : Fin 128) (j : Fin 128) :
    (Gen.iblk2 V c 3 t : Vec Ideal S128x128 .f32) (ix2 k j)
      = (V c (Pipeline.arrRef spec2 3) : S128x128.Idx → EReal) (ix2 k j) := by
  obtain ⟨a0, a1, x0, x1, o0, o1, l0, l1, r0, r1, b0, b1⟩ := conv2_idx t
  unfold Gen.iblk2
  rw [View.read_apply]
  show (V c (Pipeline.arrRef spec2 3) : S128x128.Idx → EReal) _ = _
  refine congrArg _ (funext fun a => Fin.ext ?_)
  match a with
  | ⟨0, _⟩ => show win2_3.index t (0 : Fin 2) * 128 + 1 * k.val = k.val; rw [r0]; omega
  | ⟨1, _⟩ => show win2_3.index t (1 : Fin 2) * 128 + 1 * j.val = j.val; rw [r1]; omega

/-- The bias row is whole at every grid point. -/
theorem conv2_bias_read (c : Dev nD) (t : Fin cfg2.N) (j : Fin 128) :
    (Gen.iblk2 V c 4 t : Vec Ideal S1x128 .f32) (ix2 (0 : Fin 1) j)
      = (V c (Pipeline.arrRef spec2 4) : S1x128.Idx → EReal) (ix2 (0 : Fin 1) j) := by
  obtain ⟨a0, a1, x0, x1, o0, o1, l0, l1, r0, r1, b0, b1⟩ := conv2_idx t
  unfold Gen.iblk2
  rw [View.read_apply]
  show (V c (Pipeline.arrRef spec2 4) : S1x128.Idx → EReal) _ = _
  refine congrArg _ (funext fun a => Fin.ext ?_)
  match a with
  | ⟨0, _⟩ => show win2_4.index t (0 : Fin 2) * 1 + 1 * 0 = 0; rw [b0]
  | ⟨1, _⟩ => show win2_4.index t (1 : Fin 2) * 128 + 1 * j.val = j.val; rw [b1]; omega

end Cert.KernelIdeal.Tail

end
-- ==== Proof.ConvTwoPoint.lean ====
/-
  The linear body at one entry of a block of 10000 rows: what it stores at row r, column j is
  Σ_k a_{r k} · wl_{k j} + Σ_k x_{r k} · wr_{k j} + b_j — two matrix products into zero accumulators, added, plus the
  bias row broadcast down the rows. The roundings to bf16 on the way into the products are identities on extended reals.
-/
import proofs.«136065_j25357486915627_2_alg».proof.Proof.Gen.KernelIdeal.Skeleton
import proofs.«136065_j25357486915627_2_alg».proof.Proof.LibRowOps

noncomputable section

open scoped BigOperators

namespace Cert.KernelIdeal.Tail

open Idealize.ShloMosaic Idealize.ShloMosaic.ValueIdx

/-- The stored block of the linear body, entry by entry. -/
theorem conv2_point (x0 : Vec Ideal S10000x128 .f32) (x1 : Vec Ideal S10000x128 .bf16)
    (wl wr : Vec Ideal S128x128 .f32) (bb : Vec Ideal S1x128 .f32) (r : Fin 10000) (j : Fin 128) :
    Gen.k2_pay1 (F := Ideal) x0 x1 wl wr bb (ix2 r j)
      = ((∑ k : Fin 128, x0 (ix2 r k) * wl (ix2 k j)) + (∑ k : Fin 128, x1 (ix2 r k) * wr (ix2 k j)))
          + bb (ix2 (0 : Fin 1) j) := by
  unfold Gen.k2_pay1
  simp only [shapeCast_self]
  rw [addf_apply, addf_apply, Cert.KernelBody.broadcastTo_row_apply]
  refine congrArg₂ (· + ·) (congrArg₂ (· + ·) ?_ ?_) rfl
  · exact Cert.KernelBody.matmul_plain_zero_apply Gen.dot_S10000x128_S128x128_S10000x128_1_0_0_1_n_n_wf none _ _ r j
  · exact Cert.KernelBody.matmul_plain_zero_apply Gen.dot_S10000x128_S128x128_S10000x128_1_0_0_1_n_n_wf none _ _ r j

end Cert.KernelIdeal.Tail

end
-- ==== Proof.ConvTwo.lean ====
/-
  The array the linear layer leaves. Every grid point writes back block t of one function of the region's arrays,
  Σ_k A_{n k} Wl_{k j} + Σ_k X_{n k} Wr_{k j} + b_j at (n, j); the ten blocks tile the 100000 rows; so the array ends
  holding that function.
-/
import proofs.«136065_j25357486915627_2_alg».proof.Proof.ConvTwoBlocks
import proofs.«136065_j25357486915627_2_alg».proof.Proof.ConvTwoPoint
import proofs.«136065_j25357486915627_2_alg».proof.Proof.Spec

noncomputable section

open scoped BigOperators

namespace Cert.KernelIdeal.Tail

open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The array the linear layer leaves, as a function of the arrays the region finds. -/
def conv2Arr (c : Dev nD) : S100000x128.Idx → EReal := fun i =>
  GraphConv.lin (C := 128)
      (V c (Pipeline.arrRef spec2 0) : S100000x128.Idx → EReal)
      (V c (Pipeline.arrRef spec2 1) : S100000x128.Idx → EReal)
      (V c (Pipeline.arrRef spec2 2) : S128x128.Idx → EReal)
      (V c (Pipeline.arrRef spec2 3) : S128x128.Idx → EReal)
      (fun j => (V c (Pipeline.arrRef spec2 4) : S1x128.Idx → EReal) (ix2 (0 : Fin 1) j))
      ⟨(i 0).val, idx2_lt0 i⟩ ⟨(i 1).val, idx2_lt1 i⟩

/-- `conv2Arr` at an index whose coordinates are known. -/
theorem conv2Arr_apply (c : Dev nD) (i : S100000x128.Idx) (n : Fin 100000) (j : Fin 128)
    (h0 : (i 0).val = n.val) (h1 : (i 1).val = j.val) :
    conv2Arr V c i = GraphConv.lin (C := 128)
      (V c (Pipeline.arrRef spec2 0) : S100000x128.Idx → EReal)
      (V c (Pipeline.arrRef spec2 1) : S100000x128.Idx → EReal)
      (V c (Pipeline.arrRef spec2 2) : S128x128.Idx → EReal)
      (V c (Pipeline.arrRef spec2 3) : S128x128.Idx → EReal)
      (fun j => (V c (Pipeline.arrRef spec2 4) : S1x128.Idx → EReal) (ix2 (0 : Fin 1) j)) n j := by
  unfold conv2Arr
  have e0 : (⟨(i 0).val, idx2_lt0 i⟩ : Fin 100000) = n := Fin.ext h0
  have e1 : (⟨(i 1).val, idx2_lt1 i⟩ : Fin 128) = j := Fin.ext h1
  rw [e0, e1]

/-- What grid point t writes back is block t of `conv2Arr`. -/
theorem conv2_flushed (c : Dev nD) (t : Fin cfg2.N) :
    (Gen.dat2 V c).flushed 5 t = ((cfg2.win 5).blk t).view.read (Elt Ideal) (conv2Arr V c) := by
  show (cfg2.win 5).cut (grid2.coords t) ((Gen.dat2 V c).after 5 t) = _
  rw [Gen.after2_5]
  unfold Gen.out2_5
  rw [View.canon_unit_zero conv2_zeros]
  simp only [View.ld_unit_zero (S := S10000x128) conv2_zeros, View.ld_unit_zero (S := S128x128) conv2_zeros,
    View.ld_unit_zero (S := S1x128) conv2_zeros]
  funext y
  obtain ⟨r, j, rfl⟩ : ∃ (r : Fin 10000) (j : Fin 128), y = ix2 r j := ⟨y 0, y 1, eq_ix2 y⟩
  obtain ⟨-, -, -, -, e0, e1, -⟩ := conv2_idx t
  have hN : grid2.N = 10 := Gen.N_2
  have ht : t.val < 10 := hN ▸ t.isLt
  rw [View.read_apply]
  show Gen.k2_pay1 (F := Ideal) _ _ _ _ _ (ix2 r j) = conv2Arr V c (((cfg2.win 5).blk t).view.emb (ix2 r j))
  rw [conv2_point, conv2Arr_apply V c _ ⟨10000 * t.val + r.val, by have := r.isLt; omega⟩ j
    (by show win2_5.index t (0 : Fin 2) * 10000 + 1 * r.val = 10000 * t.val + r.val; rw [e0]; omega)
    (by show win2_5.index t (1 : Fin 2) * 128 + 1 * j.val = j.val; rw [e1]; omega)]
  unfold GraphConv.lin
  refine congrArg₂ (· + ·) (congrArg₂ (· + ·) (Finset.sum_congr rfl fun k _ => ?_)
    (Finset.sum_congr rfl fun k _ => ?_)) ?_
  · exact congrArg₂ (· * ·) (conv2_rows0_read V c t r k ⟨10000 * t.val + r.val, by have := r.isLt; omega⟩ rfl)
      (conv2_wl_read V c t k j)
  · exact congrArg₂ (· * ·) (conv2_rows1_read V c t r k ⟨10000 * t.val + r.val, by have := r.isLt; omega⟩ rfl)
      (conv2_wr_read V c t k j)
  · exact conv2_bias_read V c t j

/-- An index of the array is in grid point t's block iff each coordinate is in the block's range on its axis. -/
theorem conv2_mem_blk (t : Fin cfg2.N) (i : S100000x128.Idx) :
    i ∈ ((cfg2.win 5).blk t).view.set ↔ ∀ a : Fin 2, win2_5.index t a * S10000x128.size a ≤ (i a).val
      ∧ (i a).val < win2_5.index t a * S10000x128.size a + S10000x128.size a := by
  show i ∈ ((View.whole main_v63).slice (win2_5.rect t)).set ↔ _
  rw [View.set_slice_whole, Rect.mem_set_unit]
  exact Iff.rfl

/-- Row n lies in the block of grid point n / 10000. -/
theorem conv2_cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : grid2.N = 10 := Gen.N_2
  have hlt : (i 0).val / 10000 < grid2.N := by rw [hN]; omega
  refine ⟨⟨(i 0).val / 10000, hlt⟩, Gen.flush2_5 _, ?_⟩
  rw [conv2_mem_blk]
  obtain ⟨-, -, -, -, e0, e1, -⟩ := conv2_idx ⟨(i 0).val / 10000, hlt⟩
  intro a
  match a with
  | ⟨0, _⟩ =>
    show win2_5.index ⟨(i 0).val / 10000, hlt⟩ (0 : Fin 2) * 10000 ≤ (i 0).val
      ∧ (i 0).val < win2_5.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win2_5.index ⟨(i 0).val / 10000, hlt⟩ (1 : Fin 2) * 128 ≤ (i 1).val
      ∧ (i 1).val < win2_5.index ⟨(i 0).val / 10000, hlt⟩ (1 : Fin 2) * 128 + 128
    rw [e1]; omega

/-- The array after the ten write-backs. -/
theorem conv2_arr (c : Dev nD) : (Gen.dat2 V c).arrAt 5 cfg2.N = conv2Arr V c :=
  (Gen.dat2 V c).arrAt_eq_of_cover 5 (conv2Arr V c) (fun t _ => conv2_flushed V c t) conv2_cover

/-- Entry (n, j) of the array the linear layer leaves. -/
theorem conv2_apply (c : Dev nD) (n : Fin 100000) (j : Fin 128) :
    (Gen.dat2 V c).arrAt 5 cfg2.N (ix2 n j) = GraphConv.lin (C := 128)
      (V c (Pipeline.arrRef spec2 0) : S100000x128.Idx → EReal)
      (V c (Pipeline.arrRef spec2 1) : S100000x128.Idx → EReal)
      (V c (Pipeline.arrRef spec2 2) : S128x128.Idx → EReal)
      (V c (Pipeline.arrRef spec2 3) : S128x128.Idx → EReal)
      (fun j => (V c (Pipeline.arrRef spec2 4) : S1x128.Idx → EReal) (ix2 (0 : Fin 1) j)) n j := by
  rw [conv2_arr]
  exact conv2Arr_apply V c (ix2 n j) n j rfl rfl

end Cert.KernelIdeal.Tail

end
-- ==== Proof.Entry2.lean ====
/-
  The program's result in terms of the launch memory. The last host operation keeps the first 40 columns of the third
  region's output; that region computes, row by row, A · Wl + X · Wr + b of the arrays it finds; those are the second
  aggregation of the normalised features (their rows summed over the edges into each node, times the reciprocal of the
  floored in-degree, which is the quotient by it), the normalised features themselves, and the second layer's weights
  and bias padded with zero columns, of which only the first 40 are read. That is the specification's second
  convolution of the normalised first one.
-/
import proofs.«136065_j25357486915627_2_alg».proof.Proof.Entry2Walk
import proofs.«136065_j25357486915627_2_alg».proof.Proof.Host2
import proofs.«136065_j25357486915627_2_alg».proof.Proof.ConvTwo
import proofs.«136065_j25357486915627_2_alg».proof.Proof.LayoutIdx

set_option maxRecDepth 100000
set_option pp.deepTerms false
set_option pp.maxSteps 5000

noncomputable section

open scoped BigOperators

namespace Cert.KernelIdeal.Bridge

open Idealize.ShloMosaic Idealize.ShloMosaic.TcCoe Idealize.ShloMosaic.Tactic Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

/-- The third region's feature rows are the normalised, rectified first convolution. -/
theorem last_feat
    (hN : ∀ (n : Fin 100000) (j : Fin 128), (dat1 (V3 m ρ) c).arrAt 5 cfg1.N (ix2 n j)
      = GraphConv.actArr (hid m c) (gam m c) (bet m c) (ix2 n j))
    (n : Fin 100000) (k : Fin 128) :
    (V10 m ρ c (Pipeline.arrRef spec2 1) : S100000x128.Idx → EReal) (ix2 n k) = GraphConv.actArr (hid m c) (gam m c) (bet m c) (ix2 n k) := by
  show Stretch2.normed (Stretch2.post (W4 m ρ c)) (ix2 n k) = _
  rw [Stretch2.normed_kept]
  exact normed_entry m ρ c hN n k

/-- The third region's aggregated rows are the aggregation of the normalised first convolution. -/
theorem last_agg
    (hN : ∀ (n : Fin 100000) (j : Fin 128), (dat1 (V3 m ρ) c).arrAt 5 cfg1.N (ix2 n j)
      = GraphConv.actArr (hid m c) (gam m c) (bet m c) (ix2 n j))
    (n : Fin 100000) (k : Fin 128) :
    (V10 m ρ c (Pipeline.arrRef spec2 0) : S100000x128.Idx → EReal) (ix2 n k)
      = GraphConv.aggArr (GraphConv.actArr (hid m c) (gam m c) (bet m c)) (ei m c) (ix2 n k) := by
  show Stretch2.post (W4 m ρ c) (Proc.devRef .tc main_v58) (ix2 n k) = _
  rw [Stretch2.agg_kept, Stretch2.agg_first, GraphConv.aggArr_apply]
  unfold GraphConv.agg
  refine Eq.trans ?_ (GraphConv.mul_recip _ _ (GraphConv.deg_ne_zero (ei m c) n))
  refine congrArg₂ (· * ·) (congrArg (GraphConv.zero + ·) ?_) (recip_entry m ρ c n)
  unfold GraphConv.into GraphConv.src
  have hfil : Finset.univ.filter (fun e : Fin 1600000 => (Stretch2.dsts (W4 m ρ c) (ix1 e)).toInt = (n.val : ℤ))
      = Finset.univ.filter (fun e : Fin 1600000 => (ei m c (ix2 (1 : Fin 2) e)).toInt = (n.val : ℤ)) :=
    Finset.filter_congr fun e _ => by rw [show Stretch2.dsts (W4 m ρ c) (ix1 e) = _ from dst_word m ρ c e]
  rw [hfil]
  refine Finset.sum_congr rfl fun e _ => ?_
  rw [show Stretch2.srcs (W4 m ρ c) (ix1 e) = _ from src_word m ρ c e]
  exact normed_entry m ρ c hN _ k

/-- A column below 40 of the third region's left weights is the launched column. -/
theorem last_wl (k : Fin 128) (j : Fin 40) :
    (V10 m ρ c (Pipeline.arrRef spec2 2) : S128x128.Idx → EReal) (ix2 k (⟨j.val, by omega⟩ : Fin 128))
      = w2l m c (ix2 k j) := by
  show Stretch2.post (W4 m ρ c) (Proc.devRef .tc main_v59) (ix2 k (⟨j.val, _⟩ : Fin 128)) = _
  rw [Stretch2.padWl]
  show (W4 m ρ c (Proc.devRef .tc main_arg7) : S128x40.Idx → EReal) (ix2 k j) = _
  rw [walk_w2l]

/-- A column below 40 of the third region's right weights is the launched column. -/
theorem last_wr (k : Fin 128) (j : Fin 40) :
    (V10 m ρ c (Pipeline.arrRef spec2 3) : S128x128.Idx → EReal) (ix2 k (⟨j.val, by omega⟩ : Fin 128))
      = w2r m c (ix2 k j) := by
  show Stretch2.post (W4 m ρ c) (Proc.devRef .tc main_v60) (ix2 k (⟨j.val, _⟩ : Fin 128)) = _
  rw [Stretch2.padWr]
  show (W4 m ρ c (Proc.devRef .tc main_arg8) : S128x40.Idx → EReal) (ix2 k j) = _
  rw [walk_w2r]

/-- An entry below 40 of the third region's bias row is the launched entry. -/
theorem last_bias (j : Fin 40) :
    (V10 m ρ c (Pipeline.arrRef spec2 4) : S1x128.Idx → EReal) (ix2 (0 : Fin 1) (⟨j.val, by omega⟩ : Fin 128))
      = b2 m c j := by
  show Stretch2.post (W4 m ρ c) (Proc.devRef .tc main_v62) (ix2 (0 : Fin 1) (⟨j.val, _⟩ : Fin 128)) = _
  rw [Stretch2.padBias]
  show (W4 m ρ c (Proc.devRef .tc main_arg9) : S40.Idx → EReal) (ix1 j) = _
  rw [walk_b2]

/-- The last host operation keeps the first 40 columns. -/
theorem last_slice (X : Valuation τ sig (Elt Ideal)) (n : Fin 100000) (j : Fin 40) :
    (StableHlo.after hostOps3 X (Proc.devRef .tc main_v64) : S100000x40.Idx → EReal) (ix2 n j)
      = (X (Proc.devRef .tc main_v63) : S100000x128.Idx → EReal) (ix2 n (⟨j.val, by omega⟩ : Fin 128)) := by
  after_results
  refine (GraphConv.Layout.columns_apply _ _ n j (by omega)).trans ?_
  exact congrArg _ (congrArg (ix2 n) (Fin.ext (Nat.zero_add _)))

/-- THE RESULT: entry (n, j) of the returned array is the specification's output. -/
theorem out_final
    (hN : ∀ (n : Fin 100000) (j : Fin 128), (dat1 (V3 m ρ) c).arrAt 5 cfg1.N (ix2 n j)
      = GraphConv.actArr (hid m c) (gam m c) (bet m c) (ix2 n j))
    (n : Fin 100000) (j : Fin 40) :
    (W12 m ρ c (Proc.devRef .tc main_v64) : S100000x40.Idx → EReal) (ix2 n j)
      = GraphConv.out (x m c) (ei m c) (w1l m c) (w1r m c) (b1 m c) (gam m c) (bet m c) (w2l m c) (w2r m c)
          (b2 m c) n j := by
  refine (last_slice (W11 m ρ c) n j).trans ?_
  show (W11 m ρ c (Proc.devRef .tc (Pipeline.arrRef spec2 5)) : S100000x128.Idx → EReal) _ = _
  rw [W11_arr, Tail.conv2_apply]
  unfold GraphConv.out GraphConv.lin
  refine congrArg₂ (· + ·) (congrArg₂ (· + ·) (Finset.sum_congr rfl fun k _ => ?_)
    (Finset.sum_congr rfl fun k _ => ?_)) ?_
  · exact congrArg₂ (· * ·) (last_agg m ρ c hN n k) (last_wl m ρ c k j)
  · exact congrArg₂ (· * ·) (last_feat m ρ c hN n k) (last_wr m ρ c k j)
  · exact last_bias m ρ c j

end Cert.KernelIdeal.Bridge

end
-- ==== Proof.PreReal.lean ====
/-
  What the precondition gives.  It is the conjunction, over the nine float arguments, of "every entry's absolute value
  is below +∞".  An extended real whose absolute value `max a (−a)` is below `⊤` is neither infinity, hence a real
  number.  A conjunction of bits that is one has every conjunct one, and an all-reduction by `and` that is one had a
  one at every index.  So under the precondition every entry of the features, of the first layer's two weight matrices
  and of its bias is real — the four arguments the variance law needs.
-/
import proofs.«136065_j25357486915627_2_alg».proof.Pre_finite_inputs
import proofs.«136065_j25357486915627_2_alg».proof.Proof.RealVal
import Idealize.ShloMosaic.PureOps.Ideal
import Idealize.ShloMosaic.PureOps.Ideal.Laws
import Idealize.ShloMosaic.Lib.ReduceAll
import Idealize.ShloMosaic.Lib.Affine
import Idealize.ShloMosaic.Lib.ValueIdx

noncomputable section

namespace GraphConv

open Idealize.ShloMosaic Idealize.ShloMosaic.ValueIdx

/-- An extended real whose absolute value compares below the infinity word is a real number. -/
theorem isReal_of_abs_lt (a : EReal)
    (h : Ideal.cmp .olt (max a (-a)) (Ideal.ofBits .f32 0x7F800000#32) = 1#1) : IsReal a := by
  have htop : Ideal.ofBits .f32 0x7F800000#32 = (⊤ : EReal) := by simp [Ideal.ofBits, Ideal.ieee]
  rw [htop] at h
  induction a using EReal.rec with
  | bot => simp [Ideal.cmp] at h
  | coe r => exact ⟨r, rfl⟩
  | top => simp [Ideal.cmp] at h

instance : Subsingleton Cert.Pre_finite_inputs.S_.Idx := ⟨fun a b => funext fun d => d.elim0⟩

section
variable [Cert.Pre_finite_inputs.Facts]
open Cert.Pre_finite_inputs Cert.Pre_finite_inputs.Facts

/-- Under the precondition the features, the first layer's two weight matrices and its bias hold real numbers. -/
theorem reals_of_pre (a0 : FVec Ideal S100000x128 .f32) (a1 : IVec S2x1600000 32) (a2 a3 : FVec Ideal S128x128 .f32)
    (a4 a5 a6 : FVec Ideal S128 .f32) (a7 a8 : FVec Ideal S128x40 .f32) (a9 : FVec Ideal S40 .f32)
    (h : Cert.Pre_finite_inputs.fn (F := Ideal) a0 a1 a2 a3 a4 a5 a6 a7 a8 a9 = fun _ => 1#1) :
    (∀ i, IsReal (a0 i)) ∧ (∀ i, IsReal (a2 i)) ∧ (∀ i, IsReal (a3 i)) ∧ (∀ i, IsReal (a4 i)) := by
  have h0 := congrFun h ix0
  dsimp only [Cert.Pre_finite_inputs.fn, Cert.Pre_finite_inputs.fn_part1, Cert.Pre_finite_inputs.fn_part2] at h0
  simp only [andi, IntOp.andi_eq_one] at h0
  obtain ⟨⟨⟨⟨⟨⟨⟨⟨hx, hwl⟩, hwr⟩, hb⟩, _⟩, _⟩, _⟩, _⟩, _⟩ := h0
  refine ⟨fun i => ?_, fun i => ?_, fun i => ?_, fun i => ?_⟩
  · exact isReal_of_abs_lt _ (Host.reduce_andi_all _ _ _ _ _ hx i)
  · exact isReal_of_abs_lt _ (Host.reduce_andi_all _ _ _ _ _ hwl i)
  · exact isReal_of_abs_lt _ (Host.reduce_andi_all _ _ _ _ _ hwr i)
  · exact isReal_of_abs_lt _ (Host.reduce_andi_all _ _ _ _ _ hb i)

end

end GraphConv

end
-- ==== Proof.RefOps.lean ====
/-
  The reference program is the straight line of its 113 operations: the three outlined functions unfolded at their
  calls and sequencing reassociated, both sides are one chain of host steps.  With it, what the run theorem for
  straight lines asks besides: no buffer and no semaphore of the signature is scoped, and every operation touches
  TensorCore buffers only.
-/
import proofs.«136065_j25357486915627_2_alg».proof.Proof.RefOpsList

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- @main is the straight line of `ops`. -/
theorem main_eq (c : Dev nD) : main (F := F) c = seq ops := by
  simp only [main, main_part0, main_part1, fn_var.body, fn_where.body, fn_relu.body, seq, bind_assoc, pure_bind,
    List.cons_append, List.nil_append]

theorem scopedRefs_eq : (Finset.univ.filter fun b : Ref sig .tc => b.isScoped) = ∅ := by decide
theorem scopedSems_eq : (Finset.univ.filter fun sm : SemLoc sig => sm.isScoped .tc) = ∅ := by decide

/-! Every operation touches TensorCore buffers only: stage by stage, by each builder's arity. -/

theorem opsIdx_sub : (opsIdx : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..⟩

theorem opsAgg1_sub : (opsAgg1 : List (HloOp τ sig (Elt F))).Forall fun op => op.bufs ⊆ tcRefs τ sig :=
  ⟨binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub ..⟩

theorem opsLin1_sub : (opsLin1 : List (HloOp τ sig (Elt F))).Forall fun op => op.bufs ⊆ tcRefs τ sig :=
  ⟨binary_bufs_sub .., binary_bufs_sub .., binary_bufs_sub .., unary_bufs_sub .., unary_bufs_sub .., binary_bufs_sub ..⟩

theorem opsMean_sub : (opsMean : List (HloOp τ sig (Elt F))).Forall fun op => op.bufs ⊆ tcRefs τ sig :=
  ⟨nullary_bufs_sub .., binary_bufs_sub .., nullary_bufs_sub .., unary_bufs_sub .., binary_bufs_sub .., nullary_bufs_sub ..⟩

theorem opsVar_sub : (opsVar : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..⟩

theorem opsAct_sub : (opsAct : List (HloOp τ sig (Elt F))).Forall fun op => op.bufs ⊆ tcRefs τ sig :=
  ⟨unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., nullary_bufs_sub .., unary_bufs_sub ..,
    binary_bufs_sub ..⟩

theorem opsAgg2_sub : (opsAgg2 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub ..⟩

theorem opsLin2_sub : (opsLin2 : List (HloOp τ sig (Elt F))).Forall fun op => op.bufs ⊆ tcRefs τ sig :=
  ⟨binary_bufs_sub .., binary_bufs_sub .., binary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h
    exacts [List.forall_iff_forall_mem.mp opsIdx_sub op h, List.forall_iff_forall_mem.mp opsAgg1_sub op h,
      List.forall_iff_forall_mem.mp opsLin1_sub op h, List.forall_iff_forall_mem.mp opsMean_sub op h,
      List.forall_iff_forall_mem.mp opsVar_sub op h, List.forall_iff_forall_mem.mp opsAct_sub op h,
      List.forall_iff_forall_mem.mp opsAgg2_sub op h, List.forall_iff_forall_mem.mp opsLin2_sub op h]

end Cert.ReferenceIdeal.RefValue

end
-- ==== Proof.RefStages.lean ====
/-
  The reference network stage by stage, as whole-array functions built from the very operations the program spells:
  the two rows of the edge list as vectors of words; the source words wrapped into the node range; the sum of gathered
  rows into their target nodes and the floored in-degree; the mean aggregation; the two linear layers; the column mean
  and the column variance (the outlined variance, with its count of degrees of freedom and its guarded division); the
  normalised, scaled, shifted and rectified layer; and the network, their composition.
-/
import proofs.«136065_j25357486915627_2_alg».proof.Proof.Gen.ReferenceIdeal
import Idealize.ShloMosaic.PureOps.Ideal

noncomputable section

namespace Cert.ReferenceIdeal.RefValue

open Cert.ReferenceIdeal Cert.ReferenceIdeal.Gen Idealize.ShloMosaic

variable {F : FTy → Type} [FloatOps F]

/-! ## The edge list -/

/-- Row 0 of the edge list as a vector of words: each edge's source. -/
def srcWords (ei : IVec S2x1600000 32) : IVec S1600000 32 :=
  shapeCast S1600000 (extractStridedSlice S1x1600000 ![0, 0] ei slices_S2x1600000_S1x1600000_0_0) shapeCasts_S1x1600000_S1600000

/-- Row 1 of the edge list as a vector of words: each edge's target. -/
def dstWords (ei : IVec S2x1600000 32) : IVec S1600000 32 :=
  shapeCast S1600000 (extractStridedSlice S1x1600000 ![1, 0] ei slices_S2x1600000_S1x1600000_1_0) shapeCasts_S1x1600000_S1600000

/-- The source words, a negative one moved up by the node count, as a column of index vectors of length one. -/
def wrapCol (r : IVec S1600000 32) : IVec S1600000x1 32 :=
  broadcastInDim S1600000x1 ![0] bcast_S1600000_S1600000x1_0
    (select (cmpi .slt r (broadcastInDim S1600000 ![] bcast_S_S1600000 (constantI S_ 32 0#32)))
      (addi r (broadcastInDim S1600000 ![] bcast_S_S1600000 (constantI S_ 32 100000#32))) r)

/-- The target words as a column of index vectors of length one. -/
def dstCol (c : IVec S1600000 32) : IVec S1600000x1 32 :=
  broadcastInDim S1600000x1 ![0] bcast_S1600000_S1600000x1_0 c

/-! ## The mean aggregation -/

/-- The rows of `f` at the edges' sources, added into the edges' targets, from zero. -/
def sumRows (f : FVec F S100000x128 .f32) (r c : IVec S1600000 32) : FVec F S100000x128 .f32 :=
  Host.scatterAdd scatter_S100000x128_S1600000x1_S1600000x128_1_0_0_1
    (broadcastInDim S100000x128 ![] bcast_S_S100000x128 (constant S_ .f32 0x00000000#32)) (dstCol c)
    (Host.gather gather_S100000x128_S1600000x1_S1600000x128_1_0_n_n_0_1_1128 f (wrapCol r))

/-- The number of edges into each node (ones added into the targets, from zero), floored at one. -/
def degree (c : IVec S1600000 32) : FVec F S100000 .f32 :=
  maximumf
    (Host.scatterAdd scatter_S100000_S1600000x1_S1600000_n_0_0_1
      (broadcastInDim S100000 ![] bcast_S_S100000 (constant S_ .f32 0x00000000#32)) (dstCol c)
      (broadcastInDim S1600000 ![] bcast_S_S1600000 (constant S_ .f32 0x3F800000#32)))
    (broadcastInDim S100000 ![] bcast_S_S100000 (constant S_ .f32 0x3F800000#32))

/-- The summed rows divided by the floored in-degree. -/
def aggStage (f : FVec F S100000x128 .f32) (r c : IVec S1600000 32) : FVec F S100000x128 .f32 :=
  Host.divf (sumRows f r c)
    (broadcastInDim S100000x128 ![0, 1] bcast_S100000x1_S100000x128_0_1
      (broadcastInDim S100000x1 ![0] bcast_S100000_S100000x1_0 (degree (F := F) c)))

/-! ## The linear layers -/

/-- A vector of 128 column values as every row of a 100000 × 128 array. -/
def rowB (v : FVec F S128 .f32) : FVec F S100000x128 .f32 :=
  broadcastInDim S100000x128 ![0, 1] bcast_S1x128_S100000x128_0_1 (broadcastInDim S1x128 ![1] bcast_S128_S1x128_1 v)

/-- `A · Wl + X · Wr + b` into 128 columns. -/
def lin1Stage (A X : FVec F S100000x128 .f32) (Wl Wr : FVec F S128x128 .f32) (b : FVec F S128 .f32) :
    FVec F S100000x128 .f32 :=
  addf (addf (Host.dotGeneral dot_S100000x128_S128x128_S100000x128_1_0_0_1_n_n none A Wl)
      (Host.dotGeneral dot_S100000x128_S128x128_S100000x128_1_0_0_1_n_n none X Wr)) (rowB b)

/-- `A · Wl + X · Wr + b` into 40 columns. -/
def lin2Stage (A X : FVec F S100000x128 .f32) (Wl Wr : FVec F S128x40 .f32) (b : FVec F S40 .f32) :
    FVec F S100000x40 .f32 :=
  addf (addf (Host.dotGeneral dot_S100000x128_S128x40_S100000x40_1_0_0_1_n_n none A Wl)
      (Host.dotGeneral dot_S100000x128_S128x40_S100000x40_1_0_0_1_n_n none X Wr))
    (broadcastInDim S100000x40 ![0, 1] bcast_S1x40_S100000x40_0_1 (broadcastInDim S1x40 ![1] bcast_S40_S1x40_1 b))

/-- The first convolution. -/
def hiddenStage (x : FVec F S100000x128 .f32) (ei : IVec S2x1600000 32) (W1l W1r : FVec F S128x128 .f32)
    (b1 : FVec F S128 .f32) : FVec F S100000x128 .f32 :=
  lin1Stage (aggStage x (srcWords ei) (dstWords ei)) x W1l W1r b1

/-! ## The column statistics -/

/-- The column sums from zero, divided by the node count. -/
def meanStage (h : FVec F S100000x128 .f32) : FVec F S128 .f32 :=
  Host.divf (Host.reduceAdd h (constant S_ .f32 0x00000000#32) reducesTo_S100000x128_S128_d0 h_S_)
    (broadcastInDim S128 ![] bcast_S_S128 (constant S_ .f32 0x47C35000#32))

/-- Each entry's deviation from its column's mean, the mean computed as the variance computes it (kept as one row). -/
def devStage (h : FVec F S100000x128 .f32) : FVec F S100000x128 .f32 :=
  subf h (broadcastInDim S100000x128 ![0, 1] bcast_S1x128_S100000x128_0_1
    (Host.divf
      (broadcastInDim S1x128 ![1] bcast_S128_S1x128_1
        (Host.reduceAdd h (constant S_ .f32 0x00000000#32) reducesTo_S100000x128_S128_d0 h_S_))
      (broadcastInDim S1x128 ![] bcast_S_S1x128 (constant S_ .f32 0x47C35000#32))))

/-- The variance's divisor: the node count less the degrees of freedom given up, here the integer zero converted. -/
def denomStage : FVec F S_ .f32 :=
  subf (constant S_ .f32 0x47C35000#32) (sitofp .f32 (constantI S_ 32 0#32))

/-- The column sums of squared deviations from zero, divided by the divisor where the divisor is positive (else the
    not-a-number word). -/
def varStage (h : FVec F S100000x128 .f32) : FVec F S128 .f32 :=
  select (broadcastInDim S128 ![] bcast_S_S128 (cmpf .ogt (denomStage (F := F)) (constant S_ .f32 0x00000000#32)))
    (Host.divf
      (Host.reduceAdd (mulf (devStage h) (devStage h)) (constant S_ .f32 0x00000000#32) reducesTo_S100000x128_S128_d0 h_S_)
      (broadcastInDim S128 ![] bcast_S_S128 (denomStage (F := F))))
    (broadcastInDim S128 ![] bcast_S_S128 (id (constant S_ .f32 0x7FC00000#32)))

/-! ## Normalise, scale, shift, rectify -/

/-- By given column statistics. -/
def actWithStage (mu va : FVec F S128 .f32) (h : FVec F S100000x128 .f32) (γ β : FVec F S128 .f32) :
    FVec F S100000x128 .f32 :=
  maximumf
    (addf
      (mulf (mulf (rowB γ) (subf h (rowB mu)))
        (rowB (Host.rsqrt (addf va (broadcastInDim S128 ![] bcast_S_S128 (constant S_ .f32 0x3727C5AC#32))))))
      (rowB β))
    (broadcastInDim S100000x128 ![] bcast_S_S100000x128 (constant S_ .f32 0x00000000#32))

/-- By the layer's own column statistics. -/
def actStage (h : FVec F S100000x128 .f32) (γ β : FVec F S128 .f32) : FVec F S100000x128 .f32 :=
  actWithStage (meanStage h) (varStage h) h γ β

/-! ## The network -/

/-- The second convolution of the normalised, rectified first one. -/
def netStage (x : FVec F S100000x128 .f32) (ei : IVec S2x1600000 32) (W1l W1r : FVec F S128x128 .f32)
    (b1 γ β : FVec F S128 .f32) (W2l W2r : FVec F S128x40 .f32) (b2 : FVec F S40 .f32) : FVec F S100000x40 .f32 :=
  lin2Stage (aggStage (actStage (hiddenStage x ei W1l W1r b1) γ β) (srcWords ei) (dstWords ei))
    (actStage (hiddenStage x ei W1l W1r b1) γ β) W2l W2r b2

/-- The reference's result as a function of its ten arguments, on the extended reals. -/
def result (a0 : FVec Ideal S100000x128 .f32) (a1 : IVec S2x1600000 32) (a2 a3 : FVec Ideal S128x128 .f32)
    (a4 a5 a6 : FVec Ideal S128 .f32) (a7 a8 : FVec Ideal S128x40 .f32) (a9 : FVec Ideal S40 .f32) :
    FVec Ideal S100000x40 .f32 :=
  netStage a0 a1 a2 a3 a4 a5 a6 a7 a8 a9

end Cert.ReferenceIdeal.RefValue

end
-- ==== Proof.RefWindows.lean ====
/-
  The reference's buffers after each of the eight stages of its operation list, from any contents `V`: a buffer a
  stage does not write keeps its contents through it, and each buffer a later stage reads holds the stage function
  of the arguments' contents.  At the end the result buffer holds the network of the ten arguments and every argument
  is unchanged.
-/
import proofs.«136065_j25357486915627_2_alg».proof.Proof.RefOps
import proofs.«136065_j25357486915627_2_alg».proof.Proof.RefStages
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- One operation writes one buffer, and that buffer is in the list. -/
local macro "wr" : tactic =>
  `(tactic| (simp only [nullary_writes, unary_writes, binary_writes, ternary_writes, reshape_writes,
      Finset.singleton_subset_iff, List.mem_toFinset]; exact List.mem_map_of_mem (by decide)))

/-! ## What each stage writes -/

/-- The buffers written by the edge words's operations, in order. -/
abbrev opsIdx_W : List (Ref sig .tc) := [main_v0, main_v1, main_v2, main_v3, main_c, main_v4, main_v5, main_c_0, main_v6, main_v7, main_v8, main_v9]
theorem opsIdx_writes : (opsIdx : List (HloOp τ sig (Elt F))).Forall fun op =>
    op.writes ⊆ (opsIdx_W.map (Proc.devRef (τ := τ) .tc)).toFinset := by
  simp only [List.Forall]
  exact ⟨by wr, by wr, by wr, by wr, by wr, by wr, by wr, by wr, by wr, by wr,
    by wr, by wr⟩

/-- The buffers written by the first aggregation's operations, in order. -/
abbrev opsAgg1_W : List (Ref sig .tc) := [main_v10, main_cst, main_v11, main_v12, main_v13, main_cst_1, main_v14, main_cst_2, main_v15, main_v16, main_v17, main_cst_3, main_v18, main_v19, main_v20, main_v21, main_v22]
theorem opsAgg1_writes : (opsAgg1 : List (HloOp τ sig (Elt F))).Forall fun op =>
    op.writes ⊆ (opsAgg1_W.map (Proc.devRef (τ := τ) .tc)).toFinset := by
  simp only [List.Forall]
  exact ⟨by wr, by wr, by wr, by wr, by wr, by wr, by wr, by wr, by wr, by wr,
    by wr, by wr, by wr, by wr, by wr, by wr, by wr⟩

/-- The buffers written by the first linear layer's operations, in order. -/
abbrev opsLin1_W : List (Ref sig .tc) := [main_v23, main_v24, main_v25, main_v26, main_v27, main_v28]
theorem opsLin1_writes : (opsLin1 : List (HloOp τ sig (Elt F))).Forall fun op =>
    op.writes ⊆ (opsLin1_W.map (Proc.devRef (τ := τ) .tc)).toFinset := by
  simp only [List.Forall]
  exact ⟨by wr, by wr, by wr, by wr, by wr, by wr⟩

/-- The buffers written by the column means's operations, in order. -/
abbrev opsMean_W : List (Ref sig .tc) := [main_cst_4, main_v29, main_cst_5, main_v30, main_v31, main_c_6]
theorem opsMean_writes : (opsMean : List (HloOp τ sig (Elt F))).Forall fun op =>
    op.writes ⊆ (opsMean_W.map (Proc.devRef (τ := τ) .tc)).toFinset := by
  simp only [List.Forall]
  exact ⟨by wr, by wr, by wr, by wr, by wr, by wr⟩

/-- The buffers written by the column variances's operations, in order. -/
abbrev opsVar_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v32]
theorem opsVar_writes : (opsVar : List (HloOp τ sig (Elt F))).Forall fun op =>
    op.writes ⊆ (opsVar_W.map (Proc.devRef (τ := τ) .tc)).toFinset := by
  simp only [List.Forall]
  exact ⟨by wr, by wr, by wr, by wr, by wr, by wr, by wr, by wr, by wr, by wr,
    by wr, by wr, by wr, by wr, by wr, by wr, by wr, by wr, by wr, by wr,
    by wr, by wr⟩

/-- The buffers written by the normalised, rectified layer's operations, in order. -/
abbrev opsAct_W : List (Ref sig .tc) := [main_v33, main_v34, main_v35, main_v36, main_v37, main_v38, main_cst_7, main_v39, main_v40, main_v41, main_v42, main_v43, main_v44, main_v45, main_v46, main_v47, main_call1_cst, main_call1_v0, main_v48]
theorem opsAct_writes : (opsAct : List (HloOp τ sig (Elt F))).Forall fun op =>
    op.writes ⊆ (opsAct_W.map (Proc.devRef (τ := τ) .tc)).toFinset := by
  simp only [List.Forall]
  exact ⟨by wr, by wr, by wr, by wr, by wr, by wr, by wr, by wr, by wr, by wr,
    by wr, by wr, by wr, by wr, by wr, by wr, by wr, by wr, by wr⟩

/-- The buffers written by the second aggregation's operations, in order. -/
abbrev opsAgg2_W : List (Ref sig .tc) := [main_c_8, main_v49, main_v50, main_c_9, main_v51, main_v52, main_v53, main_v54, main_v55, main_cst_10, main_v56, main_v57, main_v58, main_cst_11, main_v59, main_cst_12, main_v60, main_v61, main_v62, main_cst_13, main_v63, main_v64, main_v65, main_v66, main_v67]
theorem opsAgg2_writes : (opsAgg2 : List (HloOp τ sig (Elt F))).Forall fun op =>
    op.writes ⊆ (opsAgg2_W.map (Proc.devRef (τ := τ) .tc)).toFinset := by
  simp only [List.Forall]
  exact ⟨by wr, by wr, by wr, by wr, by wr, by wr, by wr, by wr, by wr, by wr,
    by wr, by wr, by wr, by wr, by wr, by wr, by wr, by wr, by wr, by wr,
    by wr, by wr, by wr, by wr, by wr⟩

/-- The buffers written by the second linear layer's operations, in order. -/
abbrev opsLin2_W : List (Ref sig .tc) := [main_v68, main_v69, main_v70, main_v71, main_v72, main_v73]
theorem opsLin2_writes : (opsLin2 : List (HloOp τ sig (Elt F))).Forall fun op =>
    op.writes ⊆ (opsLin2_W.map (Proc.devRef (τ := τ) .tc)).toFinset := by
  simp only [List.Forall]
  exact ⟨by wr, by wr, by wr, by wr, by wr, by wr⟩

/-! ## The contents after each stage -/

/-- The buffers after the edge words. -/
def val1 (V : Valuation τ sig (Elt F)) : Valuation τ sig (Elt F) := after opsIdx V
theorem val1_keep (V : Valuation τ sig (Elt F)) (r : Ref sig .tc) (h : r ∉ opsIdx_W) :
    val1 V (Proc.devRef .tc r) = V (Proc.devRef .tc r) :=
  after_of_writes_sub opsIdx _ opsIdx_writes h

/-- The buffers after the first aggregation. -/
def val2 (V : Valuation τ sig (Elt F)) : Valuation τ sig (Elt F) := after opsAgg1 (val1 V)
theorem val2_keep (V : Valuation τ sig (Elt F)) (r : Ref sig .tc) (h : r ∉ opsAgg1_W) :
    val2 V (Proc.devRef .tc r) = val1 V (Proc.devRef .tc r) :=
  after_of_writes_sub opsAgg1 _ opsAgg1_writes h

/-- The buffers after the first linear layer. -/
def val3 (V : Valuation τ sig (Elt F)) : Valuation τ sig (Elt F) := after opsLin1 (val2 V)
theorem val3_keep (V : Valuation τ sig (Elt F)) (r : Ref sig .tc) (h : r ∉ opsLin1_W) :
    val3 V (Proc.devRef .tc r) = val2 V (Proc.devRef .tc r) :=
  after_of_writes_sub opsLin1 _ opsLin1_writes h

/-- The buffers after the column means. -/
def val4 (V : Valuation τ sig (Elt F)) : Valuation τ sig (Elt F) := after opsMean (val3 V)
theorem val4_keep (V : Valuation τ sig (Elt F)) (r : Ref sig .tc) (h : r ∉ opsMean_W) :
    val4 V (Proc.devRef .tc r) = val3 V (Proc.devRef .tc r) :=
  after_of_writes_sub opsMean _ opsMean_writes h

/-- The buffers after the column variances. -/
def val5 (V : Valuation τ sig (Elt F)) : Valuation τ sig (Elt F) := after opsVar (val4 V)
theorem val5_keep (V : Valuation τ sig (Elt F)) (r : Ref sig .tc) (h : r ∉ opsVar_W) :
    val5 V (Proc.devRef .tc r) = val4 V (Proc.devRef .tc r) :=
  after_of_writes_sub opsVar _ opsVar_writes h

/-- The buffers after the normalised, rectified layer. -/
def val6 (V : Valuation τ sig (Elt F)) : Valuation τ sig (Elt F) := after opsAct (val5 V)
theorem val6_keep (V : Valuation τ sig (Elt F)) (r : Ref sig .tc) (h : r ∉ opsAct_W) :
    val6 V (Proc.devRef .tc r) = val5 V (Proc.devRef .tc r) :=
  after_of_writes_sub opsAct _ opsAct_writes h

/-- The buffers after the second aggregation. -/
def val7 (V : Valuation τ sig (Elt F)) : Valuation τ sig (Elt F) := after opsAgg2 (val6 V)
theorem val7_keep (V : Valuation τ sig (Elt F)) (r : Ref sig .tc) (h : r ∉ opsAgg2_W) :
    val7 V (Proc.devRef .tc r) = val6 V (Proc.devRef .tc r) :=
  after_of_writes_sub opsAgg2 _ opsAgg2_writes h

/-- The buffers after the second linear layer. -/
def val8 (V : Valuation τ sig (Elt F)) : Valuation τ sig (Elt F) := after opsLin2 (val7 V)
theorem val8_keep (V : Valuation τ sig (Elt F)) (r : Ref sig .tc) (h : r ∉ opsLin2_W) :
    val8 V (Proc.devRef .tc r) = val7 V (Proc.devRef .tc r) :=
  after_of_writes_sub opsLin2 _ opsLin2_writes h

theorem after_ops (V : Valuation τ sig (Elt F)) : after ops V = val8 V := by
  simp only [ops, after_append]
  rfl

/-! ## The values the stages hand on

Each lemma unrolls its stage's operations at the buffer read (an operation's result at its own buffer is its function
of its operands' contents, at any other buffer what was there), rewrites the operands by the earlier lemmas, and the
two sides are then the same term. -/

section Values

variable (V : Valuation τ sig (Elt F))

/-! ### After the edge words -/

theorem val1_v1 : val1 V (no_index (Proc.devRef .tc main_v1)) = srcWords (V (Proc.devRef .tc main_arg1)) := by
  unfold val1
  simp only [opsIdx]
  after_results_simp
  rfl

theorem val1_v3 : val1 V (no_index (Proc.devRef .tc main_v3)) = dstWords (V (Proc.devRef .tc main_arg1)) := by
  unfold val1
  simp only [opsIdx]
  after_results_simp
  rfl

theorem val1_v9 : val1 V (no_index (Proc.devRef .tc main_v9)) = wrapCol (srcWords (V (Proc.devRef .tc main_arg1))) := by
  unfold val1
  simp only [opsIdx]
  after_results_simp
  rfl

/-! ### After the first aggregation -/

theorem val2_v1 : val2 V (no_index (Proc.devRef .tc main_v1)) = srcWords (V (Proc.devRef .tc main_arg1)) :=
  (val2_keep V main_v1 (by decide)).trans (val1_v1 V)

theorem val2_v3 : val2 V (no_index (Proc.devRef .tc main_v3)) = dstWords (V (Proc.devRef .tc main_arg1)) :=
  (val2_keep V main_v3 (by decide)).trans (val1_v3 V)

theorem val1_arg0 : val1 V (no_index (Proc.devRef .tc main_arg0)) = V (Proc.devRef .tc main_arg0) :=
  val1_keep V main_arg0 (by decide)

theorem val2_v22 : val2 V (no_index (Proc.devRef .tc main_v22))
    = aggStage (V (Proc.devRef .tc main_arg0)) (srcWords (V (Proc.devRef .tc main_arg1))) (dstWords (V (Proc.devRef .tc main_arg1))) := by
  unfold val2
  simp only [opsAgg1]
  after_results_simp
  simp only [val1_v3, val1_v9, val1_arg0]
  rfl

/-! ### After the first linear layer -/

theorem val2_arg (r : Ref sig .tc) (h1 : r ∉ opsIdx_W) (h2 : r ∉ opsAgg1_W) :
    val2 V (Proc.devRef .tc r) = V (Proc.devRef .tc r) :=
  (val2_keep V r h2).trans (val1_keep V r h1)

theorem val2_arg0 : val2 V (no_index (Proc.devRef .tc main_arg0)) = V (Proc.devRef .tc main_arg0) := val2_arg V main_arg0 (by decide) (by decide)
theorem val2_arg2 : val2 V (no_index (Proc.devRef .tc main_arg2)) = V (Proc.devRef .tc main_arg2) := val2_arg V main_arg2 (by decide) (by decide)
theorem val2_arg3 : val2 V (no_index (Proc.devRef .tc main_arg3)) = V (Proc.devRef .tc main_arg3) := val2_arg V main_arg3 (by decide) (by decide)
theorem val2_arg4 : val2 V (no_index (Proc.devRef .tc main_arg4)) = V (Proc.devRef .tc main_arg4) := val2_arg V main_arg4 (by decide) (by decide)

theorem val3_v28 : val3 V (no_index (Proc.devRef .tc main_v28))
    = hiddenStage (V (Proc.devRef .tc main_arg0)) (V (Proc.devRef .tc main_arg1)) (V (Proc.devRef .tc main_arg2))
        (V (Proc.devRef .tc main_arg3)) (V (Proc.devRef .tc main_arg4)) := by
  unfold val3
  simp only [opsLin1]
  after_results_simp
  simp only [val2_v22, val2_arg0, val2_arg2, val2_arg3, val2_arg4]
  rfl

theorem val3_v1 : val3 V (no_index (Proc.devRef .tc main_v1)) = srcWords (V (Proc.devRef .tc main_arg1)) :=
  (val3_keep V main_v1 (by decide)).trans (val2_v1 V)

theorem val3_v3 : val3 V (no_index (Proc.devRef .tc main_v3)) = dstWords (V (Proc.devRef .tc main_arg1)) :=
  (val3_keep V main_v3 (by decide)).trans (val2_v3 V)

/-! ### After the column means -/

/-- The first convolution of the arguments' contents. -/
abbrev hid : FVec F S100000x128 .f32 :=
  hiddenStage (V (Proc.devRef .tc main_arg0)) (V (Proc.devRef .tc main_arg1)) (V (Proc.devRef .tc main_arg2))
    (V (Proc.devRef .tc main_arg3)) (V (Proc.devRef .tc main_arg4))

theorem val4_v28 : val4 V (no_index (Proc.devRef .tc main_v28)) = hid V :=
  (val4_keep V main_v28 (by decide)).trans (val3_v28 V)

theorem val4_v31 : val4 V (no_index (Proc.devRef .tc main_v31)) = meanStage (hid V) := by
  unfold val4
  simp only [opsMean]
  after_results_simp
  simp only [val3_v28]
  rfl

theorem val4_c6 : val4 V (no_index (Proc.devRef .tc main_c_6)) = constantI S_ 32 0#32 := by
  unfold val4
  simp only [opsMean]
  after_results_simp

theorem val4_v1 : val4 V (no_index (Proc.devRef .tc main_v1)) = srcWords (V (Proc.devRef .tc main_arg1)) :=
  (val4_keep V main_v1 (by decide)).trans (val3_v1 V)

theorem val4_v3 : val4 V (no_index (Proc.devRef .tc main_v3)) = dstWords (V (Proc.devRef .tc main_arg1)) :=
  (val4_keep V main_v3 (by decide)).trans (val3_v3 V)

/-! ### After the column variances -/

theorem val5_v32 : val5 V (no_index (Proc.devRef .tc main_v32)) = varStage (hid V) := by
  unfold val5
  simp only [opsVar]
  after_results_simp
  simp only [val4_v28, val4_c6]
  rfl

theorem val5_v28 : val5 V (no_index (Proc.devRef .tc main_v28)) = hid V :=
  (val5_keep V main_v28 (by decide)).trans (val4_v28 V)

theorem val5_v31 : val5 V (no_index (Proc.devRef .tc main_v31)) = meanStage (hid V) :=
  (val5_keep V main_v31 (by decide)).trans (val4_v31 V)

theorem val5_v1 : val5 V (no_index (Proc.devRef .tc main_v1)) = srcWords (V (Proc.devRef .tc main_arg1)) :=
  (val5_keep V main_v1 (by decide)).trans (val4_v1 V)

theorem val5_v3 : val5 V (no_index (Proc.devRef .tc main_v3)) = dstWords (V (Proc.devRef .tc main_arg1)) :=
  (val5_keep V main_v3 (by decide)).trans (val4_v3 V)

theorem val5_arg (r : Ref sig .tc) (h1 : r ∉ opsIdx_W) (h2 : r ∉ opsAgg1_W) (h3 : r ∉ opsLin1_W) (h4 : r ∉ opsMean_W)
    (h5 : r ∉ opsVar_W) : val5 V (Proc.devRef .tc r) = V (Proc.devRef .tc r) :=
  (val5_keep V r h5).trans ((val4_keep V r h4).trans ((val3_keep V r h3).trans (val2_arg V r h1 h2)))

theorem val5_arg5 : val5 V (no_index (Proc.devRef .tc main_arg5)) = V (Proc.devRef .tc main_arg5) :=
  val5_arg V main_arg5 (by decide) (by decide) (by decide) (by decide) (by decide)
theorem val5_arg6 : val5 V (no_index (Proc.devRef .tc main_arg6)) = V (Proc.devRef .tc main_arg6) :=
  val5_arg V main_arg6 (by decide) (by decide) (by decide) (by decide) (by decide)

/-! ### After the normalised, rectified layer -/

/-- The normalised, rectified first convolution of the arguments' contents. -/
abbrev hidAct : FVec F S100000x128 .f32 :=
  actStage (hid V) (V (Proc.devRef .tc main_arg5)) (V (Proc.devRef .tc main_arg6))

theorem val6_v48 : val6 V (no_index (Proc.devRef .tc main_v48)) = hidAct V := by
  unfold val6
  simp only [opsAct]
  after_results_simp
  simp only [val5_v28, val5_v31, val5_v32, val5_arg5, val5_arg6]
  rfl

theorem val6_v1 : val6 V (no_index (Proc.devRef .tc main_v1)) = srcWords (V (Proc.devRef .tc main_arg1)) :=
  (val6_keep V main_v1 (by decide)).trans (val5_v1 V)

theorem val6_v3 : val6 V (no_index (Proc.devRef .tc main_v3)) = dstWords (V (Proc.devRef .tc main_arg1)) :=
  (val6_keep V main_v3 (by decide)).trans (val5_v3 V)

/-! ### After the second aggregation -/

theorem val7_v67 : val7 V (no_index (Proc.devRef .tc main_v67))
    = aggStage (hidAct V) (srcWords (V (Proc.devRef .tc main_arg1))) (dstWords (V (Proc.devRef .tc main_arg1))) := by
  unfold val7
  simp only [opsAgg2]
  after_results_simp
  simp only [val6_v48, val6_v1, val6_v3]
  rfl

theorem val7_v48 : val7 V (no_index (Proc.devRef .tc main_v48)) = hidAct V :=
  (val7_keep V main_v48 (by decide)).trans (val6_v48 V)

theorem val7_arg (r : Ref sig .tc) (h1 : r ∉ opsIdx_W) (h2 : r ∉ opsAgg1_W) (h3 : r ∉ opsLin1_W) (h4 : r ∉ opsMean_W)
    (h5 : r ∉ opsVar_W) (h6 : r ∉ opsAct_W) (h7 : r ∉ opsAgg2_W) : val7 V (Proc.devRef .tc r) = V (Proc.devRef .tc r) :=
  (val7_keep V r h7).trans ((val6_keep V r h6).trans (val5_arg V r h1 h2 h3 h4 h5))

theorem val7_arg7 : val7 V (no_index (Proc.devRef .tc main_arg7)) = V (Proc.devRef .tc main_arg7) :=
  val7_arg V main_arg7 (by decide) (by decide) (by decide) (by decide) (by decide) (by decide) (by decide)
theorem val7_arg8 : val7 V (no_index (Proc.devRef .tc main_arg8)) = V (Proc.devRef .tc main_arg8) :=
  val7_arg V main_arg8 (by decide) (by decide) (by decide) (by decide) (by decide) (by decide) (by decide)
theorem val7_arg9 : val7 V (no_index (Proc.devRef .tc main_arg9)) = V (Proc.devRef .tc main_arg9) :=
  val7_arg V main_arg9 (by decide) (by decide) (by decide) (by decide) (by decide) (by decide) (by decide)

/-! ### After the second linear layer -/

theorem val8_v73 : val8 V (no_index (Proc.devRef .tc main_v73))
    = netStage (V (Proc.devRef .tc main_arg0)) (V (Proc.devRef .tc main_arg1)) (V (Proc.devRef .tc main_arg2))
        (V (Proc.devRef .tc main_arg3)) (V (Proc.devRef .tc main_arg4)) (V (Proc.devRef .tc main_arg5))
        (V (Proc.devRef .tc main_arg6)) (V (Proc.devRef .tc main_arg7)) (V (Proc.devRef .tc main_arg8))
        (V (Proc.devRef .tc main_arg9)) := by
  unfold val8
  simp only [opsLin2]
  after_results_simp
  simp only [val7_v67, val7_v48, val7_arg7, val7_arg8, val7_arg9]
  rfl

/-- An argument, written by no stage, is unchanged at the end. -/
theorem val8_arg (r : Ref sig .tc) (h1 : r ∉ opsIdx_W) (h2 : r ∉ opsAgg1_W) (h3 : r ∉ opsLin1_W) (h4 : r ∉ opsMean_W)
    (h5 : r ∉ opsVar_W) (h6 : r ∉ opsAct_W) (h7 : r ∉ opsAgg2_W) (h8 : r ∉ opsLin2_W) :
    val8 V (Proc.devRef .tc r) = V (Proc.devRef .tc r) :=
  (val8_keep V r h8).trans (val7_arg V r h1 h2 h3 h4 h5 h6 h7)

end Values

end Cert.ReferenceIdeal.RefValue

end
-- ==== Proof.RefRun.lean ====
/-
  The reference's run: on every device, from any memory with zero counters, every weakly fair execution of @main
  terminates with the result buffer at the network of the ten argument buffers' launch contents, and every argument
  buffer unchanged.  With the result dropped it is the reference's frame claim.
-/
import proofs.«136065_j25357486915627_2_alg».proof.Proof.RefWindows
import proofs.«136065_j25357486915627_2_alg».proof.Defs

noncomputable section

namespace Cert.ReferenceIdeal.RefValue

open Cert.ReferenceIdeal Cert.ReferenceIdeal.Gen Idealize.ShloMosaic Idealize.ShloMosaic.TcCoe Idealize.SL.Sem Idealize.ShloMosaic.StableHlo

set_option maxRecDepth 8192 in
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v73) = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v73).trans (by rw [after_ops]; exact val8_v73 (launchContents m c)),
      (h c main_arg0).trans (by rw [after_ops]; exact val8_arg (launchContents m c) main_arg0 (by decide) (by decide) (by decide) (by decide) (by decide) (by decide) (by decide) (by decide)),
      (h c main_arg1).trans (by rw [after_ops]; exact val8_arg (launchContents m c) main_arg1 (by decide) (by decide) (by decide) (by decide) (by decide) (by decide) (by decide) (by decide)),
      (h c main_arg2).trans (by rw [after_ops]; exact val8_arg (launchContents m c) main_arg2 (by decide) (by decide) (by decide) (by decide) (by decide) (by decide) (by decide) (by decide)),
      (h c main_arg3).trans (by rw [after_ops]; exact val8_arg (launchContents m c) main_arg3 (by decide) (by decide) (by decide) (by decide) (by decide) (by decide) (by decide) (by decide)),
      (h c main_arg4).trans (by rw [after_ops]; exact val8_arg (launchContents m c) main_arg4 (by decide) (by decide) (by decide) (by decide) (by decide) (by decide) (by decide) (by decide)),
      (h c main_arg5).trans (by rw [after_ops]; exact val8_arg (launchContents m c) main_arg5 (by decide) (by decide) (by decide) (by decide) (by decide) (by decide) (by decide) (by decide)),
      (h c main_arg6).trans (by rw [after_ops]; exact val8_arg (launchContents m c) main_arg6 (by decide) (by decide) (by decide) (by decide) (by decide) (by decide) (by decide) (by decide)),
      (h c main_arg7).trans (by rw [after_ops]; exact val8_arg (launchContents m c) main_arg7 (by decide) (by decide) (by decide) (by decide) (by decide) (by decide) (by decide) (by decide)),
      (h c main_arg8).trans (by rw [after_ops]; exact val8_arg (launchContents m c) main_arg8 (by decide) (by decide) (by decide) (by decide) (by decide) (by decide) (by decide) (by decide)),
      (h c main_arg9).trans (by rw [after_ops]; exact val8_arg (launchContents m c) main_arg9 (by decide) (by decide) (by decide) (by decide) (by decide) (by decide) (by decide) (by decide))⟩)
    (run_seq scopedRefs_eq scopedSems_eq defs main (fun _ => ops) main_eq (fun _ => ops_sub) m ρ)

/-- The reference's frame claim: the run, its result dropped. -/
theorem frame_ri [hReferenceIdeal : Cert.ReferenceIdeal.Facts] [hPre_finite_inputs : Cert.Pre_finite_inputs.Facts] :
    Cert.frame_ReferenceIdeal :=
  fun m ρ _ => (θ_run Cert.ReferenceIdeal.defs _ _).mono (fun _ h c => (h c).2) (run m ρ)

end Cert.ReferenceIdeal.RefValue

end
-- ==== Proof.RefReadIdx.lean ====
/-
  The edge words read at an index: row 0 and row 1 of the edge list as vectors; the source words wrapped, as a column;
  the target words as a column.  They are the specification's `wrap`, and the words its `src` and `into` read.
-/
import proofs.«136065_j25357486915627_2_alg».proof.Proof.RefStages
import proofs.«136065_j25357486915627_2_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Idealize.ShloMosaic Idealize.ShloMosaic.ValueIdx

/-- A rank-2 index is `ix2` of its coordinates taken at the literal extents. -/
theorem idx2_eq {a b : ℕ} (i : (⟨2, ![a, b]⟩ : Shape).Idx) :
    i = ix2 (⟨(i 0).val, idx2_lt0 i⟩ : Fin a) (⟨(i 1).val, idx2_lt1 i⟩ : Fin b) := by
  funext d; match d with | ⟨0, _⟩ => rfl | ⟨1, _⟩ => rfl

/-- The host's quotient and reciprocal square root are pointwise, on the extended reals. -/
theorem hostDivf_apply {s : Shape} {φ : FTy} (a b : FVec Ideal s φ) (i : s.Idx) :
    Host.divf a b i = Ideal.div (a i) (b i) := rfl

/-- The host's quotient of two arrays read at an entry, from the arrays' readings there. -/
theorem hostDivf_read {s : Shape} {φ : FTy} (A B : FVec Ideal s φ) (i : s.Idx) (sA sB : EReal)
    (hA : A i = sA) (hB : B i = sB) : Host.divf A B i = Ideal.div sA sB := by
  rw [← hA, ← hB]; rfl

/-- A selection read at an entry where the condition holds. -/
theorem select_read {s : Shape} {α : Type} (c : IVec s 1) (a b : s.Idx → α) (i : s.Idx) (x : α)
    (hc : c i = 1#1) (ha : a i = x) : select c a b i = x := by
  rw [select_apply, hc, select_one, ha]

theorem hostRsqrt_apply {s : Shape} {φ : FTy} (a : FVec Ideal s φ) (i : s.Idx) :
    Host.rsqrt a i = Ideal.rsqrt (a i) := rfl

/-- Row `r` of the edge list, cut out and flattened, read at edge `k`. -/
theorem rowWords_apply (ei : IVec S2x1600000 32) (r : Fin 2) (hs : S2x1600000.Slices ![r.val, 0] S1x1600000)
    (hc : S1x1600000.ShapeCasts S1600000) (k : Fin 1600000) :
    shapeCast S1600000 (extractStridedSlice S1x1600000 ![r.val, 0] ei hs) hc (ix1 k) = ei (ix2 r k) := by
  refine (shapeCast_apply _ hc (ix1 k) (ix2 (0 : Fin 1) k) ?_).trans ?_
  · rw [Shape.rowMajor_val_one, Shape.rowMajor_val_two]
    show 0 * 1600000 + k.val = k.val
    omega
  · refine extractStridedSlice_apply _ ei hs (ix2 (0 : Fin 1) k) (ix2 r k) fun a => ?_
    match a with
    | ⟨0, _⟩ => show r.val = r.val + 0; omega
    | ⟨1, _⟩ => show k.val = 0 + k.val; omega

theorem srcWords_apply (ei : IVec S2x1600000 32) (k : Fin 1600000) :
    srcWords ei (ix1 k) = ei (ix2 (0 : Fin 2) k) :=
  rowWords_apply ei 0 slices_S2x1600000_S1x1600000_0_0 shapeCasts_S1x1600000_S1600000 k

theorem dstWords_apply (ei : IVec S2x1600000 32) (k : Fin 1600000) :
    dstWords ei (ix1 k) = ei (ix2 (1 : Fin 2) k) :=
  rowWords_apply ei 1 slices_S2x1600000_S1x1600000_1_0 shapeCasts_S1x1600000_S1600000 k

/-- A vector of edge words as a column, read at `(k, 0)`. -/
theorem col_apply {α : Type} (v : S1600000.Idx → α) (h : S1600000.BroadcastsInDim S1600000x1 ![0]) (k : Fin 1600000) :
    broadcastInDim S1600000x1 ![0] h v (ix2 k (0 : Fin 1)) = v (ix1 k) :=
  broadcastInDim_apply ![0] h v (ix2 k (0 : Fin 1)) (ix1 k) fun a => by
    match a with
    | ⟨0, _⟩ =>
      show k.val = if (1600000 : ℕ) = 1 then 0 else k.val
      rw [if_neg (by decide)]

theorem dstCol_apply (c : IVec S1600000 32) (k : Fin 1600000) : dstCol c (ix2 k (0 : Fin 1)) = c (ix1 k) :=
  col_apply c _ k

/-- The wrapped source column at edge `k` is the specification's `wrap` of the source word. -/
theorem wrapCol_apply (r : IVec S1600000 32) (k : Fin 1600000) :
    wrapCol r (ix2 k (0 : Fin 1)) = GraphConv.wrap (r (ix1 k)) :=
  (col_apply _ _ k).trans rfl

end Cert.ReferenceIdeal.RefValue

end
-- ==== Proof.LibGatherScatter.lean ====
/-
  Reading a host gather and a host accumulating scatter at an index, for the two index layouts that `x[idx]` and
  `segment_sum` lower to when the operand is a flat array [N] or a column [N, 1] and the indices are a column [E, 1].

  * A gather along axis 0 reads the operand at the start index, taken as a signed integer and clamped into [0, N - 1].
  * An accumulating scatter at the exact (ideal) instance leaves at element `i` the old element plus the sum of the
    updates whose index word, read as a signed integer and NOT clamped, is exactly `i`; an update whose index falls
    outside [0, N) lands nowhere.
  * A sum over a concatenated range [0, E + N) splits as the sum over [0, E) plus the sum over the shifted [0, N).
-/
import Idealize.ShloMosaic.PureOps.Ideal
import Idealize.ShloMosaic.Lib.ValueIdx
import Idealize.ShloMosaic.Lib.Pipeline.Value

noncomputable section

open scoped BigOperators

namespace Idealize.ShloMosaic.GatherScatterIdx

open Idealize.ShloMosaic Idealize.ShloMosaic.ValueIdx

/-! ## Rank-1 index sets and sums over them -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over a column index set [n, 1] is the sum over the row coordinate. -/
theorem sum_idxCol {M : Type*} [AddCommMonoid M] {n : Nat} (f : (⟨2, ![n, 1]⟩ : Shape).Idx → M) :
    ∑ i, f i = ∑ a : Fin n, f (ix2 a (0 : Fin 1)) := by
  rw [sum_idx2]
  refine Finset.sum_congr rfl fun a _ => ?_
  exact Fin.sum_univ_one _

/-- A sum over [0, T) with T = E + N is the sum over [0, E) plus the sum over E + [0, N). -/
theorem sum_fin_split {M : Type*} [AddCommMonoid M] {E N T : Nat} (hT : E + N = T) (f : Fin T → M) :
    ∑ t, f t = (∑ e : Fin E, f ⟨e.val, by omega⟩) + ∑ n : Fin N, f ⟨E + n.val, by omega⟩ := by
  subst hT
  rw [Fin.sum_univ_add]
  rfl

/-! ## The gather of a flat array at a column of indices -/

section Gather
variable {α : Type}

/-- The dimension numbers of `x[idx]` for `x : [N]`, `idx : [E, 1]`, result `[E]`. -/
abbrev rowGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Element `e` of the gather is the operand at index word `idx[e, 0]`, read signed and clamped into [0, N - 1]. -/
theorem gather_row_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (j : (⟨1, ![E]⟩ : Shape).Idx) :
    Host.gather (rowGather N E wf) x idx j
      = x (ix1 ⟨min (idx (ix2 (j 0) (0 : Fin 1))).toInt.toNat (N - 1), by omega⟩) := by
  unfold Host.gather
  congr 1
  funext a
  obtain rfl : a = 0 := Subsingleton.elim _ _
  refine Fin.ext ?_
  show (rowGather N E wf).start j idx 0 + (rowGather N E wf).batchCoord j 0 + (rowGather N E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rowGather N E wf).startIndexMap from List.mem_singleton.mpr rfl)]
  have hsi : (rowGather N E wf).siIdx j ⟨List.idxOf (0 : Fin 1) (rowGather N E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The dimension numbers of `x[idx]` for a column `x : [N, 1]`, `idx : [E, 1]`, result `[E, 1]`. -/
abbrev colGather (N E : Nat) (wf : GatherDims.WF ⟨2, ![N, 1]⟩ ⟨2, ![E, 1]⟩ ⟨2, ![E, 1]⟩ [1] [0] [] [0] [] 1 ![1, 1]) :
    GatherDims ⟨2, ![N, 1]⟩ ⟨2, ![E, 1]⟩ ⟨2, ![E, 1]⟩ where
  offsetDims := [1]
  collapsedSliceDims := [0]
  operandBatchingDims := []
  startIndicesBatchingDims := []
  startIndexMap := [0]
  indexVectorDim := 1
  sliceSizes := ![1, 1]
  wf := wf

/-- Row `e` of the gathered column is the operand's row at index word `idx[e, 0]`, read signed and clamped. -/
theorem gather_col_apply {N E w : Nat} (hN : 0 < N)
    (wf : GatherDims.WF ⟨2, ![N, 1]⟩ ⟨2, ![E, 1]⟩ ⟨2, ![E, 1]⟩ [1] [0] [] [0] [] 1 ![1, 1])
    (x : (⟨2, ![N, 1]⟩ : Shape).Idx → α) (idx : IVec ⟨2, ![E, 1]⟩ w) (j : (⟨2, ![E, 1]⟩ : Shape).Idx) :
    Host.gather (colGather N E wf) x idx j
      = x (ix2 (⟨min (idx (ix2 (j 0) (0 : Fin 1))).toInt.toNat (N - 1), by omega⟩ : Fin N) (0 : Fin 1)) := by
  unfold Host.gather
  congr 1
  funext a
  match a with
  | ⟨0, _⟩ =>
    refine Fin.ext ?_
    show (colGather N E wf).start j idx 0 + (colGather N E wf).batchCoord j 0 + (colGather N E wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (colGather N E wf).startIndexMap from List.mem_singleton.mpr rfl)]
    have hsi : (colGather N E wf).siIdx j ⟨List.idxOf (0 : Fin 2) (colGather N E wf).startIndexMap,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  | ⟨1, _⟩ =>
    show (_ : Fin 1) = _
    exact Subsingleton.elim _ _

end Gather

/-! ## The accumulating scatter into a flat array, and into a column, at a column of indices -/

section Scatter

/-- The dimension numbers of `segment_sum` into `x : [N]` at `idx : [E, 1]` with updates `[E]`. -/
abbrev rowScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on element `i` exactly when its index word, read signed, is `i`. -/
theorem resultIdx_row_iff {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) (i : (⟨1, ![N]⟩ : Shape).Idx) :
    (rowScatter N E wf).resultIdx? j idx = some i ↔ (idx (ix2 (j 0) (0 : Fin 1))).toInt = ((i 0).val : Int) := by
  have hst : ∀ a, (rowScatter N E wf).start j idx a + ((rowScatter N E wf).window j a : Int)
      = (idx (ix2 (j 0) (0 : Fin 1))).toInt := by
    intro a
    obtain rfl : a = 0 := Subsingleton.elim _ _
    have hw : (rowScatter N E wf).window j 0 = 0 := by
      unfold ScatterDims.window
      rw [dif_neg (by simp [ScatterDims.sKept, Shape.kept])]
    have hs : (rowScatter N E wf).start j idx 0 = (idx (ix2 (j 0) (0 : Fin 1))).toInt := by
      unfold ScatterDims.start
      rw [dif_pos (show (0 : Fin 1) ∈ (rowScatter N E wf).scatterDimsToOperandDims from List.mem_singleton.mpr rfl)]
      have hsi : (rowScatter N E wf).siIdx j ⟨List.idxOf (0 : Fin 1) (rowScatter N E wf).scatterDimsToOperandDims,
          List.idxOf_lt_length_iff.2 (List.mem_singleton.mpr rfl)⟩ = ix2 (j 0) (0 : Fin 1) := by
        funext b; refine Fin.ext ?_
        match b with
        | ⟨0, _⟩ => rfl
        | ⟨1, _⟩ => rfl
      rw [hsi]
      rfl
    rw [hw, hs]; simp
  unfold ScatterDims.resultIdx?
  by_cases h : ∀ a, 0 ≤ (rowScatter N E wf).start j idx a + ((rowScatter N E wf).window j a : Int) ∧
      (rowScatter N E wf).start j idx a + ((rowScatter N E wf).window j a : Int) < ((⟨1, ![N]⟩ : Shape).size a : Int)
  · rw [dif_pos h]
    constructor
    · intro e
      have e0 : ((rowScatter N E wf).start j idx 0 + ((rowScatter N E wf).window j 0 : Int)).toNat = (i 0).val :=
        congrArg (fun f : (⟨1, ![N]⟩ : Shape).Idx => (f 0).val) (Option.some.inj e)
      have h0 := (h 0).1
      rw [hst 0] at e0 h0
      omega
    · intro e
      refine congrArg some ?_
      funext a
      obtain rfl : a = 0 := Subsingleton.elim _ _
      refine Fin.ext ?_
      show ((rowScatter N E wf).start j idx 0 + ((rowScatter N E wf).window j 0 : Int)).toNat = (i 0).val
      rw [hst 0, e]; simp
  · rw [dif_neg h]
    constructor
    · intro e; cases e
    · intro e
      exfalso; apply h
      intro a
      rw [hst a, e]
      obtain rfl : a = 0 := Subsingleton.elim _ _
      exact ⟨by positivity, by exact_mod_cast (i 0).isLt⟩

/-- At the exact instance element `i` of the scatter is the old element plus the sum of the updates whose index word
    is `i`. -/
theorem scatterAdd_row_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32)
    (i : (⟨1, ![N]⟩ : Shape).Idx) :
    Host.scatterAdd (F := Ideal) (rowScatter N E wf) x idx upd i
      = x i + ∑ e : Fin E, if (idx (ix2 e (0 : Fin 1))).toInt = ((i 0).val : Int) then upd (ix1 e) else 0 := by
  show x i + ∑ j ∈ Finset.univ.filter (fun j => (rowScatter N E wf).resultIdx? j idx = some i), upd j = _
  refine congrArg (x i + ·) ?_
  rw [Finset.sum_filter, sum_idx1]
  refine Finset.sum_congr rfl fun e _ => ?_
  exact if_congr (resultIdx_row_iff wf (ix1 e) idx i) rfl rfl

/-- The dimension numbers of `segment_sum` into a column `x : [N, 1]` at `idx : [E, 1]` with updates `[E, 1]`. -/
abbrev colScatter (N E : Nat) (wf : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ where
  updateWindowDims := [1]
  insertedWindowDims := [0]
  scatterDimsToOperandDims := [0]
  indexVectorDim := 1
  wf := wf

/-- Update row `e` lands on row `i` exactly when its index word, read signed, is `i`. -/
theorem resultIdx_col_iff {N E w : Nat} (wf : ScatterDims.WF ⟨2, ![N, 1]⟩ ⟨2, ![E, 1]⟩ ⟨2, ![E, 1]⟩ [1] [0] [0] 1)
    (j : (⟨2, ![E, 1]⟩ : Shape).Idx) (idx : IVec ⟨2, ![E, 1]⟩ w) (i : (⟨2, ![N, 1]⟩ : Shape).Idx) :
    (colScatter N E wf).resultIdx? j idx = some i ↔ (idx (ix2 (j 0) (0 : Fin 1))).toInt = ((i 0).val : Int) := by
  have hst0 : (colScatter N E wf).start j idx 0 + ((colScatter N E wf).window j 0 : Int)
      = (idx (ix2 (j 0) (0 : Fin 1))).toInt := by
    have hw : (colScatter N E wf).window j 0 = 0 := by
      unfold ScatterDims.window
      rw [dif_neg (by simp [ScatterDims.sKept, Shape.kept])]
    have hs : (colScatter N E wf).start j idx 0 = (idx (ix2 (j 0) (0 : Fin 1))).toInt := by
      unfold ScatterDims.start
      rw [dif_pos (show (0 : Fin 2) ∈ (colScatter N E wf).scatterDimsToOperandDims from List.mem_singleton.mpr rfl)]
      have hsi : (colScatter N E wf).siIdx j ⟨List.idxOf (0 : Fin 2) (colScatter N E wf).scatterDimsToOperandDims,
          List.idxOf_lt_length_iff.2 (List.mem_singleton.mpr rfl)⟩ = ix2 (j 0) (0 : Fin 1) := by
        funext b; refine Fin.ext ?_
        match b with
        | ⟨0, _⟩ => rfl
        | ⟨1, _⟩ => rfl
      rw [hsi]
      rfl
    rw [hw, hs]; simp
  have hst1 : (colScatter N E wf).start j idx 1 + ((colScatter N E wf).window j 1 : Int) = 0 := by
    have hw : (colScatter N E wf).window j 1 = 0 := by
      unfold ScatterDims.window
      rw [dif_pos (by simp [ScatterDims.sKept, Shape.kept])]
      have := (j 1).isLt
      show (j 1).val = 0
      have h1 : (j 1).val < 1 := this
      omega
    have hs : (colScatter N E wf).start j idx 1 = 0 := by
      unfold ScatterDims.start
      rw [dif_neg (fun h => absurd (congrArg Fin.val (List.mem_singleton.mp h)) (by simp))]
    rw [hw, hs]; simp
  have hi1 : (i 1).val = 0 := by
    have h1 : (i 1).val < 1 := (i 1).isLt
    omega
  unfold ScatterDims.resultIdx?
  by_cases h : ∀ a, 0 ≤ (colScatter N E wf).start j idx a + ((colScatter N E wf).window j a : Int) ∧
      (colScatter N E wf).start j idx a + ((colScatter N E wf).window j a : Int) < ((⟨2, ![N, 1]⟩ : Shape).size a : Int)
  · rw [dif_pos h]
    constructor
    · intro e
      have e0 : ((colScatter N E wf).start j idx 0 + ((colScatter N E wf).window j 0 : Int)).toNat = (i 0).val :=
        congrArg (fun f : (⟨2, ![N, 1]⟩ : Shape).Idx => (f 0).val) (Option.some.inj e)
      have h0 := (h 0).1
      rw [hst0] at e0 h0
      omega
    · intro e
      refine congrArg some ?_
      funext a
      refine Fin.ext ?_
      match a with
      | ⟨0, _⟩ =>
        show ((colScatter N E wf).start j idx 0 + ((colScatter N E wf).window j 0 : Int)).toNat = (i 0).val
        rw [hst0, e]; simp
      | ⟨1, _⟩ =>
        show ((colScatter N E wf).start j idx 1 + ((colScatter N E wf).window j 1 : Int)).toNat = (i 1).val
        rw [hst1, hi1]; rfl
  · rw [dif_neg h]
    constructor
    · intro e; cases e
    · intro e
      exfalso; apply h
      intro a
      match a with
      | ⟨0, _⟩ =>
        show 0 ≤ (colScatter N E wf).start j idx 0 + ((colScatter N E wf).window j 0 : Int) ∧
          (colScatter N E wf).start j idx 0 + ((colScatter N E wf).window j 0 : Int) < ((⟨2, ![N, 1]⟩ : Shape).size 0 : Int)
        rw [hst0, e]
        exact ⟨by positivity, by exact_mod_cast (i 0).isLt⟩
      | ⟨1, _⟩ =>
        show 0 ≤ (colScatter N E wf).start j idx 1 + ((colScatter N E wf).window j 1 : Int) ∧
          (colScatter N E wf).start j idx 1 + ((colScatter N E wf).window j 1 : Int) < ((⟨2, ![N, 1]⟩ : Shape).size 1 : Int)
        rw [hst1]
        exact ⟨le_refl _, Int.natCast_pos.mpr Nat.one_pos⟩

/-- At the exact instance row `i` of the scattered column is the old row plus the sum of the update rows whose index
    word is `i`. -/
theorem scatterAdd_col_apply {N E w : Nat} (wf : ScatterDims.WF ⟨2, ![N, 1]⟩ ⟨2, ![E, 1]⟩ ⟨2, ![E, 1]⟩ [1] [0] [0] 1)
    (x : FVec Ideal ⟨2, ![N, 1]⟩ .f32) (idx : IVec ⟨2, ![E, 1]⟩ w) (upd : FVec Ideal ⟨2, ![E, 1]⟩ .f32)
    (i : (⟨2, ![N, 1]⟩ : Shape).Idx) :
    Host.scatterAdd (F := Ideal) (colScatter N E wf) x idx upd i
      = x i + ∑ e : Fin E, if (idx (ix2 e (0 : Fin 1))).toInt = ((i 0).val : Int) then upd (ix2 e (0 : Fin 1)) else 0 := by
  show x i + ∑ j ∈ Finset.univ.filter (fun j => (colScatter N E wf).resultIdx? j idx = some i), upd j = _
  refine congrArg (x i + ·) ?_
  rw [Finset.sum_filter, sum_idxCol]
  refine Finset.sum_congr rfl fun e _ => ?_
  exact if_congr (resultIdx_col_iff wf (ix2 e (0 : Fin 1)) idx i) rfl rfl

end Scatter

end Idealize.ShloMosaic.GatherScatterIdx

end
-- ==== Proof.RefReadAgg.lean ====
/-
  The mean aggregation read at an index: the gathered rows are the table's rows at the clamped, wrapped sources; the
  scatter-add from zero sums them over the edges into the node; ones added the same way count those edges; and the
  quotient by the floored count is the specification's `agg`.
-/
import proofs.«136065_j25357486915627_2_alg».proof.Proof.RefReadIdx
import proofs.«136065_j25357486915627_2_alg».proof.Proof.LibGatherTable
import proofs.«136065_j25357486915627_2_alg».proof.Proof.LibScatterRows
import proofs.«136065_j25357486915627_2_alg».proof.Proof.LibGatherScatter

noncomputable section

open scoped BigOperators

namespace Cert.ReferenceIdeal.RefValue

open Cert.ReferenceIdeal Cert.ReferenceIdeal.Gen Idealize.ShloMosaic Idealize.ShloMosaic.ValueIdx

/-- The gathered rows at `(e, c)`: the table at the clamped, wrapped source of edge `e`. -/
theorem gathered_apply (f : FVec Ideal S100000x128 .f32) (r : IVec S1600000 32) (e : Fin 1600000) (c : Fin 128) :
    Host.gather gather_S100000x128_S1600000x1_S1600000x128_1_0_n_n_0_1_1128 f (wrapCol r) (ix2 e c)
      = f (ix2 (GraphConv.clampNode (GraphConv.wrap (r (ix1 e)))) c) := by
  refine (GatherTable.gather_rows_apply (N := 100000) (C := 128) (E := 1600000) (by decide)
    gather_S100000x128_S1600000x1_S1600000x128_1_0_n_n_0_1_1128_wf f (wrapCol r) e c).trans ?_
  rw [wrapCol_apply]
  rfl

/-- The row scatter-add of the gathered rows from zero at `(n, c)`, as the sum over the update rows whose target word
    names `n`. -/
theorem sumRows_raw (f : FVec Ideal S100000x128 .f32) (ei : IVec S2x1600000 32) (n : Fin 100000) (c : Fin 128) :
    sumRows f (srcWords ei) (dstWords ei) (ix2 n c)
      = (broadcastInDim S100000x128 ![] bcast_S_S100000x128 (constant (F := Ideal) S_ .f32 0x00000000#32)) (ix2 n c)
        + ∑ e ∈ Finset.univ.filter (fun e : Fin 1600000 => (dstCol (dstWords ei) (ix2 e (0 : Fin 1))).toInt = (n.val : ℤ)),
            (Host.gather gather_S100000x128_S1600000x1_S1600000x128_1_0_n_n_0_1_1128 f (wrapCol (srcWords ei))) (ix2 e c) :=
  ScatterRows.scatterAdd_rows_apply (N := 100000) (C := 128) (E := 1600000)
    scatter_S100000x128_S1600000x1_S1600000x128_1_0_0_1_wf (broadcastInDim S100000x128 ![] bcast_S_S100000x128 (constant (F := Ideal) S_ .f32 0x00000000#32)) (dstCol (dstWords ei)) (Host.gather gather_S100000x128_S1600000x1_S1600000x128_1_0_n_n_0_1_1128 f (wrapCol (srcWords ei))) n c

/-- The update rows whose target word names `n` are the edges into `n`. -/
theorem into_eq (ei : IVec S2x1600000 32) (n : Fin 100000) :
    (Finset.univ.filter fun e : Fin 1600000 => (dstCol (dstWords ei) (ix2 e (0 : Fin 1))).toInt = (n.val : ℤ))
      = GraphConv.into ei n := by
  unfold GraphConv.into
  refine Finset.filter_congr fun e _ => ?_
  rw [dstCol_apply, dstWords_apply]

/-- The summed rows at `(n, c)`: from zero, the table's rows at the sources of the edges into `n`. -/
theorem sumRows_apply (f : FVec Ideal S100000x128 .f32) (ei : IVec S2x1600000 32) (n : Fin 100000) (c : Fin 128) :
    sumRows f (srcWords ei) (dstWords ei) (ix2 n c)
      = GraphConv.zero + ∑ k ∈ GraphConv.into ei n, f (ix2 (GraphConv.src ei k) c) := by
  refine (sumRows_raw f ei n c).trans (congrArg₂ (· + ·) rfl ?_)
  refine Finset.sum_congr (into_eq ei n) fun k _ => ?_
  rw [gathered_apply, srcWords_apply]
  rfl

/-- Ones scatter-added from zero at node `n`, as a sum over all edges of one where the target word names `n`. -/
theorem cnt_raw (ei : IVec S2x1600000 32) (n : Fin 100000) :
    Host.scatterAdd (F := Ideal) scatter_S100000_S1600000x1_S1600000_n_0_0_1
        (broadcastInDim S100000 ![] bcast_S_S100000 (constant (F := Ideal) S_ .f32 0x00000000#32)) (dstCol (dstWords ei)) (broadcastInDim S1600000 ![] bcast_S_S1600000 (constant (F := Ideal) S_ .f32 0x3F800000#32)) (ix1 n)
      = (broadcastInDim S100000 ![] bcast_S_S100000 (constant (F := Ideal) S_ .f32 0x00000000#32)) (ix1 n) + ∑ e : Fin 1600000,
          if (dstCol (dstWords ei) (ix2 e (0 : Fin 1))).toInt = (((ix1 n : S100000.Idx) 0).val : Int)
          then (broadcastInDim S1600000 ![] bcast_S_S1600000 (constant (F := Ideal) S_ .f32 0x3F800000#32)) (ix1 e) else 0 :=
  GatherScatterIdx.scatterAdd_row_apply (N := 100000) (E := 1600000)
    scatter_S100000_S1600000x1_S1600000_n_0_0_1_wf (broadcastInDim S100000 ![] bcast_S_S100000 (constant (F := Ideal) S_ .f32 0x00000000#32)) (dstCol (dstWords ei)) (broadcastInDim S1600000 ![] bcast_S_S1600000 (constant (F := Ideal) S_ .f32 0x3F800000#32)) (ix1 n)

/-- The number of edges into `n`, from zero. -/
theorem cnt_apply (ei : IVec S2x1600000 32) (n : Fin 100000) :
    Host.scatterAdd (F := Ideal) scatter_S100000_S1600000x1_S1600000_n_0_0_1
        (broadcastInDim S100000 ![] bcast_S_S100000 (constant (F := Ideal) S_ .f32 0x00000000#32)) (dstCol (dstWords ei)) (broadcastInDim S1600000 ![] bcast_S_S1600000 (constant (F := Ideal) S_ .f32 0x3F800000#32)) (ix1 n)
      = GraphConv.zero + ∑ _k ∈ GraphConv.into ei n, GraphConv.one := by
  refine (cnt_raw ei n).trans (congrArg₂ (· + ·) rfl ?_)
  unfold GraphConv.into
  rw [Finset.sum_filter]
  refine Finset.sum_congr rfl fun e _ => ?_
  rw [dstCol_apply, dstWords_apply]
  rfl

/-- The edge counts from zero, as a vector over the nodes. -/
def cntVec (ei : IVec S2x1600000 32) : FVec Ideal S100000 .f32 :=
  Host.scatterAdd (F := Ideal) scatter_S100000_S1600000x1_S1600000_n_0_0_1
    (broadcastInDim S100000 ![] bcast_S_S100000 (constant (F := Ideal) S_ .f32 0x00000000#32)) (dstCol (dstWords ei)) (broadcastInDim S1600000 ![] bcast_S_S1600000 (constant (F := Ideal) S_ .f32 0x3F800000#32))

theorem cntVec_apply (ei : IVec S2x1600000 32) (n : Fin 100000) :
    cntVec ei (ix1 n) = GraphConv.zero + ∑ _k ∈ GraphConv.into ei n, GraphConv.one := by
  unfold cntVec
  exact cnt_apply ei n

theorem degree_eq (ei : IVec S2x1600000 32) :
    degree (F := Ideal) (dstWords ei) = maximumf (cntVec ei) (broadcastInDim S100000 ![] bcast_S_S100000 (constant (F := Ideal) S_ .f32 0x3F800000#32)) := rfl

/-- The floored in-degree at node `n`. -/
theorem degree_apply (ei : IVec S2x1600000 32) (n : Fin 100000) :
    degree (F := Ideal) (dstWords ei) (ix1 n) = GraphConv.deg ei n := by
  refine (congrFun (degree_eq ei) (ix1 n)).trans ?_
  refine (maximumf_apply (cntVec ei) (broadcastInDim S100000 ![] bcast_S_S100000 (constant (F := Ideal) S_ .f32 0x3F800000#32)) (ix1 n)).trans ?_
  unfold GraphConv.deg
  exact congrArg₂ max (cntVec_apply ei n) rfl

/-- A vector of node values as every column of a 100000 × 128 array, read at `(n, c)`. -/
theorem nodeB_apply {α : Type} (d : S100000.Idx → α) (h : S100000x1.BroadcastsInDim S100000x128 ![0, 1])
    (h' : S100000.BroadcastsInDim S100000x1 ![0]) (n : Fin 100000) (c : Fin 128) :
    broadcastInDim S100000x128 ![0, 1] h (broadcastInDim S100000x1 ![0] h' d) (ix2 n c) = d (ix1 n) := by
  refine (broadcastInDim_apply ![0, 1] h _ (ix2 n c) (ix2 n (0 : Fin 1)) fun a => ?_).trans
    (broadcastInDim_apply ![0] h' d (ix2 n (0 : Fin 1)) (ix1 n) fun a => ?_)
  · match a with
    | ⟨0, _⟩ =>
      show n.val = if (100000 : ℕ) = 1 then 0 else n.val
      rw [if_neg (by decide)]
    | ⟨1, _⟩ =>
      show (0 : ℕ) = if (1 : ℕ) = 1 then 0 else c.val
      rw [if_pos rfl]
  · match a with
    | ⟨0, _⟩ =>
      show n.val = if (100000 : ℕ) = 1 then 0 else n.val
      rw [if_neg (by decide)]

/-- The aggregation at `(n, c)` is the specification's. -/
theorem aggStage_apply (f : FVec Ideal S100000x128 .f32) (ei : IVec S2x1600000 32) (n : Fin 100000) (c : Fin 128) :
    aggStage f (srcWords ei) (dstWords ei) (ix2 n c) = GraphConv.agg f ei n c := by
  have h2 := sumRows_apply f ei n c
  have h3 := (nodeB_apply (degree (F := Ideal) (dstWords ei)) bcast_S100000x1_S100000x128_0_1
    bcast_S100000_S100000x1_0 n c).trans (degree_apply ei n)
  have h4 := hostDivf_read _ _ (ix2 n c) _ _ h2 h3
  unfold aggStage GraphConv.agg
  exact h4

/-- As arrays. -/
theorem aggStage_eq (f : FVec Ideal S100000x128 .f32) (ei : IVec S2x1600000 32) :
    aggStage f (srcWords ei) (dstWords ei) = GraphConv.aggArr f ei :=
  funext fun i => (congrArg (aggStage f (srcWords ei) (dstWords ei)) (idx2_eq i)).trans (aggStage_apply f ei _ _)

end Cert.ReferenceIdeal.RefValue

end
-- ==== Proof.RefReadLin.lean ====
/-
  The linear layers read at an index: a plain matrix product on the host is the sum over the contracted coordinate; a
  vector of column values broadcast down the rows reads its column's value; and `A · Wl + X · Wr + b` is the
  specification's `lin`.
-/
import proofs.«136065_j25357486915627_2_alg».proof.Proof.RefReadIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- The host's product of an m×k by a k×n matrix (the left operand's axis 1 contracted with the right operand's axis
    0) at `(r, c)`: the sum over the contracted coordinate of the products of the entries. -/
theorem dot_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    Host.dotGeneral (⟨[1], [0], [0], [1], [], [], w⟩ : DotDims _ _ _) prec A B (ix2 r c)
      = ∑ i : Fin k, A (ix2 r i) * B (ix2 i c) := by
  show FloatOps.dotGeneral _ prec .single A B (ix2 r c) = _
  rw [Ideal.dotGeneral_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

/-- A vector of `C` column values as a row, read at `(0, j)`. -/
theorem rowUp_apply {α : Type} {C : ℕ} (hC : C ≠ 1) (v : (⟨1, ![C]⟩ : Shape).Idx → α)
    (h' : (⟨1, ![C]⟩ : Shape).BroadcastsInDim ⟨2, ![1, C]⟩ ![1]) (j : Fin C) :
    broadcastInDim ⟨2, ![1, C]⟩ ![1] h' v (ix2 (0 : Fin 1) j) = v (ix1 j) :=
  broadcastInDim_apply ![1] h' v (ix2 (0 : Fin 1) j) (ix1 j) fun b => by
    match b with
    | ⟨0, _⟩ =>
      show j.val = if C = 1 then 0 else j.val
      rw [if_neg hC]

/-- A row of `C` values as every row of an a × C array, read at `(n, j)`. -/
theorem rowDown_apply {α : Type} {a C : ℕ} (hC : C ≠ 1) (u : (⟨2, ![1, C]⟩ : Shape).Idx → α)
    (h : (⟨2, ![1, C]⟩ : Shape).BroadcastsInDim ⟨2, ![a, C]⟩ ![0, 1]) (n : Fin a) (j : Fin C) :
    broadcastInDim ⟨2, ![a, C]⟩ ![0, 1] h u (ix2 n j) = u (ix2 (0 : Fin 1) j) :=
  broadcastInDim_apply ![0, 1] h u (ix2 n j) (ix2 (0 : Fin 1) j) fun b => by
    match b with
    | ⟨0, _⟩ =>
      show (0 : ℕ) = if (1 : ℕ) = 1 then 0 else n.val
      rw [if_pos rfl]
    | ⟨1, _⟩ =>
      show j.val = if C = 1 then 0 else j.val
      rw [if_neg hC]

/-- A vector of `C` column values as every row of an a × C array, read at `(n, j)`. -/
theorem rowBcast_apply {α : Type} {a C : ℕ} (hC : C ≠ 1) (v : (⟨1, ![C]⟩ : Shape).Idx → α)
    (h : (⟨2, ![1, C]⟩ : Shape).BroadcastsInDim ⟨2, ![a, C]⟩ ![0, 1])
    (h' : (⟨1, ![C]⟩ : Shape).BroadcastsInDim ⟨2, ![1, C]⟩ ![1]) (n : Fin a) (j : Fin C) :
    broadcastInDim ⟨2, ![a, C]⟩ ![0, 1] h (broadcastInDim ⟨2, ![1, C]⟩ ![1] h' v) (ix2 n j) = v (ix1 j) :=
  (rowDown_apply hC _ h n j).trans (rowUp_apply hC v h' j)

theorem rowB_apply (v : FVec Ideal S128 .f32) (n : Fin 100000) (j : Fin 128) : rowB v (ix2 n j) = v (ix1 j) :=
  rowBcast_apply (by decide) v _ _ n j

/-- The first linear layer at `(n, j)` is the specification's `lin`. -/
theorem lin1Stage_apply (A X : FVec Ideal S100000x128 .f32) (Wl Wr : FVec Ideal S128x128 .f32) (b : FVec Ideal S128 .f32)
    (n : Fin 100000) (j : Fin 128) :
    lin1Stage A X Wl Wr b (ix2 n j) = GraphConv.lin A X Wl Wr (fun j => b (ix1 j)) n j := by
  unfold lin1Stage GraphConv.lin
  refine congrArg₂ (· + ·) (congrArg₂ (· + ·) ?_ ?_) (rowB_apply b n j)
  · exact dot_plain_apply dot_S100000x128_S128x128_S100000x128_1_0_0_1_n_n_wf none A Wl n j
  · exact dot_plain_apply dot_S100000x128_S128x128_S100000x128_1_0_0_1_n_n_wf none X Wr n j

/-- The second linear layer at `(n, j)` is the specification's `lin`. -/
theorem lin2Stage_apply (A X : FVec Ideal S100000x128 .f32) (Wl Wr : FVec Ideal S128x40 .f32) (b : FVec Ideal S40 .f32)
    (n : Fin 100000) (j : Fin 40) :
    lin2Stage A X Wl Wr b (ix2 n j) = GraphConv.lin A X Wl Wr (fun j => b (ix1 j)) n j := by
  unfold lin2Stage GraphConv.lin
  refine congrArg₂ (· + ·) (congrArg₂ (· + ·) ?_ ?_) (rowBcast_apply (by decide) b _ _ n j)
  · exact dot_plain_apply dot_S100000x128_S128x40_S100000x40_1_0_0_1_n_n_wf none A Wl n j
  · exact dot_plain_apply dot_S100000x128_S128x40_S100000x40_1_0_0_1_n_n_wf none X Wr n j

end Cert.ReferenceIdeal.RefValue

end
-- ==== Proof.RefReadStats.lean ====
/-
  The column statistics and the normalised, rectified layer read at an index: a column sum on the host is the initial
  value plus the sum down the column; the mean is that over the node count; the outlined variance recomputes the mean,
  sums the squared deviations, and divides by the node count less a converted zero — which is the node count, and
  positive, so its guard selects the quotient; and the layer is the specification's `act`.
-/
import proofs.«136065_j25357486915627_2_alg».proof.Proof.RefReadLin
import proofs.«136065_j25357486915627_2_alg».proof.Proof.LibColumnSum
import proofs.«136065_j25357486915627_2_alg».proof.Proof.Lits

noncomputable section

open scoped BigOperators

namespace Cert.ReferenceIdeal.RefValue

open Cert.ReferenceIdeal Cert.ReferenceIdeal.Gen Idealize.ShloMosaic Idealize.ShloMosaic.ValueIdx

/-- The host's sum over axes, on the extended reals, is the exact sum from the initial value. -/
theorem hostReduceAdd_eq {s t u : Shape} {φ : FTy} {axes : List (Fin s.rank)} (x : FVec Ideal s φ) (init : u.Idx → Ideal φ)
    (h : s.ReducesTo axes t) (hu : 0 < u.numel) :
    Host.reduceAdd x init h hu = Ideal.hostReduceAdd h x (init (Shape.Idx.first hu)) := rfl

/-- The column sums from the zero word, at column `j`. -/
theorem colSum_apply (h : FVec Ideal S100000x128 .f32) (j : Fin 128) :
    (Host.reduceAdd h (constant (F := Ideal) S_ .f32 0x00000000#32) reducesTo_S100000x128_S128_d0 h_S_) (ix1 j) = GraphConv.zero + ∑ n : Fin 100000, h (ix2 n j) := by
  have hR : S100000x128.Reduces [0] S128 := by decide
  refine (congrFun (hostReduceAdd_eq h (constant (F := Ideal) S_ .f32 0x00000000#32) reducesTo_S100000x128_S128_d0 h_S_) (ix1 j)).trans ?_
  refine (Ideal.hostReduceAdd_single reducesTo_S100000x128_S128_d0 hR h ((constant (F := Ideal) S_ .f32 0x00000000#32) (Shape.Idx.first h_S_)) (ix1 j)).trans ?_
  refine congrArg₂ (· + ·) rfl ?_
  exact Finset.sum_congr rfl fun n _ => congrArg h (Cert.LibColumnSum.lift_col hR j n)

/-- The column mean is the specification's. -/
theorem meanStage_apply (h : FVec Ideal S100000x128 .f32) (j : Fin 128) :
    meanStage h (ix1 j) = GraphConv.mean h j := by
  have h1 := colSum_apply h j
  have h2 : (broadcastInDim S128 ![] bcast_S_S128 (constant (F := Ideal) S_ .f32 0x47C35000#32)) (ix1 j) = GraphConv.nodes := rfl
  have h4 := hostDivf_read _ _ (ix1 j) _ _ h1 h2
  unfold meanStage GraphConv.mean
  exact h4

/-- The deviation the variance takes at `(n, j)` is the entry less the specification's column mean. -/
theorem devStage_apply (h : FVec Ideal S100000x128 .f32) (n : Fin 100000) (j : Fin 128) :
    devStage h (ix2 n j) = h (ix2 n j) - GraphConv.mean h j := by
  have h1 := colSum_apply h j
  have h2 := (rowUp_apply (by decide) (Host.reduceAdd h (constant (F := Ideal) S_ .f32 0x00000000#32) reducesTo_S100000x128_S128_d0 h_S_) bcast_S128_S1x128_1 j).trans h1
  have h3 : (broadcastInDim S1x128 ![] bcast_S_S1x128 (constant (F := Ideal) S_ .f32 0x47C35000#32)) (ix2 (0 : Fin 1) j) = GraphConv.nodes := rfl
  have h4 := hostDivf_read _ _ (ix2 (0 : Fin 1) j) _ _ h2 h3
  have h5 := (rowDown_apply (by decide) _ bcast_S1x128_S100000x128_0_1 n j).trans h4
  unfold devStage GraphConv.mean
  exact congrArg (fun s => h (ix2 n j) - s) h5

/-- The variance's divisor is the node count: the converted zero is zero. -/
theorem denom_apply (i : S_.Idx) : denomStage (F := Ideal) i = GraphConv.nodes := by
  show GraphConv.nodes - (((0#32 : BitVec 32).toInt : ℝ) : EReal) = GraphConv.nodes
  have h0 : (0#32 : BitVec 32).toInt = 0 := by decide
  rw [h0]
  simp

/-- The node count exceeds zero. -/
theorem cmp_nodes_zero : Ideal.cmp .ogt GraphConv.nodes (Ideal.ofBits .f32 0x00000000#32) = 1#1 := by
  have hz : Ideal.ofBits .f32 0x00000000#32 = (0 : EReal) := GraphConv.zero_eq
  have hlt : (0 : EReal) < GraphConv.nodes := by
    rw [GraphConv.nodes_eq]
    exact_mod_cast (by norm_num : (0 : ℝ) < 100000)
  unfold Ideal.cmp
  rw [hz]
  simp [hlt]

/-- The column variance is the specification's. -/
theorem varStage_apply (h : FVec Ideal S100000x128 .f32) (j : Fin 128) :
    varStage h (ix1 j) = GraphConv.var h j := by
  have hsq : (Host.reduceAdd (mulf (devStage h) (devStage h)) (constant (F := Ideal) S_ .f32 0x00000000#32) reducesTo_S100000x128_S128_d0 h_S_) (ix1 j)
      = GraphConv.zero + ∑ n : Fin 100000, (h (ix2 n j) - GraphConv.mean h j) * (h (ix2 n j) - GraphConv.mean h j) :=
    (colSum_apply (mulf (devStage h) (devStage h)) j).trans (congrArg (fun s => GraphConv.zero + s) (Finset.sum_congr rfl fun n _ =>
      (mulf_apply (devStage h) (devStage h) (ix2 n j)).trans (by rw [devStage_apply])))
  have hdb : (broadcastInDim S128 ![] bcast_S_S128 (denomStage (F := Ideal))) (ix1 j) = GraphConv.nodes := denom_apply _
  have hq := hostDivf_read _ _ (ix1 j) _ _ hsq hdb
  have hc : (broadcastInDim S128 ![] bcast_S_S128 (cmpf .ogt (denomStage (F := Ideal)) (constant (F := Ideal) S_ .f32 0x00000000#32))) (ix1 j) = 1#1 := by
    show Ideal.cmp .ogt (denomStage (F := Ideal) _) (Ideal.ofBits .f32 0x00000000#32) = 1#1
    rw [denom_apply]
    exact cmp_nodes_zero
  unfold varStage GraphConv.var
  exact select_read _ _ _ (ix1 j) _ hc hq

/-- Normalise, scale, shift, rectify by given column statistics, at `(n, j)`: the specification's `actWith`. -/
theorem actWithStage_apply (mu va : FVec Ideal S128 .f32) (h : FVec Ideal S100000x128 .f32) (γ β : FVec Ideal S128 .f32)
    (n : Fin 100000) (j : Fin 128) :
    actWithStage mu va h γ β (ix2 n j)
      = GraphConv.actWith (fun j => mu (ix1 j)) (fun j => va (ix1 j)) h (fun j => γ (ix1 j)) (fun j => β (ix1 j)) n j := by
  unfold actWithStage GraphConv.actWith
  show max (((rowB γ (ix2 n j) * (h (ix2 n j) - rowB mu (ix2 n j)))
      * rowB (Host.rsqrt (addf va (broadcastInDim S128 ![] bcast_S_S128 (constant S_ .f32 0x3727C5AC#32)))) (ix2 n j))
      + rowB β (ix2 n j)) GraphConv.zero = _
  rw [rowB_apply γ, rowB_apply mu, rowB_apply β, rowB_apply _ n j]
  rfl

/-- By the layer's own statistics: the specification's `act`. -/
theorem actStage_apply (h : FVec Ideal S100000x128 .f32) (γ β : FVec Ideal S128 .f32) (n : Fin 100000) (j : Fin 128) :
    actStage h γ β (ix2 n j) = GraphConv.act h (fun j => γ (ix1 j)) (fun j => β (ix1 j)) n j := by
  unfold actStage GraphConv.act
  rw [actWithStage_apply]
  have hm : (fun j => meanStage h (ix1 j)) = GraphConv.mean h := funext (meanStage_apply h)
  have hv : (fun j => varStage h (ix1 j)) = GraphConv.var h := funext (varStage_apply h)
  rw [hm, hv]

/-- As arrays. -/
theorem actStage_eq (h : FVec Ideal S100000x128 .f32) (γ β : FVec Ideal S128 .f32) :
    actStage h γ β = GraphConv.actArr h (fun j => γ (ix1 j)) (fun j => β (ix1 j)) :=
  funext fun i => (congrArg (actStage h γ β) (idx2_eq i)).trans (actStage_apply h γ β _ _)

end Cert.ReferenceIdeal.RefValue

end
-- ==== Proof.RefResult.lean ====
/-
  The reference's result read at an index is the specification: the first convolution, the normalised and rectified
  layer and the aggregations are the specification's arrays, and the second linear layer read at `(n, j)` is its
  `lin` over them.
-/
import proofs.«136065_j25357486915627_2_alg».proof.Proof.RefReadAgg
import proofs.«136065_j25357486915627_2_alg».proof.Proof.RefReadStats

noncomputable section

namespace Cert.ReferenceIdeal.RefValue

open Cert.ReferenceIdeal Cert.ReferenceIdeal.Gen Idealize.ShloMosaic Idealize.ShloMosaic.ValueIdx

/-- The first convolution is the specification's `hidden`. -/
theorem hiddenStage_eq (x : FVec Ideal S100000x128 .f32) (ei : IVec S2x1600000 32) (W1l W1r : FVec Ideal S128x128 .f32)
    (b1 : FVec Ideal S128 .f32) :
    hiddenStage x ei W1l W1r b1 = GraphConv.hidden x ei W1l W1r (fun j => b1 (ix1 j)) := by
  unfold hiddenStage GraphConv.hidden
  rw [aggStage_eq]
  exact funext fun i =>
    (congrArg (lin1Stage (F := Ideal) (GraphConv.aggArr x ei) x W1l W1r b1) (idx2_eq i)).trans
      (lin1Stage_apply (GraphConv.aggArr x ei) x W1l W1r b1 _ _)

/-- The result at `(n, j)` is the specification's `out`. -/
theorem result_apply (x : FVec Ideal S100000x128 .f32) (ei : IVec S2x1600000 32) (W1l W1r : FVec Ideal S128x128 .f32)
    (b1 γ β : FVec Ideal S128 .f32) (W2l W2r : FVec Ideal S128x40 .f32) (b2 : FVec Ideal S40 .f32)
    (n : Fin 100000) (j : Fin 40) :
    result x ei W1l W1r b1 γ β W2l W2r b2 (ix2 n j)
      = GraphConv.out x ei W1l W1r (fun j => b1 (ix1 j)) (fun j => γ (ix1 j)) (fun j => β (ix1 j)) W2l W2r
          (fun j => b2 (ix1 j)) n j := by
  unfold result netStage GraphConv.out
  rw [hiddenStage_eq, actStage_eq, aggStage_eq]
  exact lin2Stage_apply _ _ W2l W2r b2 n j

end Cert.ReferenceIdeal.RefValue

end
-- ==== Proof.lean ====
/-
  Two mean-aggregating graph convolutions with a batch normalisation between them: the tiled accelerator program
  against the plain array program, on the extended reals.

  Both programs compute, for every node `n` and class `j`, the specification `GraphConv.out`.  The plain program does
  so operation by operation.  The tiled program differs in four ways, none of which changes a value on the extended
  reals except where noted: it aggregates the features and a column of ones in one scatter and multiplies by the
  reciprocal of the floored in-degree (a product with the reciprocal of a nonzero number is the quotient); it forms
  the linear layers block of rows by block of rows (the same sums); it accumulates the column sums and the column sums
  of squares over the blocks of each half of the nodes and takes the variance as the mean of squares minus the squared
  mean, floored at zero (equal to the mean squared deviation when the entries are real numbers — this is where the
  precondition, every float input finite, is used — and nonnegative, so the floor is idle); and it pads the last
  layer's parameters with zero columns and drops them again.

  The three frames: the two kernel programs' are the generated ones; the plain program's is its run with the result
  dropped.  The idealization rewrote nothing, so `preserves` has nothing to state.
-/
import proofs.«136065_j25357486915627_2_alg».proof.Defs
import proofs.«136065_j25357486915627_2_alg».proof.Proof.Gen.Kernel
import proofs.«136065_j25357486915627_2_alg».proof.Proof.Gen.Kernel.Frame
import proofs.«136065_j25357486915627_2_alg».proof.Proof.Gen.KernelIdeal
import proofs.«136065_j25357486915627_2_alg».proof.Proof.Gen.KernelIdeal.Frame
import proofs.«136065_j25357486915627_2_alg».proof.Proof.Gen.ReferenceIdeal
import proofs.«136065_j25357486915627_2_alg».proof.Proof.Gen.Pre_finite_inputs
import proofs.«136065_j25357486915627_2_alg».proof.Proof.KerRun
import proofs.«136065_j25357486915627_2_alg».proof.Proof.Entry1
import proofs.«136065_j25357486915627_2_alg».proof.Proof.Entry2
import proofs.«136065_j25357486915627_2_alg».proof.Proof.PreReal
import proofs.«136065_j25357486915627_2_alg».proof.Proof.RefRun
import proofs.«136065_j25357486915627_2_alg».proof.Proof.RefResult
import Idealize.ShloMosaic.Adequacy
import Idealize.ShloMosaic.Init

set_option maxRecDepth 100000

noncomputable section

namespace Cert.Proof

open Idealize.ShloMosaic Idealize.ShloMosaic.TcCoe Idealize.SL.Sem Idealize.ShloMosaic.ValueIdx

/-- Under the precondition every entry of the first convolution is a real number. -/
theorem hidden_real (m : (ℓ : Loc Cert.KernelIdeal.nD Cert.KernelIdeal.τ Cert.KernelIdeal.sig) → Buf (Elt Ideal) ℓ)
    (hpre : Cert.Pre_KernelIdeal m) (c : Dev Cert.KernelIdeal.nD) (n : Fin 100000) (j : Fin 128) :
    GraphConv.IsReal (Cert.KernelIdeal.Bridge.hid m c (ix2 n j)) := by
  obtain ⟨hx, hwl, hwr, hb⟩ := GraphConv.reals_of_pre _ _ _ _ _ _ _ _ _ _ (hpre c)
  exact GraphConv.isReal_hidden _ _ _ _ _ hx hwl hwr (fun j => hb _) n j

/-- The tiled program's result array, entry by entry, is the specification. -/
theorem kernel_value (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD)
    (n : Fin 100000) (j : Fin 40) :
    (Cert.KernelIdeal.Gen.W12 m ρ c (Proc.devRef .tc Cert.KernelIdeal.main_v64) : Cert.KernelIdeal.S100000x40.Idx → EReal) (ix2 n j)
      = GraphConv.out (Cert.KernelIdeal.Bridge.x m c) (Cert.KernelIdeal.Bridge.ei m c) (Cert.KernelIdeal.Bridge.w1l m c)
          (Cert.KernelIdeal.Bridge.w1r m c) (Cert.KernelIdeal.Bridge.b1 m c) (Cert.KernelIdeal.Bridge.gam m c)
          (Cert.KernelIdeal.Bridge.bet m c) (Cert.KernelIdeal.Bridge.w2l m c) (Cert.KernelIdeal.Bridge.w2r m c)
          (Cert.KernelIdeal.Bridge.b2 m c) n j :=
  Cert.KernelIdeal.Bridge.out_final m ρ c
    (fun n j => Cert.KernelIdeal.Bridge.out_normed m ρ c (fun n j => hidden_real m hpre c n j) n j) n j

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := Cert.ReferenceIdeal.RefValue.frame_ri

theorem preserves : Cert.preserves_Kernel_KernelIdeal := trivial

/-- Both programs end with the specification in their result arrays. -/
theorem algebraic : Cert.algebraic_KernelIdeal_ReferenceIdeal := by
  intro m ρ m' ρ' hpre hagree
  refine ⟨fun c => Cert.KernelIdeal.Gen.W12 m ρ c (Proc.devRef .tc Cert.KernelIdeal.main_v64),
    Cert.KernelIdeal.RunValue.run m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6, h7, h8, h9⟩ := hagree c
  rw [h0, h1, h2, h3, h4, h5, h6, h7, h8, h9]
  funext i
  obtain ⟨n, j, rfl⟩ : ∃ (n : Fin 100000) (j : Fin 40), i = ix2 n j := ⟨i 0, i 1, eq_ix2 i⟩
  exact (Cert.ReferenceIdeal.RefValue.result_apply _ _ _ _ _ _ _ _ _ _ n j).trans (kernel_value m ρ hpre c n j).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
